-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x256 : Shape := ⟨3, ![8, 1024, 256]⟩
abbrev S8192x256 : Shape := ⟨2, ![8192, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8x1024x256 .f32) (main_arg1 : FVec F S8192x256 .f32) : IVec S_ 1 :=
  let main_v0 : FVec F S8x1024x256 .f32 := Host.absf main_arg0
  let main_cst : FVec F S_ .f32 := constant S_ .f32 0x7F800000#32
  let main_v1 : FVec F S8x1024x256 .f32 := broadcastInDim S8x1024x256 ![] bcast_S_S8x1024x256 main_cst
  let main_v2 : IVec S8x1024x256 1 := cmpf .olt main_v0 main_v1
  let main_c : IVec S_ 1 := constantI S_ 1 1#1
  let main_v3 : IVec S_ 1 := (fun x v => Host.reduce IntOp.andi x v reducesTo_S8x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8x1024x256 : Shape := ⟨3, ![8, 1024, 256]⟩
abbrev S8192x256 : Shape := ⟨2, ![8192, 256]⟩
abbrev S1x1 : Shape := ⟨2, ![1, 1]⟩
abbrev S512x256 : Shape := ⟨2, ![512, 256]⟩
abbrev S256x8192 : Shape := ⟨2, ![256, 8192]⟩
abbrev S1x8192 : Shape := ⟨2, ![1, 8192]⟩
abbrev S264x8192 : Shape := ⟨2, ![264, 8192]⟩
abbrev S8192 : Shape := ⟨1, ![8192]⟩
abbrev S512x8192 : Shape := ⟨2, ![512, 8192]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1x1 : Shape := ⟨3, ![1, 1, 1]⟩
abbrev S512x8 : Shape := ⟨2, ![512, 8]⟩
abbrev S512x264 : Shape := ⟨2, ![512, 264]⟩
abbrev S1x1x8192 : Shape := ⟨3, ![1, 1, 8192]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8x1024x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S1x1, .f32⟩
  | .hbm, ⟨5, _⟩ => ⟨S1x1, .f32⟩
  | .hbm, ⟨6, _⟩ => ⟨S8x1024x256, .f32⟩
  | .hbm, ⟨7, _⟩ => ⟨S_, .f32⟩
  | .hbm, ⟨8, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S8192x256, .f32⟩
  | .local _ .vmem, ⟨3, _⟩ => ⟨S512x256, .f32⟩
  | .local _ .vmem, ⟨4, _⟩ => ⟨S512x256, .f32⟩
  | .local _ .vmem, ⟨5, _⟩ => ⟨S1x1, .f32⟩
  | .local _ .vmem, ⟨6, _⟩ => ⟨S1x1, .f32⟩
  | .local _ .vmem, ⟨7, _⟩ => ⟨S8192x256, .bf16⟩
  | .local _ .vmem, ⟨8, _⟩ => ⟨S256x8192, .bf16⟩
  | .local _ .vmem, ⟨9, _⟩ => ⟨S1x8192, .f32⟩
  | .local _ .vmem, ⟨10, _⟩ => ⟨S264x8192, .f32⟩
  | .local _ .vmem, ⟨11, _⟩ => ⟨S1x1, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S8x1024x256_S8192x256 : S8x1024x256.ShapeCasts S8192x256
  inb_S8192x256_S8192x256_0_0 : ∀ a, (![0, 0] : Fin 2 → Nat) a + S8192x256.size a ≤ S8192x256.size a
  h_S8192x256 : 0 < S8192x256.numel
  transposes_S8192x256_p1_0_S256x8192 : S8192x256.Transposes [1, 0] S256x8192
  bitsLt_bf16_f32 : FTy.bits .bf16 < FTy.bits .f32
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  packedbf16_S256x8192_S256x8192_0_0 : (Rect.unit (s := S256x8192) ![0, 0] S256x8192.size inb_S256x8192_S256x8192_0_0).PackedRows (EltTy.packing .bf16)
  reduces_S256x8192_S8192 : S256x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x8192_S512x8192 : S1x8192.Broadcasts S512x8192
  reduces_S512x8192_S512 : S512x8192.Reduces [1] S512
  shapeCasts_S512_S512x1 : S512.ShapeCasts S512x1
  broadcasts_S512x1_S512x8192 : S512x1.Broadcasts S512x8192
  inb_S1x1_S1x1_0_0 : ∀ a, (![0, 0] : Fin 2 → Nat) a + S1x1.size a ≤ S1x1.size a
  h_S1x1 : 0 < S1x1.numel
  shapeCasts_S512x256_S1x512x256 : S512x256.ShapeCasts S1x512x256
  reduces_S1x512x256_S1 : S1x512x256.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  concatenates_S512x256_S512x8_S512x264_d1 : Shape.Concatenates [S512x256, S512x8] S512x264 1
  inb_S264x8192_S264x8192_0_0 : ∀ a, (![0, 0] : Fin 2 → Nat) a + S264x8192.size a ≤ S264x8192.size a
  h_S264x8192 : 0 < S264x8192.numel
  shapeCasts_S264x8192_S264x8192 : S264x8192.ShapeCasts S264x8192
  slices_S264x8192_o256_0_S1x8192 : S264x8192.Slices ![256, 0] S1x8192
  shapeCasts_S1x8192_S1x1x8192 : S1x8192.ShapeCasts S1x1x8192
  reduces_S1x1x8192_S1 : S1x1x8192.Reduces [1, 2] S1
  broadcasts_S1x1_S1x8192 : S1x1.Broadcasts S1x8192
  slices_S264x8192_o0_0_S256x8192 : S264x8192.Slices ![0, 0] S256x8192
  shapeCasts_S8192x256_S8x1024x256 : S8192x256.ShapeCasts S8x1024x256
  shapeCasts_S1x1_S_ : S1x1.ShapeCasts S_
  dot_S512x256_S256x8192_S512x8192_1_0_0_1_n_n_wf : DotDims.WF S512x256 S256x8192 S512x8192 [1] [0] [0] [1] [] []
  dot_S512x8192_S8192x256_S512x256_1_0_0_1_n_n_wf : DotDims.WF S512x8192 S8192x256 S512x256 [1] [0] [0] [1] [] []
  dot_S512x264_S512x8192_S264x8192_0_0_1_1_n_n_wf : DotDims.WF S512x264 S512x8192 S264x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x256_S256x8192_S512x8192_1_0_0_1_n_n : DotDims S512x256 S256x8192 S512x8192 where
  lhsContracting := [1]
  rhsContracting := [0]
  lhsNonContracting := [0]
  rhsNonContracting := [1]
  lhsBatch := []
  rhsBatch := []
  wf := dot_S512x256_S256x8192_S512x8192_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x264_S512x8192_S264x8192_0_0_1_1_n_n : DotDims S512x264 S512x8192 S264x8192 where
  lhsContracting := [0]
  rhsContracting := [0]
  lhsNonContracting := [1]
  rhsNonContracting := [1]
  lhsBatch := []
  rhsBatch := []
  wf := dot_S512x264_S512x8192_S264x8192_0_0_1_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x256 : Shape := ⟨3, ![8, 1024, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 148
  | .vmem => 0
  | .smem => 0
  | _ => 0

abbrev hbmTy0_0 (i : Nat) : BufTy := match i % 128 with
  | 0 => ⟨S8x1024x256, .f32⟩
  | 1 => ⟨S8192x256, .f32⟩
  | 2 => ⟨S8192x256, .f32⟩
  | 3 => ⟨S8192x256, .f32⟩
  | 4 => ⟨S_, .f32⟩
  | 5 => ⟨S8192, .f32⟩
  | 6 => ⟨S8192x1, .f32⟩
  | 7 => ⟨S8192x256, .f32⟩
  | 8 => ⟨S_, .f32⟩
  | 9 => ⟨S8192, .f32⟩
  | 10 => ⟨S1x8192, .f32⟩
  | 11 => ⟨S8192x8192, .f32⟩
  | 12 => ⟨S8192x8192, .f32⟩
  | 13 => ⟨S8192x8192, .f32⟩
  | 14 => ⟨S256x8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S8192x8192, .f32⟩
  | 21 => ⟨S_, .f32⟩
  | 22 => ⟨S8192x8192, .f32⟩
  | 23 => ⟨S8192x8192, .f32⟩
  | 24 => ⟨S_, .f32⟩
  | 25 => ⟨S8192, .f32⟩
  | 26 => ⟨S_, .f32⟩
  | 27 => ⟨S8192, .f32⟩
  | 28 => ⟨S8192, .f32⟩
  | 29 => ⟨S8192x1, .f32⟩
  | 30 => ⟨S8192x8192, .f32⟩
  | 31 => ⟨S8192x8192, .f32⟩
  | 32 => ⟨S8192x8192, .f32⟩
  | 33 => ⟨S_, .f32⟩
  | 34 => ⟨S8192, .f32⟩
  | 35 => ⟨S8192x1, .f32⟩
  | 36 => ⟨S8192x8192, .f32⟩
  | 37 => ⟨S8192x8192, .f32⟩
  | 38 => ⟨S8192x256, .f32⟩
  | 39 => ⟨S8x1024x256, .f32⟩
  | 40 => ⟨S_, .f32⟩
  | 41 => ⟨S8192, .f32⟩
  | 42 => ⟨S_, .f32⟩
  | 43 => ⟨S8192, .f32⟩
  | 44 => ⟨S8192, .f32⟩
  | 45 => ⟨S_, .f32⟩
  | 46 => ⟨S8192, .f32⟩
  | 47 => ⟨S_, .f32⟩
  | 48 => ⟨S8192, .f32⟩
  | 49 => ⟨S8192, .f32⟩
  | 50 => ⟨S8192, .f32⟩
  | 51 => ⟨S_, .f32⟩
  | 52 => ⟨S_, .f32⟩
  | 53 => ⟨S_, .f32⟩
  | 54 => ⟨S8192, .f32⟩
  | 55 => ⟨S8192, .f32⟩
  | 56 => ⟨S_, .f32⟩
  | 57 => ⟨S_, .f32⟩
  | 58 => ⟨S8192, .f32⟩
  | 59 => ⟨S8192, .f32⟩
  | 60 => ⟨S8192, .f32⟩
  | 61 => ⟨S8192, .f32⟩
  | 62 => ⟨S8192x8192, .f32⟩
  | 63 => ⟨S8192x256, .f32⟩
  | 64 => ⟨S_, .f32⟩
  | 65 => ⟨S8192x256, .f32⟩
  | 66 => ⟨S_, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x1, .f32⟩
  | 74 => ⟨S8192x256, .f32⟩
  | 75 => ⟨S8192x256, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S8192, .f32⟩
  | 83 => ⟨S_, .f32⟩
  | 84 => ⟨S8192, .f32⟩
  | 85 => ⟨S8192, .f32⟩
  | 86 => ⟨S8192, .f32⟩
  | 87 => ⟨S8x1024x256, .f32⟩
  | 88 => ⟨S8x1024x256, .f32⟩
  | 89 => ⟨S_, .f32⟩
  | 90 => ⟨S_, .f32⟩
  | 91 => ⟨S_, .f32⟩
  | 92 => ⟨S_, .f32⟩
  | 93 => ⟨S8x1024x256, .f32⟩
  | 94 => ⟨S8x1024x256, .f32⟩
  | 95 => ⟨S_, .f32⟩
  | 96 => ⟨S_, .f32⟩
  | 97 => ⟨S_, .f32⟩
  | 98 => ⟨S_, .f32⟩
  | 99 => ⟨S8192x256, .f32⟩
  | 100 => ⟨S_, .f32⟩
  | 101 => ⟨S_, .f32⟩
  | 102 => ⟨S_, .f32⟩
  | 103 => ⟨S8192, .f32⟩
  | 104 => ⟨S_, .f32⟩
  | 105 => ⟨S8192, .f32⟩
  | 106 => ⟨S8192, .f32⟩
  | 107 => ⟨S_, .f32⟩
  | 108 => ⟨S8192, .f32⟩
  | 109 => ⟨S8192, .f32⟩
  | 110 => ⟨S8192, .f32⟩
  | 111 => ⟨S8192, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S8192, .f32⟩
  | 120 => ⟨S8192, .f32⟩
  | 121 => ⟨S_, .f32⟩
  | 122 => ⟨S8192, .f32⟩
  | 123 => ⟨S8192, .f32⟩
  | 124 => ⟨S8192, .f32⟩
  | 125 => ⟨S8192, .f32⟩
  | 126 => ⟨S_, .f32⟩
  | 127 => ⟨S_, .f32⟩
  | _ => ⟨S8x1024x256, .f32⟩

abbrev hbmTy0_1 (i : Nat) : BufTy := match i % 128 with
  | 0 => ⟨S_, .f32⟩
  | 1 => ⟨S_, .f32⟩
  | 2 => ⟨S8192, .f32⟩
  | 3 => ⟨S8192, .f32⟩
  | 4 => ⟨S8192, .f32⟩
  | 5 => ⟨S8192, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S8x1024x256, .f32⟩
  | 19 => ⟨S8x1024x256, .f32⟩
  | _ => ⟨S8x1024x256, .f32⟩

abbrev hbmTy (i : Nat) : BufTy := match i / 128 with
  | 0 => hbmTy0_0 i
  | 1 => hbmTy0_1 i
  | _ => ⟨S8x1024x256, .f32⟩

abbrev bufTy : (tb : Table) → Fin (tcTables nBuf tb) → BufTy
  | .hbm, ⟨i, _⟩ => hbmTy i
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩
abbrev main_cst_15 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_16 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩
abbrev main_cst_18 : Ref sig .tc := ⟨.hbm, 81, rfl⟩
abbrev main_v60 : Ref sig .tc := ⟨.hbm, 82, rfl⟩
abbrev main_cst_19 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_20 : Ref sig .tc := ⟨.hbm, 89, rfl⟩
abbrev main_v66 : Ref sig .tc := ⟨.hbm, 90, rfl⟩
abbrev main_cst_21 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_22 : Ref sig .tc := ⟨.hbm, 95, rfl⟩
abbrev main_v70 : Ref sig .tc := ⟨.hbm, 96, rfl⟩
abbrev main_cst_23 : Ref sig .tc := ⟨.hbm, 97, rfl⟩
abbrev main_v71 : Ref sig .tc := ⟨.hbm, 98, rfl⟩
abbrev main_v72 : Ref sig .tc := ⟨.hbm, 99, rfl⟩
abbrev main_cst_24 : Ref sig .tc := ⟨.hbm, 100, rfl⟩
abbrev main_v73 : Ref sig .tc := ⟨.hbm, 101, rfl⟩
abbrev main_cst_25 : Ref sig .tc := ⟨.hbm, 102, rfl⟩
abbrev main_v74 : Ref sig .tc := ⟨.hbm, 103, rfl⟩
abbrev main_cst_26 : Ref sig .tc := ⟨.hbm, 104, rfl⟩
abbrev main_v75 : Ref sig .tc := ⟨.hbm, 105, rfl⟩
abbrev main_v76 : Ref sig .tc := ⟨.hbm, 106, rfl⟩
abbrev main_cst_27 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_28 : Ref sig .tc := ⟨.hbm, 112, rfl⟩
abbrev main_v81 : Ref sig .tc := ⟨.hbm, 113, rfl⟩
abbrev main_v82 : Ref sig .tc := ⟨.hbm, 114, rfl⟩
abbrev main_cst_29 : Ref sig .tc := ⟨.hbm, 115, rfl⟩
abbrev main_v83 : Ref sig .tc := ⟨.hbm, 116, rfl⟩
abbrev main_cst_30 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_31 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_32 : Ref sig .tc := ⟨.hbm, 126, rfl⟩
abbrev main_v91 : Ref sig .tc := ⟨.hbm, 127, rfl⟩
abbrev main_v92 : Ref sig .tc := ⟨.hbm, 128, rfl⟩
abbrev main_cst_33 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_34 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_35 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_36 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩

abbrev nD : Nat := 1
abbrev τ : Topo := Topo.v7x

variable {F : FTy → Type} [FloatOps F]

class Facts₀ : Prop where
  shapeCasts_S8x1024x256_S8192x256 : S8x1024x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  shapeCasts_S8192x256_S8x1024x256 : S8192x256.ShapeCasts S8x1024x256
  reducesTo_S8192x8192_S8192_d0 : S8192x8192.ReducesTo [0] S8192
  reducesTo_S8192_S_d0 : S8192.ReducesTo [0] S_
  transposes_S8192x8192_S8192x8192_1_0 : S8192x8192.Transposes [1, 0] S8192x8192
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  reducesTo_S8x1024x256_S_d0_1_2 : S8x1024x256.ReducesTo [0, 1, 2] S_
  reducesTo_S8192x256_S_d0_1 : S8192x256.ReducesTo [0, 1] S_
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Common.lean ====
/-
  What the three cases of the kernel body share. The grid has 16 points, one per tile of 512 token rows. The
  body branches twice on the point: at the FIRST point it prepares the codebook-derived scratch (the codebook
  itself, its doubled transpose, the squared norms of its rows); at the LAST point it computes the two scalar
  results from the accumulators. So there are three cases: the first point, a middle point, the last point.
  The two scalar output windows are stored only at the last point and are idle (and not written back) elsewhere.
-/
import proofs.«125548_g45775761441265_cont_8to1_c_906_26_alg».proof.Proof.Gen.Kernel.Frame
import proofs.«125548_g45775761441265_cont_8to1_c_906_26_alg».proof.Proof.Gen.Kernel.Skeleton
import proofs.«125548_g45775761441265_cont_8to1_c_906_26_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first point": the body's scalar chain on the grid coordinate. -/
abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- "This is the last point". -/
abbrev condC (i : grid0.Coords) : Prop := k0_cond2 i = 1#1
theorem hcondC : ∀ t : Fin cfg0.N, condC (grid0.coords t) ↔ t.val = 15 :=
  (by decide +kernel : ∀ t : Fin grid0.N, condC (grid0.coords t) ↔ t.val = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem idleAt_3 : ∀ t : Fin cfg0.N, ¬condC (grid0.coords t) → cfg0.idle 3 (grid0.coords t) = true := by decide +kernel
theorem idleAt_4 : ∀ t : Fin cfg0.N, ¬condC (grid0.coords t) → cfg0.idle 4 (grid0.coords t) = true := by decide +kernel
theorem noFlush_3 : ∀ t : Fin cfg0.N, ¬condC (grid0.coords t) → (cfg0.win 3).flush t = false := by decide +kernel
theorem noFlush_4 : ∀ t : Fin cfg0.N, ¬condC (grid0.coords t) → (cfg0.win 4).flush t = false := by decide +kernel
theorem liveAt_3 : ∀ t : Fin cfg0.N, condC (grid0.coords t) → cfg0.idle 3 (grid0.coords t) = false := by decide +kernel
theorem liveAt_4 : ∀ t : Fin cfg0.N, condC (grid0.coords t) → cfg0.idle 4 (grid0.coords t) = false := by decide +kernel

/-! ## The memrefs the body is called with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- The five scratch operands: the codebook, its doubled transpose, the squared norms of its rows, the
    [264, 8192] accumulator (token-feature products in rows 0–255, column sums in rows 256–263), the squared error. -/
abbrev sc0 : Memref sig .tc .vmem S8192x256 .bf16 := Memref.whole cc0_scratch0
abbrev sc1 : Memref sig .tc .vmem S256x8192 .bf16 := Memref.whole cc0_scratch1
abbrev sc2 : Memref sig .tc .vmem S1x8192 .f32 := Memref.whole cc0_scratch2
abbrev sc3 : Memref sig .tc .vmem S264x8192 .f32 := Memref.whole cc0_scratch3
abbrev sc4 : Memref sig .tc .vmem S1x1 .f32 := Memref.whole cc0_scratch4

/-- The class invariant opened: each scratch operand owned whole at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.Kernel.Body

end
-- ==== Proof.K.Views.lean ====
/-
  One fixed view per buffer type of the kernel body.
-/
import proofs.«125548_g45775761441265_cont_8to1_c_906_26_alg».proof.Proof.K.Common
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One fixed view per buffer type, through which a buffer's contents are stated (the choice does not matter:
    a covered buffer reads the same through any whole view). -/
abbrev VwT : View sig .tc .vmem S512x256 .f32 := (Memref.whole cc0_stg2_0 : Memref sig .tc .vmem S512x256 .f32).view
abbrev VwS : View sig .tc .vmem S1x1 .f32 := (Memref.whole cc0_stg3_0 : Memref sig .tc .vmem S1x1 .f32).view
abbrev VwE : View sig .tc .vmem S8192x256 .bf16 := (sc0 : Memref sig .tc .vmem S8192x256 .bf16).view
abbrev VwD : View sig .tc .vmem S256x8192 .bf16 := (sc1 : Memref sig .tc .vmem S256x8192 .bf16).view
abbrev VwN : View sig .tc .vmem S1x8192 .f32 := (sc2 : Memref sig .tc .vmem S1x8192 .f32).view
abbrev VwA : View sig .tc .vmem S264x8192 .f32 := (sc3 : Memref sig .tc .vmem S264x8192 .f32).view

theorem hz : (![0, 0] : Fin 2 → Nat) = fun _ => 0 := funext fun a => by fin_cases a <;> rfl

end Cert.Kernel.Body

end
-- ==== Proof.K.State.lean ====
/-
  What the kernel's buffers hold after each point of the grid, as pure terms over the blocks the pipeline
  stages, and the pipeline's proof data stated over them.

  After the first point the three codebook-derived scratch buffers hold functions of the codebook block alone and
  never change again. The [264, 8192] accumulator and the squared-error accumulator are running totals: at the
  first point the body reads whatever they hold and discards it by a select on the point, so what they hold after
  the first point does not depend on it; at each later point the tile's contribution is added to what the point
  before left. The output tile is a function of the point's token tile and the codebook scratch. The two scalar
  outputs are functions of the accumulators at the last point.
-/
import proofs.«125548_g45775761441265_cont_8to1_c_906_26_alg».proof.Proof.K.Views

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At the first point the accumulators' old contents are discarded -/

/-- The body's comparison "the grid coordinate is 0" holds at the first point. -/
theorem isFirst : ∀ t : Fin cfg0.N, t.val = 0 → Scalar.cmpi .eq (BitVec.ofNat 32 ((grid0.coords t) 0).val) 0#32 = 1#1 :=
  (by decide +kernel : ∀ t : Fin grid0.N, t.val = 0 → Scalar.cmpi .eq (BitVec.ofNat 32 ((grid0.coords t) 0).val) 0#32 = 1#1)

/-- Where that comparison holds, the squared-error accumulator's start value is the zero block whatever was loaded. -/
theorem pay23_junk (i : grid0.Coords) (h : Scalar.cmpi .eq (BitVec.ofNat 32 (i 0).val) 0#32 = 1#1) (a b : Vec F S1x1 .f32) :
    k0_pay23 i a = k0_pay23 i b := by
  unfold k0_pay23
  dsimp only
  rw [h]
  rfl

/-- Where it holds, the [264, 8192] accumulator restarts from the zero block whatever was loaded. -/
theorem pay4_junk (arg0 : BitVec 32) (h : Scalar.cmpi .eq arg0 0#32 = 1#1) (v5 : FVec F S512x256 .bf16) (v24 : FVec F S512x8192 .bf16)
    (a b : Vec F S264x8192 .f32) : k0_pay4 arg0 v5 v24 a = k0_pay4 arg0 v5 v24 b := by
  unfold k0_pay4 k0_pay3
  dsimp only
  rw [h]
  rfl

/-! ## The buffers' contents point by point -/

/-- The token tile at point `t` and the codebook block (fetched once, at the first point). -/
def xb (c : Dev nD) (t : Fin cfg0.N) : Vec F S512x256 .f32 := iblk m c 0 t
def eb (c : Dev nD) : Vec F S8192x256 .f32 := iblk m c 1 t0_0

/-- The codebook-derived scratch after the first point: the codebook, its doubled transpose, its rows' squared norms. -/
def S0 (c : Dev nD) : Vec F S8192x256 .bf16 := k0_pay15 (eb m c)
def S1 (c : Dev nD) : Vec F S256x8192 .bf16 := k0_pay16 (eb m c)
def S2 (c : Dev nD) : Vec F S1x8192 .f32 := k0_pay17 (eb m c)

/-- The grid coordinate as the body reads it. -/
def arg0At (t : Fin cfg0.N) : BitVec 32 := BitVec.ofNat 32 ((grid0.coords t) 0).val

/-- Placeholders for what the accumulators hold before the first point (discarded there). -/
def junk3 : Vec F S264x8192 .f32 := VwA.read (Elt F) VwA.junk
def junk4 : Vec F S1x1 .f32 := VwS.read (Elt F) VwS.junk

/-- The [264, 8192] accumulator after point `n`. -/
def S3 (c : Dev nD) : (n : ℕ) → n < cfg0.N → Vec F S264x8192 .f32
  | 0, h => k0_pay4 (arg0At ⟨0, h⟩) (k0_pay19 (xb m c ⟨0, h⟩)) (k0_pay20 (xb m c ⟨0, h⟩) (S2 m c) (S1 m c)) junk3
  | n + 1, h => k0_pay4 (arg0At ⟨n + 1, h⟩) (k0_pay19 (xb m c ⟨n + 1, h⟩)) (k0_pay20 (xb m c ⟨n + 1, h⟩) (S2 m c) (S1 m c))
      (S3 c n (Nat.lt_of_succ_lt h))

/-- The squared-error accumulator after point `n`. -/
def S4 (c : Dev nD) : (n : ℕ) → n < cfg0.N → Vec F S1x1 .f32
  | 0, h => k0_pay2 (k0_pay23 (grid0.coords ⟨0, h⟩) junk4) (k0_pay24 (xb m c ⟨0, h⟩) (S2 m c) (S1 m c) (S0 m c))
  | n + 1, h => k0_pay2 (k0_pay23 (grid0.coords ⟨n + 1, h⟩) (S4 c n (Nat.lt_of_succ_lt h)))
      (k0_pay24 (xb m c ⟨n + 1, h⟩) (S2 m c) (S1 m c) (S0 m c))

theorem S3_succ (c : Dev nD) (n : ℕ) (h : n + 1 < cfg0.N) :
    S3 m c (n + 1) h = k0_pay4 (arg0At ⟨n + 1, h⟩) (k0_pay19 (xb m c ⟨n + 1, h⟩)) (k0_pay20 (xb m c ⟨n + 1, h⟩) (S2 m c) (S1 m c))
      (S3 m c n (Nat.lt_of_succ_lt h)) := rfl
theorem S4_succ (c : Dev nD) (n : ℕ) (h : n + 1 < cfg0.N) :
    S4 m c (n + 1) h = k0_pay2 (k0_pay23 (grid0.coords ⟨n + 1, h⟩) (S4 m c n (Nat.lt_of_succ_lt h)))
      (k0_pay24 (xb m c ⟨n + 1, h⟩) (S2 m c) (S1 m c) (S0 m c)) := rfl
theorem S3_zero (c : Dev nD) (h : 0 < cfg0.N) :
    S3 m c 0 h = k0_pay4 (arg0At ⟨0, h⟩) (k0_pay19 (xb m c ⟨0, h⟩)) (k0_pay20 (xb m c ⟨0, h⟩) (S2 m c) (S1 m c)) junk3 := rfl
theorem S4_zero (c : Dev nD) (h : 0 < cfg0.N) :
    S4 m c 0 h = k0_pay2 (k0_pay23 (grid0.coords ⟨0, h⟩) junk4) (k0_pay24 (xb m c ⟨0, h⟩) (S2 m c) (S1 m c) (S0 m c)) := rfl

/-- The accumulators at a point that is not the first, over what the point before left. -/
theorem S3_pos (c : Dev nD) (t : Fin cfg0.N) (ht : t.val ≠ 0) :
    S3 m c t.val t.isLt = k0_pay4 (arg0At t) (k0_pay19 (xb m c t)) (k0_pay20 (xb m c t) (S2 m c) (S1 m c))
      (S3 m c (t.val - 1) (Nat.lt_of_le_of_lt (Nat.sub_le _ _) t.isLt)) := by
  obtain ⟨n, hn⟩ := t
  cases n with
  | zero => exact absurd rfl ht
  | succ n => rfl
theorem S4_pos (c : Dev nD) (t : Fin cfg0.N) (ht : t.val ≠ 0) :
    S4 m c t.val t.isLt = k0_pay2 (k0_pay23 (grid0.coords t) (S4 m c (t.val - 1) (Nat.lt_of_le_of_lt (Nat.sub_le _ _) t.isLt)))
      (k0_pay24 (xb m c t) (S2 m c) (S1 m c) (S0 m c)) := by
  obtain ⟨n, hn⟩ := t
  cases n with
  | zero => exact absurd rfl ht
  | succ n => rfl

/-- The output tile after point `t`. -/
def O2 (c : Dev nD) (t : Fin cfg0.N) : Vec F S512x256 .f32 := k0_pay22 (xb m c t) (S2 m c) (S1 m c) (S0 m c)

/-- The [264, 8192] accumulator as the last point computes it (before its store's identity cast). -/
def acc15 (c : Dev nD) : FVec F S264x8192 .f32 :=
  k0_pay3 (arg0At t0_15) (k0_pay19 (xb m c t0_15)) (k0_pay20 (xb m c t0_15) (S2 m c) (S1 m c)) (S3 m c 14 (by rw [show cfg0.N = 16 from N_0]; decide))

/-- The two scalar outputs, stored at the last point. -/
def O3 (c : Dev nD) : Vec F S1x1 .f32 :=
  k0_pay5 (arg0At t0_15) (k0_pay19 (xb m c t0_15)) (k0_pay20 (xb m c t0_15) (S2 m c) (S1 m c))
    (k0_pay23 (grid0.coords t0_15) (S4 m c 14 (by rw [show cfg0.N = 16 from N_0]; decide)))
    (k0_pay24 (xb m c t0_15) (S2 m c) (S1 m c) (S0 m c)) (S3 m c 14 (by rw [show cfg0.N = 16 from N_0]; decide))
    (k0_pay8 (acc15 m c)) (k0_pay9 (acc15 m c)) (k0_pay11 (acc15 m c)) (k0_pay12 (acc15 m c)) (k0_pay13 (F := F))
def O4 (c : Dev nD) : Vec F S1x1 .f32 := k0_pay6 (k0_pay8 (acc15 m c))

/-! ## The invariant and the proof data -/

/-- Before the first point the class invariant (every scratch at anything); afterwards every scratch at the
    contents named above, and the generator register at some state. -/
def PhiS (c : Dev nD) : (n : ℕ) → n ≤ cfg0.N → sProp 𝕄
  | 0, _ => Pipeline.ΦA spec0 c
  | n + 1, hn => iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c n hn)
      ∗ owns (c : Thread nD τ) sc4 fullShare (S4 m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c n hn)
      ∗ owns (c : Thread nD τ) sc4 fullShare (S4 m c n hn)) ∗ (∃ r, prngReg c r)) := rfl
theorem PhiS_pos (c : Dev nD) (n : ℕ) (h : n ≤ cfg0.N) (hz : n ≠ 0) :
    PhiS m c n h = iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c (n - 1) (by omega))
      ∗ owns (c : Thread nD τ) sc4 fullShare (S4 m c (n - 1) (by omega))) ∗ (∃ r, prngReg c r)) := by
  cases n with
  | zero => exact absurd rfl hz
  | succ n => rfl

/-- The proof data of the pipeline on core `c`: the arrays as the region finds them; after the body at point `t`
    each input's buffer at its block, the output tile at `O2`, the scalar outputs at `O3` / `O4` (consulted at the
    last point only: elsewhere those windows are idle); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => O2 m c t
    | ⟨3, _⟩ => O3 m c
    | ⟨4, _⟩ => O4 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = O2 m c t := by dsimp only [dats]
theorem after_3 (c : Dev nD) (t : Fin cfg0.N) : (dats m 0 c).after 3 t = O3 m c := by dsimp only [dats]
theorem after_4 (c : Dev nD) (t : Fin cfg0.N) : (dats m 0 c).after 4 t = O4 m c := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.Kernel.Body

end
-- ==== Proof.K.CaseA.lean ====
/-
  The body at the first point of the grid.
-/
import proofs.«125548_g45775761441265_cont_8to1_c_906_26_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The FIRST point: the codebook block is read and the three codebook-derived scratch buffers are stored, then the tile is processed as at every point. The two accumulators hold nothing meaningful yet: they are taken at arbitrary contents, which the body reads and then discards by a select on the point. The pieces each written buffer ends with are found by running the body. -/
noncomputable def runA (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    Σ' (L3 : List (View.Piece (Elt F) S512x256 .f32)) (LS0 : List (View.Piece (Elt F) S8192x256 .bf16)) (LS1 : List (View.Piece (Elt F) S256x8192 .bf16)) (LS2 : List (View.Piece (Elt F) S1x8192 .f32)) (LS3 : List (View.Piece (Elt F) S264x8192 .f32)), { LS4 : List (View.Piece (Elt F) S1x1 .f32) //
      ∀ (xi4 xi5 : Vec F S1x1 .f32) (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ owns (c : Thread nD τ) arg4 fullShare xi4
            ∗ owns (c : Thread nD τ) arg5 fullShare xi5
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ owns (c : Thread nD τ) arg4 fullShare xi4
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, ?_, ?_, ?_, fun xi4 xi5 E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg4.eq_unread hf4; obtain rfl := harg5.eq_unread hf5; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    isplitl [H9]
    · iexists _; iexact H9
    iexists _; iexact H10

end Cert.Kernel.Body

end
-- ==== Proof.K.PiecesA.lean ====
/-
  What the body's stores leave in each buffer at the first point, as the payload of the covering store.
-/
import proofs.«125548_g45775761441265_cont_8to1_c_906_26_alg».proof.Proof.K.CaseA
import proofs.«125548_g45775761441265_cont_8to1_c_906_26_alg».proof.Proof.K.Views

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in this buffer cover it. -/
theorem coverA_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S512x256.Idx) :
    ∃ pc ∈ (runA c i arg1 harg1 arg2 harg2 arg3 harg3 arg4 harg4 arg5 harg5 arg6 harg6 arg7 harg7 arg8 harg8 arg9 harg9 arg10 harg10 hcA hcC x0 e0 xs3 xs4).1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).1 S512x256.size (by sl_kernel_rfl) y

set_option maxHeartbeats 1600000 in
/-- Read back, they are the store's payload over the contents the body loaded. -/
theorem pieceA_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwT.read (Elt F) (VwT.writes (Elt F) VwT.junk (runA c i arg1 harg1 arg2 harg2 arg3 harg3 arg4 harg4 arg5 harg5 arg6 harg6 arg7 harg7 arg8 harg8 arg9 harg9 arg10 harg10 hcA hcC x0 e0 xs3 xs4).1) = k0_pay22 x0 (k0_pay17 e0) (k0_pay16 e0) (k0_pay15 e0) := by
  rw [View.read_writes_eq_canon _ _ _ (coverA_3 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s0 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S8192x256.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.1 S8192x256.size (by sl_kernel_rfl) y

set_option maxHeartbeats 1600000 in
/-- Read back, they are the store's payload over the contents the body loaded. -/
theorem pieceA_s0 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwE.read (Elt F) (VwE.writes (Elt F) VwE.junk (runA c i arg1 harg1 arg2 harg2 arg3 harg3 arg4 harg4 arg5 harg5 arg6 harg6 arg7 harg7 arg8 harg8 arg9 harg9 arg10 harg10 hcA hcC x0 e0 xs3 xs4).2.1) = k0_pay15 e0 := by
  rw [View.read_writes_eq_canon _ _ _ (coverA_s0 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s1 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S256x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.1 S256x8192.size (by sl_kernel_rfl) y

set_option maxHeartbeats 1600000 in
/-- Read back, they are the store's payload over the contents the body loaded. -/
theorem pieceA_s1 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwD.read (Elt F) (VwD.writes (Elt F) VwD.junk (runA c i arg1 harg1 arg2 harg2 arg3 harg3 arg4 harg4 arg5 harg5 arg6 harg6 arg7 harg7 arg8 harg8 arg9 harg9 arg10 harg10 hcA hcC x0 e0 xs3 xs4).2.2.1) = k0_pay16 e0 := by
  rw [View.read_writes_eq_canon _ _ _ (coverA_s1 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s2 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S1x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.1 S1x8192.size (by sl_kernel_rfl) y

set_option maxHeartbeats 1600000 in
/-- Read back, they are the store's payload over the contents the body loaded. -/
theorem pieceA_s2 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwN.read (Elt F) (VwN.writes (Elt F) VwN.junk (runA c i arg1 harg1 arg2 harg2 arg3 harg3 arg4 harg4 arg5 harg5 arg6 harg6 arg7 harg7 arg8 harg8 arg9 harg9 arg10 harg10 hcA hcC x0 e0 xs3 xs4).2.2.2.1) = k0_pay17 e0 := by
  rw [View.read_writes_eq_canon _ _ _ (coverA_s2 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S264x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.2.1 S264x8192.size (by sl_kernel_rfl) y

set_option maxHeartbeats 1600000 in
/-- Read back, they are the store's payload over the contents the body loaded. -/
theorem pieceA_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwA.read (Elt F) (VwA.writes (Elt F) VwA.junk (runA c i arg1 harg1 arg2 harg2 arg3 harg3 arg4 harg4 arg5 harg5 arg6 harg6 arg7 harg7 arg8 harg8 arg9 harg9 arg10 harg10 hcA hcC x0 e0 xs3 xs4).2.2.2.2.1) = k0_pay4 (BitVec.ofNat 32 (i 0).val) (k0_pay19 x0) (k0_pay20 x0 (k0_pay17 e0) (k0_pay16 e0)) xs3 := by
  rw [View.read_writes_eq_canon _ _ _ (coverA_s3 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S1x1.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.2.2.1 S1x1.size (by sl_kernel_rfl) y

set_option maxHeartbeats 1600000 in
/-- Read back, they are the store's payload over the contents the body loaded. -/
theorem pieceA_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwS.read (Elt F) (VwS.writes (Elt F) VwS.junk (runA c i arg1 harg1 arg2 harg2 arg3 harg3 arg4 harg4 arg5 harg5 arg6 harg6 arg7 harg7 arg8 harg8 arg9 harg9 arg10 harg10 hcA hcC x0 e0 xs3 xs4).2.2.2.2.2.1) = k0_pay2 (k0_pay23 i xs4) (k0_pay24 x0 (k0_pay17 e0) (k0_pay16 e0) (k0_pay15 e0)) := by
  rw [View.read_writes_eq_canon _ _ _ (coverA_s4 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

end Cert.Kernel.Body

end
-- ==== Proof.K.CaseB.lean ====
/-
  The body at a middle point of the grid.
-/
import proofs.«125548_g45775761441265_cont_8to1_c_906_26_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A MIDDLE point (neither branch taken): the tile is read, the output tile and the two accumulators are stored; the codebook-derived scratch is only read, the two scalar outputs are untouched. The pieces each written buffer ends with are found by running the body. -/
noncomputable def runB (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    Σ' (L3 : List (View.Piece (Elt F) S512x256 .f32)) (LS3 : List (View.Piece (Elt F) S264x8192 .f32)), { LS4 : List (View.Piece (Elt F) S1x1 .f32) //
      ∀ (xi4 xi5 : Vec F S1x1 .f32) (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ owns (c : Thread nD τ) arg4 fullShare xi4
            ∗ owns (c : Thread nD τ) arg5 fullShare xi5
            ∗ owns (c : Thread nD τ) arg6 fullShare xs0
            ∗ owns (c : Thread nD τ) arg7 fullShare xs1
            ∗ owns (c : Thread nD τ) arg8 fullShare xs2
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ owns (c : Thread nD τ) arg4 fullShare xi4
                ∗ owns (c : Thread nD τ) arg5 fullShare xi5
                ∗ owns (c : Thread nD τ) arg6 fullShare xs0
                ∗ owns (c : Thread nD τ) arg7 fullShare xs1
                ∗ owns (c : Thread nD τ) arg8 fullShare xs2
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.Kernel.Body

end
-- ==== Proof.K.PiecesB.lean ====
/-
  What the body's stores leave in each buffer at a middle point, as the payload of the covering store.
-/
import proofs.«125548_g45775761441265_cont_8to1_c_906_26_alg».proof.Proof.K.CaseB
import proofs.«125548_g45775761441265_cont_8to1_c_906_26_alg».proof.Proof.K.Views

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case B leaves in this buffer cover it. -/
theorem coverB_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S512x256.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).1 S512x256.size (by sl_kernel_rfl) y

set_option maxHeartbeats 1600000 in
/-- Read back, they are the store's payload over the contents the body loaded. -/
theorem pieceB_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwT.read (Elt F) (VwT.writes (Elt F) VwT.junk (runB c i arg1 harg1 arg2 harg2 arg3 harg3 arg4 harg4 arg5 harg5 arg6 harg6 arg7 harg7 arg8 harg8 arg9 harg9 arg10 harg10 hcA hcC x0 e0 xs0 xs1 xs2 xs3 xs4).1) = k0_pay22 x0 xs2 xs1 xs0 := by
  rw [View.read_writes_eq_canon _ _ _ (coverB_3 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case B leaves in this buffer cover it. -/
theorem coverB_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S264x8192.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).2.1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).2.1 S264x8192.size (by sl_kernel_rfl) y

set_option maxHeartbeats 1600000 in
/-- Read back, they are the store's payload over the contents the body loaded. -/
theorem pieceB_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwA.read (Elt F) (VwA.writes (Elt F) VwA.junk (runB c i arg1 harg1 arg2 harg2 arg3 harg3 arg4 harg4 arg5 harg5 arg6 harg6 arg7 harg7 arg8 harg8 arg9 harg9 arg10 harg10 hcA hcC x0 e0 xs0 xs1 xs2 xs3 xs4).2.1) = k0_pay4 (BitVec.ofNat 32 (i 0).val) (k0_pay19 x0) (k0_pay20 x0 xs2 xs1) xs3 := by
  rw [View.read_writes_eq_canon _ _ _ (coverB_s3 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case B leaves in this buffer cover it. -/
theorem coverB_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).2.2.1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).2.2.1 S1x1.size (by sl_kernel_rfl) y

set_option maxHeartbeats 1600000 in
/-- Read back, they are the store's payload over the contents the body loaded. -/
theorem pieceB_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runB c i arg1 harg1 arg2 harg2 arg3 harg3 arg4 harg4 arg5 harg5 arg6 harg6 arg7 harg7 arg8 harg8 arg9 harg9 arg10 harg10 hcA hcC x0 e0 xs0 xs1 xs2 xs3 xs4).2.2.1) = k0_pay2 (k0_pay23 i xs4) (k0_pay24 x0 xs2 xs1 xs0) := by
  rw [View.read_writes_eq_canon _ _ _ (coverB_s4 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

end Cert.Kernel.Body

end
-- ==== Proof.K.CaseC.lean ====
/-
  The body at the last point of the grid.
-/
import proofs.«125548_g45775761441265_cont_8to1_c_906_26_alg».proof.Proof.K.Common

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The LAST point: the tile is processed as at every point, then the two scalar results are computed from the accumulators and stored into their windows. The pieces each written buffer ends with are found by running the body. -/
noncomputable def runC (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    Σ' (L3 : List (View.Piece (Elt F) S512x256 .f32)) (L4 : List (View.Piece (Elt F) S1x1 .f32)) (L5 : List (View.Piece (Elt F) S1x1 .f32)) (LS3 : List (View.Piece (Elt F) S264x8192 .f32)), { LS4 : List (View.Piece (Elt F) S1x1 .f32) //
      ∀ (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ owns (c : Thread nD τ) arg8 fullShare xs2
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ owns (c : Thread nD τ) arg6 fullShare xs0
                ∗ owns (c : Thread nD τ) arg7 fullShare xs1
                ∗ owns (c : Thread nD τ) arg8 fullShare xs2
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, ?_, ?_, fun  E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg6.eq_unread hf6; obtain rfl := harg7.eq_unread hf7; obtain rfl := harg8.eq_unread hf8; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.Kernel.Body

end
-- ==== Proof.K.PiecesC.lean ====
/-
  What the body's stores leave in each buffer at the last point, as the payload of the covering store.
-/
import proofs.«125548_g45775761441265_cont_8to1_c_906_26_alg».proof.Proof.K.CaseC
import proofs.«125548_g45775761441265_cont_8to1_c_906_26_alg».proof.Proof.K.Views

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case C leaves in this buffer cover it. -/
theorem coverC_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S512x256.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).1 S512x256.size (by sl_kernel_rfl) y

set_option maxHeartbeats 1600000 in
/-- Read back, they are the store's payload over the contents the body loaded. -/
theorem pieceC_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwT.read (Elt F) (VwT.writes (Elt F) VwT.junk (runC c i arg1 harg1 arg2 harg2 arg3 harg3 arg4 harg4 arg5 harg5 arg6 harg6 arg7 harg7 arg8 harg8 arg9 harg9 arg10 harg10 hcA hcC x0 e0 xs0 xs1 xs2 xs3 xs4).1) = k0_pay22 x0 xs2 xs1 xs0 := by
  rw [View.read_writes_eq_canon _ _ _ (coverC_3 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.1 S1x1.size (by sl_kernel_rfl) y

set_option maxHeartbeats 1600000 in
/-- Read back, they are the store's payload over the contents the body loaded. -/
theorem pieceC_4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.1) = k0_pay5 (BitVec.ofNat 32 (i 0).val) (k0_pay19 x0) (k0_pay20 x0 xs2 xs1) (k0_pay23 i xs4) (k0_pay24 x0 xs2 xs1 xs0) xs3 (k0_pay8 (k0_pay3 (BitVec.ofNat 32 (i 0).val) (k0_pay19 x0) (k0_pay20 x0 xs2 xs1) xs3)) (k0_pay9 (k0_pay3 (BitVec.ofNat 32 (i 0).val) (k0_pay19 x0) (k0_pay20 x0 xs2 xs1) xs3)) (k0_pay11 (k0_pay3 (BitVec.ofNat 32 (i 0).val) (k0_pay19 x0) (k0_pay20 x0 xs2 xs1) xs3)) (k0_pay12 (k0_pay3 (BitVec.ofNat 32 (i 0).val) (k0_pay19 x0) (k0_pay20 x0 xs2 xs1) xs3)) (k0_pay13 (F := F)) := by
  rw [View.read_writes_eq_canon _ _ _ (coverC_4 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_5 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.1 S1x1.size (by sl_kernel_rfl) y

set_option maxHeartbeats 1600000 in
/-- Read back, they are the store's payload over the contents the body loaded. -/
theorem pieceC_5 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.2.1) = k0_pay6 (k0_pay8 (k0_pay3 (BitVec.ofNat 32 (i 0).val) (k0_pay19 x0) (k0_pay20 x0 xs2 xs1) xs3)) := by
  rw [View.read_writes_eq_canon _ _ _ (coverC_5 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S264x8192.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.2.1 S264x8192.size (by sl_kernel_rfl) y

set_option maxHeartbeats 1600000 in
/-- Read back, they are the store's payload over the contents the body loaded. -/
theorem pieceC_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwA.read (Elt F) (VwA.writes (Elt F) VwA.junk (runC c i arg1 harg1 arg2 harg2 arg3 harg3 arg4 harg4 arg5 harg5 arg6 harg6 arg7 harg7 arg8 harg8 arg9 harg9 arg10 harg10 hcA hcC x0 e0 xs0 xs1 xs2 xs3 xs4).2.2.2.1) = k0_pay4 (BitVec.ofNat 32 (i 0).val) (k0_pay19 x0) (k0_pay20 x0 xs2 xs1) xs3 := by
  rw [View.read_writes_eq_canon _ _ _ (coverC_s3 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1 S1x1.size (by sl_kernel_rfl) y

set_option maxHeartbeats 1600000 in
/-- Read back, they are the store's payload over the contents the body loaded. -/
theorem pieceC_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1) = k0_pay2 (k0_pay23 i xs4) (k0_pay24 x0 xs2 xs1 xs0) := by
  rw [View.read_writes_eq_canon _ _ _ (coverC_s4 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

end Cert.Kernel.Body

end
-- ==== Proof.K.Frame.lean ====
/-
  The body obligation of the kernel at every point of the grid, the run of the whole program, and its frame.
-/
import proofs.«125548_g45775761441265_cont_8to1_c_906_26_alg».proof.Proof.K.State
import proofs.«125548_g45775761441265_cont_8to1_c_906_26_alg».proof.Proof.K.PiecesA
import proofs.«125548_g45775761441265_cont_8to1_c_906_26_alg».proof.Proof.K.PiecesB
import proofs.«125548_g45775761441265_cont_8to1_c_906_26_alg».proof.Proof.K.PiecesC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; the closed forms of the two conditions say which
    case the point is in; the invariant hands the body every scratch at what the point before left (at anything
    before the first point) and takes each back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
      unfold Dat.leavesExact; rw [liveAt_0 t], after_0]
  rw [show (dats m 0 c).leavesExact 1 t = owns (c : Thread nD τ) (ms1 t) fullShare ((dats m 0 c).after 1 t) from by
      unfold Dat.leavesExact; rw [liveAt_1 t], after_1]
  rw [show (dats m 0 c).leavesExact 2 t = owns (c : Thread nD τ) (ms2 t) fullShare ((dats m 0 c).after 2 t) from by
      unfold Dat.leavesExact; rw [liveAt_2 t], after_2]
  by_cases h0 : t.val = 0
  · -- the first point
    have hcA : condA (grid0.coords t) := (hcondA t).mpr h0
    have hcC : ¬condC (grid0.coords t) := fun h => by have := (hcondC t).mp h; omega
    rw [Dat.leavesExact_idle (dats m 0 c) 3 t (idleAt_3 t hcC) (noFlush_3 t hcC),
      Dat.leavesExact_idle (dats m 0 c) 4 t (idleAt_4 t hcC) (noFlush_4 t hcC)]
    rw [PhiS_castSucc m c t, PhiS_zero m c _ _ h0, PhiA_eq]
    have hS3 : S3 m c t.val t.isLt = k0_pay4 (arg0At t) (k0_pay19 (xb m c t)) (k0_pay20 (xb m c t) (S2 m c) (S1 m c)) junk3 := by
      obtain ⟨n, hn⟩ := t; obtain rfl : n = 0 := h0; rfl
    have hS4 : S4 m c t.val t.isLt = k0_pay2 (k0_pay23 (grid0.coords t) junk4) (k0_pay24 (xb m c t) (S2 m c) (S1 m c) (S0 m c)) := by
      obtain ⟨n, hn⟩ := t; obtain rfl : n = 0 := h0; rfl
    rw [hS3, hS4]
    have he : iblk m c 1 t = eb m c := by
      have ht0 : t = t0_0 := Fin.ext h0
      rw [ht0]; rfl
    iintro ⟨⟨⟨HS0, HS1, HS2, ⟨%j3, HS3⟩, ⟨%j4, HS4⟩⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ _ _ _ _ _ _ _ _ hcA hcC (iblk m c 0 t) (eb m c) j3 j4).2.2.2.2.2.2 _ _ Set.univ _)
    isplitl [H0]; · iexact H0
    isplitl [H1]; · rw [he]; iexact H1
    isplitl [H2]; · iexists _; iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, ⟨%e2, H2⟩, H3, H4, ⟨%es0, HS0⟩, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · unfold owns; iexists _; isplitr; swap; iexact HS0; ipureintro; exact (View.read_writes_of_cover _ _ _ _ _ (coverA_s0 c _ _ _ _ _ _ _ _ _ _ _ _ _ _ _ _ _ _ _ _ _ _ _ _ _ _ _)).trans (pieceA_s0 c _ _ _ _ _ _ _ _ _ _ _ _ _ _ _ _ _ _ _ _ _ _ _ _ _ _ _)
        isplitl [HS1]
        · unfold owns; iexists _; isplitr; swap; iexact HS1; ipureintro; exact (View.read_writes_of_cover _ _ _ _ _ (coverA_s1 c _ _ _ _ _ _ _ _ _ _ _ _ _ _ _ _ _ _ _ _ _ _ _ _ _ _ _)).trans (pieceA_s1 c _ _ _ _ _ _ _ _ _ _ _ _ _ _ _ _ _ _ _ _ _ _ _ _ _ _ _)
        isplitl [HS2]
        · unfold owns; iexists _; isplitr; swap; iexact HS2; ipureintro; exact (View.read_writes_of_cover _ _ _ _ _ (coverA_s2 c _ _ _ _ _ _ _ _ _ _ _ _ _ _ _ _ _ _ _ _ _ _ _ _ _ _ _)).trans (pieceA_s2 c _ _ _ _ _ _ _ _ _ _ _ _ _ _ _ _ _ _ _ _ _ _ _ _ _ _ _)
        isplitl [HS3]
        · unfold owns; iexists _; isplitr; swap; iexact HS3; ipureintro; exact (View.read_writes_of_cover _ _ _ _ _ (coverA_s3 c _ _ _ _ _ _ _ _ _ _ _ _ _ _ _ _ _ _ _ _ _ _ _ _ _ _ _)).trans ((pieceA_s3 c _ _ _ _ _ _ _ _ _ _ _ _ _ _ _ _ _ _ _ _ _ _ _ _ _ _ _).trans (pay4_junk _ (isFirst t h0) _ _ _ _))
        unfold owns; iexists _; isplitr; swap; iexact HS4; ipureintro; exact (View.read_writes_of_cover _ _ _ _ _ (coverA_s4 c _ _ _ _ _ _ _ _ _ _ _ _ _ _ _ _ _ _ _ _ _ _ _ _ _ _ _)).trans ((pieceA_s4 c _ _ _ _ _ _ _ _ _ _ _ _ _ _ _ _ _ _ _ _ _ _ _ _ _ _ _).trans (congrArg (fun v => k0_pay2 v _) (pay23_junk _ (isFirst t h0) _ _)))
      iexact Hg
    isplitl [Ho]; · iexact Ho
    isplitl [H0]; · iexact H0
    isplitl [H1]; · rw [he]; iexact H1
    isplitl [H2]
    · unfold owns; iexists _; isplitr; swap; iexact H2; ipureintro; exact (View.read_writes_of_cover _ _ _ _ _ (coverA_3 c _ _ _ _ _ _ _ _ _ _ _ _ _ _ _ _ _ _ _ _ _ _ _ _ _ _ _)).trans (pieceA_3 c _ _ _ _ _ _ _ _ _ _ _ _ _ _ _ _ _ _ _ _ _ _ _ _ _ _ _)
    isplitl [H3]; · iexists _; iexact H3
    iexists _; iexact H4
  · by_cases h15 : t.val = 15
    · -- the last point
      have hcA : ¬condA (grid0.coords t) := fun h => h0 ((hcondA t).mp h)
      have hcC : condC (grid0.coords t) := (hcondC t).mpr h15
      rw [show (dats m 0 c).leavesExact 3 t = owns (c : Thread nD τ) (ms3 t) fullShare ((dats m 0 c).after 3 t) from by
          unfold Dat.leavesExact; rw [liveAt_3 t hcC], after_3]
      rw [show (dats m 0 c).leavesExact 4 t = owns (c : Thread nD τ) (ms4 t) fullShare ((dats m 0 c).after 4 t) from by
          unfold Dat.leavesExact; rw [liveAt_4 t hcC], after_4]
      rw [PhiS_castSucc m c t, PhiS_pos m c _ _ h0, S3_pos m c t h0, S4_pos m c t h0]
      have ht : t = t0_15 := Fin.ext h15
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ _ _ _ _ _ _ _ _ hcA hcC (iblk m c 0 t) (iblk m c 1 t) (S0 m c) (S1 m c) (S2 m c) (S3 m c (t.val - 1) (Nat.lt_of_le_of_lt (Nat.sub_le _ _) t.isLt)) (S4 m c (t.val - 1) (Nat.lt_of_le_of_lt (Nat.sub_le _ _) t.isLt))).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, ⟨%e2, H2⟩, ⟨%e3, H3⟩, ⟨%e4, H4⟩, HS0, HS1, HS2, ⟨%es3, HS3⟩, ⟨%es4, HS4⟩⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]
          · unfold owns; iexists _; isplitr; swap; iexact HS3; ipureintro; exact (View.read_writes_of_cover _ _ _ _ _ (coverC_s3 c _ _ _ _ _ _ _ _ _ _ _ _ _ _ _ _ _ _ _ _ _ _ _ _ _ _ _ _ _ _)).trans (pieceC_s3 c _ _ _ _ _ _ _ _ _ _ _ _ _ _ _ _ _ _ _ _ _ _ _ _ _ _ _ _ _ _)
          unfold owns; iexists _; isplitr; swap; iexact HS4; ipureintro; exact (View.read_writes_of_cover _ _ _ _ _ (coverC_s4 c _ _ _ _ _ _ _ _ _ _ _ _ _ _ _ _ _ _ _ _ _ _ _ _ _ _ _ _ _ _)).trans (pieceC_s4 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr; swap; iexact H2; ipureintro; exact (View.read_writes_of_cover _ _ _ _ _ (coverC_3 c _ _ _ _ _ _ _ _ _ _ _ _ _ _ _ _ _ _ _ _ _ _ _ _ _ _ _ _ _ _)).trans (pieceC_3 c _ _ _ _ _ _ _ _ _ _ _ _ _ _ _ _ _ _ _ _ _ _ _ _ _ _ _ _ _ _)
      isplitl [H3]
      · unfold owns; iexists _; isplitr; swap; iexact H3; ipureintro; exact (View.read_writes_of_cover _ _ _ _ _ (coverC_4 c _ _ _ _ _ _ _ _ _ _ _ _ _ _ _ _ _ _ _ _ _ _ _ _ _ _ _ _ _ _)).trans ((pieceC_4 c _ _ _ _ _ _ _ _ _ _ _ _ _ _ _ _ _ _ _ _ _ _ _ _ _ _ _ _ _ _).trans (by subst ht; rfl))
      unfold owns; iexists _; isplitr; swap; iexact H4; ipureintro; exact (View.read_writes_of_cover _ _ _ _ _ (coverC_5 c _ _ _ _ _ _ _ _ _ _ _ _ _ _ _ _ _ _ _ _ _ _ _ _ _ _ _ _ _ _)).trans ((pieceC_5 c _ _ _ _ _ _ _ _ _ _ _ _ _ _ _ _ _ _ _ _ _ _ _ _ _ _ _ _ _ _).trans (by subst ht; rfl))
    · -- a middle point
      have hcA : ¬condA (grid0.coords t) := fun h => h0 ((hcondA t).mp h)
      have hcC : ¬condC (grid0.coords t) := fun h => h15 ((hcondC t).mp h)
      rw [Dat.leavesExact_idle (dats m 0 c) 3 t (idleAt_3 t hcC) (noFlush_3 t hcC),
        Dat.leavesExact_idle (dats m 0 c) 4 t (idleAt_4 t hcC) (noFlush_4 t hcC)]
      rw [PhiS_castSucc m c t, PhiS_pos m c _ _ h0, S3_pos m c t h0, S4_pos m c t h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ _ _ _ _ _ _ _ _ hcA hcC (iblk m c 0 t) (iblk m c 1 t) (S0 m c) (S1 m c) (S2 m c) (S3 m c (t.val - 1) (Nat.lt_of_le_of_lt (Nat.sub_le _ _) t.isLt)) (S4 m c (t.val - 1) (Nat.lt_of_le_of_lt (Nat.sub_le _ _) t.isLt))).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, ⟨%e2, H2⟩, H3, H4, HS0, HS1, HS2, ⟨%es3, HS3⟩, ⟨%es4, HS4⟩⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]
          · unfold owns; iexists _; isplitr; swap; iexact HS3; ipureintro; exact (View.read_writes_of_cover _ _ _ _ _ (coverB_s3 c _ _ _ _ _ _ _ _ _ _ _ _ _ _ _ _ _ _ _ _ _ _ _ _ _ _ _ _ _ _)).trans (pieceB_s3 c _ _ _ _ _ _ _ _ _ _ _ _ _ _ _ _ _ _ _ _ _ _ _ _ _ _ _ _ _ _)
          unfold owns; iexists _; isplitr; swap; iexact HS4; ipureintro; exact (View.read_writes_of_cover _ _ _ _ _ (coverB_s4 c _ _ _ _ _ _ _ _ _ _ _ _ _ _ _ _ _ _ _ _ _ _ _ _ _ _ _ _ _ _)).trans (pieceB_s4 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr; swap; iexact H2; ipureintro; exact (View.read_writes_of_cover _ _ _ _ _ (coverB_3 c _ _ _ _ _ _ _ _ _ _ _ _ _ _ _ _ _ _ _ _ _ _ _ _ _ _ _ _ _ _)).trans (pieceB_3 c _ _ _ _ _ _ _ _ _ _ _ _ _ _ _ _ _ _ _ _ _ _ _ _ _ _ _ _ _ _)
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the pipeline at
    what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Common.lean ====
/-
  What the three cases of the kernel body share. The grid has 16 points, one per tile of 512 token rows. The
  body branches twice on the point: at the FIRST point it prepares the codebook-derived scratch (the codebook
  itself, its doubled transpose, the squared norms of its rows); at the LAST point it computes the two scalar
  results from the accumulators. So there are three cases: the first point, a middle point, the last point.
  The two scalar output windows are stored only at the last point and are idle (and not written back) elsewhere.
-/
import proofs.«125548_g45775761441265_cont_8to1_c_906_26_alg».proof.Proof.Gen.KernelIdeal.Frame
import proofs.«125548_g45775761441265_cont_8to1_c_906_26_alg».proof.Proof.Gen.KernelIdeal.Skeleton
import proofs.«125548_g45775761441265_cont_8to1_c_906_26_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first point": the body's scalar chain on the grid coordinate. -/
abbrev condA (i : grid0.Coords) : Prop :=
  (Scalar.cmpi .ne (Scalar.extui (Scalar.cmpi .eq (BitVec.ofNat 32 (i 0).val) 0#32)) 0#32) = 1#1
theorem hcondA : ∀ t : Fin cfg0.N, condA (grid0.coords t) ↔ t.val = 0 :=
  (by decide +kernel : ∀ t : Fin grid0.N, condA (grid0.coords t) ↔ t.val = 0)

/-- "This is the last point". -/
abbrev condC (i : grid0.Coords) : Prop := k0_cond2 i = 1#1
theorem hcondC : ∀ t : Fin cfg0.N, condC (grid0.coords t) ↔ t.val = 15 :=
  (by decide +kernel : ∀ t : Fin grid0.N, condC (grid0.coords t) ↔ t.val = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem idleAt_3 : ∀ t : Fin cfg0.N, ¬condC (grid0.coords t) → cfg0.idle 3 (grid0.coords t) = true := by decide +kernel
theorem idleAt_4 : ∀ t : Fin cfg0.N, ¬condC (grid0.coords t) → cfg0.idle 4 (grid0.coords t) = true := by decide +kernel
theorem noFlush_3 : ∀ t : Fin cfg0.N, ¬condC (grid0.coords t) → (cfg0.win 3).flush t = false := by decide +kernel
theorem noFlush_4 : ∀ t : Fin cfg0.N, ¬condC (grid0.coords t) → (cfg0.win 4).flush t = false := by decide +kernel
theorem liveAt_3 : ∀ t : Fin cfg0.N, condC (grid0.coords t) → cfg0.idle 3 (grid0.coords t) = false := by decide +kernel
theorem liveAt_4 : ∀ t : Fin cfg0.N, condC (grid0.coords t) → cfg0.idle 4 (grid0.coords t) = false := by decide +kernel

/-! ## The memrefs the body is called with -/

abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- The five scratch operands: the codebook, its doubled transpose, the squared norms of its rows, the
    [264, 8192] accumulator (token-feature products in rows 0–255, column sums in rows 256–263), the squared error. -/
abbrev sc0 : Memref sig .tc .vmem S8192x256 .bf16 := Memref.whole cc0_scratch0
abbrev sc1 : Memref sig .tc .vmem S256x8192 .bf16 := Memref.whole cc0_scratch1
abbrev sc2 : Memref sig .tc .vmem S1x8192 .f32 := Memref.whole cc0_scratch2
abbrev sc3 : Memref sig .tc .vmem S264x8192 .f32 := Memref.whole cc0_scratch3
abbrev sc4 : Memref sig .tc .vmem S1x1 .f32 := Memref.whole cc0_scratch4

/-- The class invariant opened: each scratch operand owned whole at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Body

end
-- ==== Proof.KI.Views.lean ====
/-
  One fixed view per buffer type of the kernel body.
-/
import proofs.«125548_g45775761441265_cont_8to1_c_906_26_alg».proof.Proof.KI.Common
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One fixed view per buffer type, through which a buffer's contents are stated (the choice does not matter:
    a covered buffer reads the same through any whole view). -/
abbrev VwT : View sig .tc .vmem S512x256 .f32 := (Memref.whole cc0_stg2_0 : Memref sig .tc .vmem S512x256 .f32).view
abbrev VwS : View sig .tc .vmem S1x1 .f32 := (Memref.whole cc0_stg3_0 : Memref sig .tc .vmem S1x1 .f32).view
abbrev VwE : View sig .tc .vmem S8192x256 .bf16 := (sc0 : Memref sig .tc .vmem S8192x256 .bf16).view
abbrev VwD : View sig .tc .vmem S256x8192 .bf16 := (sc1 : Memref sig .tc .vmem S256x8192 .bf16).view
abbrev VwN : View sig .tc .vmem S1x8192 .f32 := (sc2 : Memref sig .tc .vmem S1x8192 .f32).view
abbrev VwA : View sig .tc .vmem S264x8192 .f32 := (sc3 : Memref sig .tc .vmem S264x8192 .f32).view

theorem hz : (![0, 0] : Fin 2 → Nat) = fun _ => 0 := funext fun a => by fin_cases a <;> rfl

end Cert.KernelIdeal.Body

end
-- ==== Proof.KI.State.lean ====
/-
  What the kernel's buffers hold after each point of the grid, as pure terms over the blocks the pipeline
  stages, and the pipeline's proof data stated over them.

  After the first point the three codebook-derived scratch buffers hold functions of the codebook block alone and
  never change again. The [264, 8192] accumulator and the squared-error accumulator are running totals: at the
  first point the body reads whatever they hold and discards it by a select on the point, so what they hold after
  the first point does not depend on it; at each later point the tile's contribution is added to what the point
  before left. The output tile is a function of the point's token tile and the codebook scratch. The two scalar
  outputs are functions of the accumulators at the last point.
-/
import proofs.«125548_g45775761441265_cont_8to1_c_906_26_alg».proof.Proof.KI.Views

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## At the first point the accumulators' old contents are discarded -/

/-- The body's comparison "the grid coordinate is 0" holds at the first point. -/
theorem isFirst : ∀ t : Fin cfg0.N, t.val = 0 → Scalar.cmpi .eq (BitVec.ofNat 32 ((grid0.coords t) 0).val) 0#32 = 1#1 :=
  (by decide +kernel : ∀ t : Fin grid0.N, t.val = 0 → Scalar.cmpi .eq (BitVec.ofNat 32 ((grid0.coords t) 0).val) 0#32 = 1#1)

/-- Where that comparison holds, the squared-error accumulator's start value is the zero block whatever was loaded. -/
theorem pay23_junk (i : grid0.Coords) (h : Scalar.cmpi .eq (BitVec.ofNat 32 (i 0).val) 0#32 = 1#1) (a b : Vec F S1x1 .f32) :
    k0_pay23 i a = k0_pay23 i b := by
  unfold k0_pay23
  dsimp only
  rw [h]
  rfl

/-- Where it holds, the [264, 8192] accumulator restarts from the zero block whatever was loaded. -/
theorem pay4_junk (arg0 : BitVec 32) (h : Scalar.cmpi .eq arg0 0#32 = 1#1) (v5 : FVec F S512x256 .bf16) (v24 : FVec F S512x8192 .bf16)
    (a b : Vec F S264x8192 .f32) : k0_pay4 arg0 v5 v24 a = k0_pay4 arg0 v5 v24 b := by
  unfold k0_pay4 k0_pay3
  dsimp only
  rw [h]
  rfl

/-! ## The buffers' contents point by point -/

/-- The token tile at point `t` and the codebook block (fetched once, at the first point). -/
def xb (c : Dev nD) (t : Fin cfg0.N) : Vec F S512x256 .f32 := iblk m c 0 t
def eb (c : Dev nD) : Vec F S8192x256 .f32 := iblk m c 1 t0_0

/-- The codebook-derived scratch after the first point: the codebook, its doubled transpose, its rows' squared norms. -/
def S0 (c : Dev nD) : Vec F S8192x256 .bf16 := k0_pay15 (eb m c)
def S1 (c : Dev nD) : Vec F S256x8192 .bf16 := k0_pay16 (eb m c)
def S2 (c : Dev nD) : Vec F S1x8192 .f32 := k0_pay17 (eb m c)

/-- The grid coordinate as the body reads it. -/
def arg0At (t : Fin cfg0.N) : BitVec 32 := BitVec.ofNat 32 ((grid0.coords t) 0).val

/-- Placeholders for what the accumulators hold before the first point (discarded there). -/
def junk3 : Vec F S264x8192 .f32 := VwA.read (Elt F) VwA.junk
def junk4 : Vec F S1x1 .f32 := VwS.read (Elt F) VwS.junk

/-- The [264, 8192] accumulator after point `n`. -/
def S3 (c : Dev nD) : (n : ℕ) → n < cfg0.N → Vec F S264x8192 .f32
  | 0, h => k0_pay4 (arg0At ⟨0, h⟩) (k0_pay19 (xb m c ⟨0, h⟩)) (k0_pay20 (xb m c ⟨0, h⟩) (S2 m c) (S1 m c)) junk3
  | n + 1, h => k0_pay4 (arg0At ⟨n + 1, h⟩) (k0_pay19 (xb m c ⟨n + 1, h⟩)) (k0_pay20 (xb m c ⟨n + 1, h⟩) (S2 m c) (S1 m c))
      (S3 c n (Nat.lt_of_succ_lt h))

/-- The squared-error accumulator after point `n`. -/
def S4 (c : Dev nD) : (n : ℕ) → n < cfg0.N → Vec F S1x1 .f32
  | 0, h => k0_pay2 (k0_pay23 (grid0.coords ⟨0, h⟩) junk4) (k0_pay24 (xb m c ⟨0, h⟩) (S2 m c) (S1 m c) (S0 m c))
  | n + 1, h => k0_pay2 (k0_pay23 (grid0.coords ⟨n + 1, h⟩) (S4 c n (Nat.lt_of_succ_lt h)))
      (k0_pay24 (xb m c ⟨n + 1, h⟩) (S2 m c) (S1 m c) (S0 m c))

theorem S3_succ (c : Dev nD) (n : ℕ) (h : n + 1 < cfg0.N) :
    S3 m c (n + 1) h = k0_pay4 (arg0At ⟨n + 1, h⟩) (k0_pay19 (xb m c ⟨n + 1, h⟩)) (k0_pay20 (xb m c ⟨n + 1, h⟩) (S2 m c) (S1 m c))
      (S3 m c n (Nat.lt_of_succ_lt h)) := rfl
theorem S4_succ (c : Dev nD) (n : ℕ) (h : n + 1 < cfg0.N) :
    S4 m c (n + 1) h = k0_pay2 (k0_pay23 (grid0.coords ⟨n + 1, h⟩) (S4 m c n (Nat.lt_of_succ_lt h)))
      (k0_pay24 (xb m c ⟨n + 1, h⟩) (S2 m c) (S1 m c) (S0 m c)) := rfl
theorem S3_zero (c : Dev nD) (h : 0 < cfg0.N) :
    S3 m c 0 h = k0_pay4 (arg0At ⟨0, h⟩) (k0_pay19 (xb m c ⟨0, h⟩)) (k0_pay20 (xb m c ⟨0, h⟩) (S2 m c) (S1 m c)) junk3 := rfl
theorem S4_zero (c : Dev nD) (h : 0 < cfg0.N) :
    S4 m c 0 h = k0_pay2 (k0_pay23 (grid0.coords ⟨0, h⟩) junk4) (k0_pay24 (xb m c ⟨0, h⟩) (S2 m c) (S1 m c) (S0 m c)) := rfl

/-- The accumulators at a point that is not the first, over what the point before left. -/
theorem S3_pos (c : Dev nD) (t : Fin cfg0.N) (ht : t.val ≠ 0) :
    S3 m c t.val t.isLt = k0_pay4 (arg0At t) (k0_pay19 (xb m c t)) (k0_pay20 (xb m c t) (S2 m c) (S1 m c))
      (S3 m c (t.val - 1) (Nat.lt_of_le_of_lt (Nat.sub_le _ _) t.isLt)) := by
  obtain ⟨n, hn⟩ := t
  cases n with
  | zero => exact absurd rfl ht
  | succ n => rfl
theorem S4_pos (c : Dev nD) (t : Fin cfg0.N) (ht : t.val ≠ 0) :
    S4 m c t.val t.isLt = k0_pay2 (k0_pay23 (grid0.coords t) (S4 m c (t.val - 1) (Nat.lt_of_le_of_lt (Nat.sub_le _ _) t.isLt)))
      (k0_pay24 (xb m c t) (S2 m c) (S1 m c) (S0 m c)) := by
  obtain ⟨n, hn⟩ := t
  cases n with
  | zero => exact absurd rfl ht
  | succ n => rfl

/-- The output tile after point `t`. -/
def O2 (c : Dev nD) (t : Fin cfg0.N) : Vec F S512x256 .f32 := k0_pay22 (xb m c t) (S2 m c) (S1 m c) (S0 m c)

/-- The [264, 8192] accumulator as the last point computes it (before its store's identity cast). -/
def acc15 (c : Dev nD) : FVec F S264x8192 .f32 :=
  k0_pay3 (arg0At t0_15) (k0_pay19 (xb m c t0_15)) (k0_pay20 (xb m c t0_15) (S2 m c) (S1 m c)) (S3 m c 14 (by rw [show cfg0.N = 16 from N_0]; decide))

/-- The two scalar outputs, stored at the last point. -/
def O3 (c : Dev nD) : Vec F S1x1 .f32 :=
  k0_pay5 (arg0At t0_15) (k0_pay19 (xb m c t0_15)) (k0_pay20 (xb m c t0_15) (S2 m c) (S1 m c))
    (k0_pay23 (grid0.coords t0_15) (S4 m c 14 (by rw [show cfg0.N = 16 from N_0]; decide)))
    (k0_pay24 (xb m c t0_15) (S2 m c) (S1 m c) (S0 m c)) (S3 m c 14 (by rw [show cfg0.N = 16 from N_0]; decide))
    (k0_pay8 (acc15 m c)) (k0_pay9 (acc15 m c)) (k0_pay11 (acc15 m c)) (k0_pay12 (acc15 m c)) (k0_pay13 (F := F))
def O4 (c : Dev nD) : Vec F S1x1 .f32 := k0_pay6 (k0_pay8 (acc15 m c))

/-! ## The invariant and the proof data -/

/-- Before the first point the class invariant (every scratch at anything); afterwards every scratch at the
    contents named above, and the generator register at some state. -/
def PhiS (c : Dev nD) : (n : ℕ) → n ≤ cfg0.N → sProp 𝕄
  | 0, _ => Pipeline.ΦA spec0 c
  | n + 1, hn => iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c n hn)
      ∗ owns (c : Thread nD τ) sc4 fullShare (S4 m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c n hn)
      ∗ owns (c : Thread nD τ) sc4 fullShare (S4 m c n hn)) ∗ (∃ r, prngReg c r)) := rfl
theorem PhiS_pos (c : Dev nD) (n : ℕ) (h : n ≤ cfg0.N) (hz : n ≠ 0) :
    PhiS m c n h = iprop(iprop(owns (c : Thread nD τ) sc0 fullShare (S0 m c) ∗ owns (c : Thread nD τ) sc1 fullShare (S1 m c)
      ∗ owns (c : Thread nD τ) sc2 fullShare (S2 m c) ∗ owns (c : Thread nD τ) sc3 fullShare (S3 m c (n - 1) (by omega))
      ∗ owns (c : Thread nD τ) sc4 fullShare (S4 m c (n - 1) (by omega))) ∗ (∃ r, prngReg c r)) := by
  cases n with
  | zero => exact absurd rfl hz
  | succ n => rfl

/-- The proof data of the pipeline on core `c`: the arrays as the region finds them; after the body at point `t`
    each input's buffer at its block, the output tile at `O2`, the scalar outputs at `O3` / `O4` (consulted at the
    last point only: elsewhere those windows are idle); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => O2 m c t
    | ⟨3, _⟩ => O3 m c
    | ⟨4, _⟩ => O4 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = O2 m c t := by dsimp only [dats]
theorem after_3 (c : Dev nD) (t : Fin cfg0.N) : (dats m 0 c).after 3 t = O3 m c := by dsimp only [dats]
theorem after_4 (c : Dev nD) (t : Fin cfg0.N) : (dats m 0 c).after 4 t = O4 m c := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

end Cert.KernelIdeal.Body

end
-- ==== Proof.KI.CaseA.lean ====
/-
  The body at the first point of the grid.
-/
import proofs.«125548_g45775761441265_cont_8to1_c_906_26_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The FIRST point: the codebook block is read and the three codebook-derived scratch buffers are stored, then the tile is processed as at every point. The two accumulators hold nothing meaningful yet: they are taken at arbitrary contents, which the body reads and then discards by a select on the point. The pieces each written buffer ends with are found by running the body. -/
noncomputable def runA (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    Σ' (L3 : List (View.Piece (Elt F) S512x256 .f32)) (LS0 : List (View.Piece (Elt F) S8192x256 .bf16)) (LS1 : List (View.Piece (Elt F) S256x8192 .bf16)) (LS2 : List (View.Piece (Elt F) S1x8192 .f32)) (LS3 : List (View.Piece (Elt F) S264x8192 .f32)), { LS4 : List (View.Piece (Elt F) S1x1 .f32) //
      ∀ (xi4 xi5 : Vec F S1x1 .f32) (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ owns (c : Thread nD τ) arg4 fullShare xi4
            ∗ owns (c : Thread nD τ) arg5 fullShare xi5
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ owns (c : Thread nD τ) arg4 fullShare xi4
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, ?_, ?_, ?_, fun xi4 xi5 E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg4.eq_unread hf4; obtain rfl := harg5.eq_unread hf5; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    isplitl [H9]
    · iexists _; iexact H9
    iexists _; iexact H10

end Cert.KernelIdeal.Body

end
-- ==== Proof.KI.PiecesA.lean ====
/-
  What the body's stores leave in each buffer at the first point, as the payload of the covering store.
-/
import proofs.«125548_g45775761441265_cont_8to1_c_906_26_alg».proof.Proof.KI.CaseA
import proofs.«125548_g45775761441265_cont_8to1_c_906_26_alg».proof.Proof.KI.Views

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in this buffer cover it. -/
theorem coverA_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S512x256.Idx) :
    ∃ pc ∈ (runA c i arg1 harg1 arg2 harg2 arg3 harg3 arg4 harg4 arg5 harg5 arg6 harg6 arg7 harg7 arg8 harg8 arg9 harg9 arg10 harg10 hcA hcC x0 e0 xs3 xs4).1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).1 S512x256.size (by sl_kernel_rfl) y

set_option maxHeartbeats 1600000 in
/-- Read back, they are the store's payload over the contents the body loaded. -/
theorem pieceA_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwT.read (Elt F) (VwT.writes (Elt F) VwT.junk (runA c i arg1 harg1 arg2 harg2 arg3 harg3 arg4 harg4 arg5 harg5 arg6 harg6 arg7 harg7 arg8 harg8 arg9 harg9 arg10 harg10 hcA hcC x0 e0 xs3 xs4).1) = k0_pay22 x0 (k0_pay17 e0) (k0_pay16 e0) (k0_pay15 e0) := by
  rw [View.read_writes_eq_canon _ _ _ (coverA_3 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s0 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S8192x256.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.1 S8192x256.size (by sl_kernel_rfl) y

set_option maxHeartbeats 1600000 in
/-- Read back, they are the store's payload over the contents the body loaded. -/
theorem pieceA_s0 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwE.read (Elt F) (VwE.writes (Elt F) VwE.junk (runA c i arg1 harg1 arg2 harg2 arg3 harg3 arg4 harg4 arg5 harg5 arg6 harg6 arg7 harg7 arg8 harg8 arg9 harg9 arg10 harg10 hcA hcC x0 e0 xs3 xs4).2.1) = k0_pay15 e0 := by
  rw [View.read_writes_eq_canon _ _ _ (coverA_s0 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s1 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S256x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.1 S256x8192.size (by sl_kernel_rfl) y

set_option maxHeartbeats 1600000 in
/-- Read back, they are the store's payload over the contents the body loaded. -/
theorem pieceA_s1 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwD.read (Elt F) (VwD.writes (Elt F) VwD.junk (runA c i arg1 harg1 arg2 harg2 arg3 harg3 arg4 harg4 arg5 harg5 arg6 harg6 arg7 harg7 arg8 harg8 arg9 harg9 arg10 harg10 hcA hcC x0 e0 xs3 xs4).2.2.1) = k0_pay16 e0 := by
  rw [View.read_writes_eq_canon _ _ _ (coverA_s1 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s2 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S1x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.1 S1x8192.size (by sl_kernel_rfl) y

set_option maxHeartbeats 1600000 in
/-- Read back, they are the store's payload over the contents the body loaded. -/
theorem pieceA_s2 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwN.read (Elt F) (VwN.writes (Elt F) VwN.junk (runA c i arg1 harg1 arg2 harg2 arg3 harg3 arg4 harg4 arg5 harg5 arg6 harg6 arg7 harg7 arg8 harg8 arg9 harg9 arg10 harg10 hcA hcC x0 e0 xs3 xs4).2.2.2.1) = k0_pay17 e0 := by
  rw [View.read_writes_eq_canon _ _ _ (coverA_s2 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S264x8192.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.2.1 S264x8192.size (by sl_kernel_rfl) y

set_option maxHeartbeats 1600000 in
/-- Read back, they are the store's payload over the contents the body loaded. -/
theorem pieceA_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwA.read (Elt F) (VwA.writes (Elt F) VwA.junk (runA c i arg1 harg1 arg2 harg2 arg3 harg3 arg4 harg4 arg5 harg5 arg6 harg6 arg7 harg7 arg8 harg8 arg9 harg9 arg10 harg10 hcA hcC x0 e0 xs3 xs4).2.2.2.2.1) = k0_pay4 (BitVec.ofNat 32 (i 0).val) (k0_pay19 x0) (k0_pay20 x0 (k0_pay17 e0) (k0_pay16 e0)) xs3 := by
  rw [View.read_writes_eq_canon _ _ _ (coverA_s3 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

/-- The pieces case A leaves in this buffer cover it. -/
theorem coverA_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) (y : S1x1.Idx) :
    ∃ pc ∈ (runA c i arg1 harg1 arg2 harg2 arg3 harg3 arg4 harg4 arg5 harg5 arg6 harg6 arg7 harg7 arg8 harg8 arg9 harg9 arg10 harg10 hcA hcC x0 e0 xs3 xs4).2.2.2.2.2.1, y ∈ pc.1.set :=
  View.cover_of_tiledL (runA c i arg1 harg1 arg2 harg2 arg3 harg3 arg4 harg4 arg5 harg5 arg6 harg6 arg7 harg7 arg8 harg8 arg9 harg9 arg10 harg10 hcA hcC x0 e0 xs3 xs4).2.2.2.2.2.1 S1x1.size (by sl_kernel_rfl) y

set_option maxHeartbeats 1600000 in
/-- Read back, they are the store's payload over the contents the body loaded. -/
theorem pieceA_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : condA i) (hcC : ¬condC i)
    (x0 : Vec F S512x256 .f32) (e0 : Vec F S8192x256 .f32) (xs3 : Vec F S264x8192 .f32) (xs4 : Vec F S1x1 .f32) :
    VwS.read (Elt F) (VwS.writes (Elt F) VwS.junk (runA c i arg1 harg1 arg2 harg2 arg3 harg3 arg4 harg4 arg5 harg5 arg6 harg6 arg7 harg7 arg8 harg8 arg9 harg9 arg10 harg10 hcA hcC x0 e0 xs3 xs4).2.2.2.2.2.1) = k0_pay2 (k0_pay23 i xs4) (k0_pay24 x0 (k0_pay17 e0) (k0_pay16 e0) (k0_pay15 e0)) := by
  rw [View.read_writes_eq_canon _ _ _ (coverA_s4 c i arg1 harg1 arg2 harg2 arg3 harg3 arg4 harg4 arg5 harg5 arg6 harg6 arg7 harg7 arg8 harg8 arg9 harg9 arg10 harg10 hcA hcC x0 e0 xs3 xs4)]
  unfold runA
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz, View.readCov_unit_zero (S := S1x8192) _ hz, View.readCov_unit_zero (S := S256x8192) _ hz, View.readCov_unit_zero (S := S8192x256) _ hz]

end Cert.KernelIdeal.Body

end
-- ==== Proof.KI.CaseB.lean ====
/-
  The body at a middle point of the grid.
-/
import proofs.«125548_g45775761441265_cont_8to1_c_906_26_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A MIDDLE point (neither branch taken): the tile is read, the output tile and the two accumulators are stored; the codebook-derived scratch is only read, the two scalar outputs are untouched. The pieces each written buffer ends with are found by running the body. -/
noncomputable def runB (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    Σ' (L3 : List (View.Piece (Elt F) S512x256 .f32)) (LS3 : List (View.Piece (Elt F) S264x8192 .f32)), { LS4 : List (View.Piece (Elt F) S1x1 .f32) //
      ∀ (xi4 xi5 : Vec F S1x1 .f32) (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ owns (c : Thread nD τ) arg4 fullShare xi4
            ∗ owns (c : Thread nD τ) arg5 fullShare xi5
            ∗ owns (c : Thread nD τ) arg6 fullShare xs0
            ∗ owns (c : Thread nD τ) arg7 fullShare xs1
            ∗ owns (c : Thread nD τ) arg8 fullShare xs2
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ owns (c : Thread nD τ) arg4 fullShare xi4
                ∗ owns (c : Thread nD τ) arg5 fullShare xi5
                ∗ owns (c : Thread nD τ) arg6 fullShare xs0
                ∗ owns (c : Thread nD τ) arg7 fullShare xs1
                ∗ owns (c : Thread nD τ) arg8 fullShare xs2
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, fun xi4 xi5 E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.KernelIdeal.Body

end
-- ==== Proof.KI.PiecesB.lean ====
/-
  What the body's stores leave in each buffer at a middle point, as the payload of the covering store.
-/
import proofs.«125548_g45775761441265_cont_8to1_c_906_26_alg».proof.Proof.KI.CaseB
import proofs.«125548_g45775761441265_cont_8to1_c_906_26_alg».proof.Proof.KI.Views

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case B leaves in this buffer cover it. -/
theorem coverB_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S512x256.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).1 S512x256.size (by sl_kernel_rfl) y

set_option maxHeartbeats 1600000 in
/-- Read back, they are the store's payload over the contents the body loaded. -/
theorem pieceB_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwT.read (Elt F) (VwT.writes (Elt F) VwT.junk (runB c i arg1 harg1 arg2 harg2 arg3 harg3 arg4 harg4 arg5 harg5 arg6 harg6 arg7 harg7 arg8 harg8 arg9 harg9 arg10 harg10 hcA hcC x0 e0 xs0 xs1 xs2 xs3 xs4).1) = k0_pay22 x0 xs2 xs1 xs0 := by
  rw [View.read_writes_eq_canon _ _ _ (coverB_3 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case B leaves in this buffer cover it. -/
theorem coverB_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S264x8192.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).2.1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).2.1 S264x8192.size (by sl_kernel_rfl) y

set_option maxHeartbeats 1600000 in
/-- Read back, they are the store's payload over the contents the body loaded. -/
theorem pieceB_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwA.read (Elt F) (VwA.writes (Elt F) VwA.junk (runB c i arg1 harg1 arg2 harg2 arg3 harg3 arg4 harg4 arg5 harg5 arg6 harg6 arg7 harg7 arg8 harg8 arg9 harg9 arg10 harg10 hcA hcC x0 e0 xs0 xs1 xs2 xs3 xs4).2.1) = k0_pay4 (BitVec.ofNat 32 (i 0).val) (k0_pay19 x0) (k0_pay20 x0 xs2 xs1) xs3 := by
  rw [View.read_writes_eq_canon _ _ _ (coverB_s3 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case B leaves in this buffer cover it. -/
theorem coverB_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runB c i arg1 harg1 arg2 harg2 arg3 harg3 arg4 harg4 arg5 harg5 arg6 harg6 arg7 harg7 arg8 harg8 arg9 harg9 arg10 harg10 hcA hcC x0 e0 xs0 xs1 xs2 xs3 xs4).2.2.1, y ∈ pc.1.set :=
  View.cover_of_tiledL (runB c i arg1 harg1 arg2 harg2 arg3 harg3 arg4 harg4 arg5 harg5 arg6 harg6 arg7 harg7 arg8 harg8 arg9 harg9 arg10 harg10 hcA hcC x0 e0 xs0 xs1 xs2 xs3 xs4).2.2.1 S1x1.size (by sl_kernel_rfl) y

set_option maxHeartbeats 1600000 in
/-- Read back, they are the store's payload over the contents the body loaded. -/
theorem pieceB_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : ¬condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runB c i arg1 harg1 arg2 harg2 arg3 harg3 arg4 harg4 arg5 harg5 arg6 harg6 arg7 harg7 arg8 harg8 arg9 harg9 arg10 harg10 hcA hcC x0 e0 xs0 xs1 xs2 xs3 xs4).2.2.1) = k0_pay2 (k0_pay23 i xs4) (k0_pay24 x0 xs2 xs1 xs0) := by
  rw [View.read_writes_eq_canon _ _ _ (coverB_s4 c i arg1 harg1 arg2 harg2 arg3 harg3 arg4 harg4 arg5 harg5 arg6 harg6 arg7 harg7 arg8 harg8 arg9 harg9 arg10 harg10 hcA hcC x0 e0 xs0 xs1 xs2 xs3 xs4)]
  unfold runB
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

end Cert.KernelIdeal.Body

end
-- ==== Proof.KI.CaseC.lean ====
/-
  The body at the last point of the grid.
-/
import proofs.«125548_g45775761441265_cont_8to1_c_906_26_alg».proof.Proof.KI.Common

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The LAST point: the tile is processed as at every point, then the two scalar results are computed from the accumulators and stored into their windows. The pieces each written buffer ends with are found by running the body. -/
noncomputable def runC (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    Σ' (L3 : List (View.Piece (Elt F) S512x256 .f32)) (L4 : List (View.Piece (Elt F) S1x1 .f32)) (L5 : List (View.Piece (Elt F) S1x1 .f32)) (LS3 : List (View.Piece (Elt F) S264x8192 .f32)), { LS4 : List (View.Piece (Elt F) S1x1 .f32) //
      ∀ (E : Set ℕ) (K : PUnit → sProp 𝕄),
        iprop(owns (c : Thread nD τ) arg1 fullShare x0
            ∗ owns (c : Thread nD τ) arg2 fullShare e0
            ∗ (∃ d, owns (c : Thread nD τ) arg3 fullShare d)
            ∗ (∃ d, owns (c : Thread nD τ) arg4 fullShare d)
            ∗ (∃ d, owns (c : Thread nD τ) arg5 fullShare d)
            ∗ owns (c : Thread nD τ) arg6 fullShare xs0
            ∗ owns (c : Thread nD τ) arg7 fullShare xs1
            ∗ owns (c : Thread nD τ) arg8 fullShare xs2
            ∗ owns (c : Thread nD τ) arg9 fullShare xs3
            ∗ owns (c : Thread nD τ) arg10 fullShare xs4
            ∗ (iprop(owns (c : Thread nD τ) arg1 fullShare x0
                ∗ owns (c : Thread nD τ) arg2 fullShare e0
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ owns (c : Thread nD τ) arg6 fullShare xs0
                ∗ owns (c : Thread nD τ) arg7 fullShare xs1
                ∗ owns (c : Thread nD τ) arg8 fullShare xs2
                ∗ (∃ f, arg9.view.loc (c : Thread nD τ) ↦[arg9.view.set]{fullShare} arg9.view.writes (Elt F) f LS3)
                ∗ (∃ f, arg10.view.loc (c : Thread nD τ) ↦[arg10.view.set]{fullShare} arg10.view.writes (Elt F) f LS4)) -∗ K ⟨⟩))
          ⊢ wp frame (wpE (defs₀ (F := F)) Variants.none c none) E (cc0__vq_body i arg1 harg1 arg2 harg2 arg3 harg3 arg4 harg4 arg5 harg5 arg6 harg6 arg7 harg7 arg8 harg8 arg9 harg9 arg10 harg10) K } := by
  refine ⟨?_, ?_, ?_, ?_, ?_, fun  E K => ?run⟩
  case run =>
    simp only [cc0__vq_body_eq_skeleton]; unfold cc0__vq_body_skel
    simp only [k0_part1_eq_skeleton, k0_part2_eq_skeleton]
    unfold owns
    iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg6.eq_unread hf6; obtain rfl := harg7.eq_unread hf7; obtain rfl := harg8.eq_unread hf8; obtain rfl := harg9.eq_unread hf9; obtain rfl := harg10.eq_unread hf10
    sl_exec (disch := first | exact hcA | exact hcC)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; iexact H3
    isplitl [H4]
    · iexists _; iexact H4
    isplitl [H5]
    · iexists _; iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    iexists _; iexact H10

end Cert.KernelIdeal.Body

end
-- ==== Proof.KI.PiecesC.lean ====
/-
  What the body's stores leave in each buffer at the last point, as the payload of the covering store.
-/
import proofs.«125548_g45775761441265_cont_8to1_c_906_26_alg».proof.Proof.KI.CaseC
import proofs.«125548_g45775761441265_cont_8to1_c_906_26_alg».proof.Proof.KI.Views

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case C leaves in this buffer cover it. -/
theorem coverC_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S512x256.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).1 S512x256.size (by sl_kernel_rfl) y

set_option maxHeartbeats 1600000 in
/-- Read back, they are the store's payload over the contents the body loaded. -/
theorem pieceC_3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwT.read (Elt F) (VwT.writes (Elt F) VwT.junk (runC c i arg1 harg1 arg2 harg2 arg3 harg3 arg4 harg4 arg5 harg5 arg6 harg6 arg7 harg7 arg8 harg8 arg9 harg9 arg10 harg10 hcA hcC x0 e0 xs0 xs1 xs2 xs3 xs4).1) = k0_pay22 x0 xs2 xs1 xs0 := by
  rw [View.read_writes_eq_canon _ _ _ (coverC_3 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.1 S1x1.size (by sl_kernel_rfl) y

set_option maxHeartbeats 1600000 in
/-- Read back, they are the store's payload over the contents the body loaded. -/
theorem pieceC_4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.1) = k0_pay5 (BitVec.ofNat 32 (i 0).val) (k0_pay19 x0) (k0_pay20 x0 xs2 xs1) (k0_pay23 i xs4) (k0_pay24 x0 xs2 xs1 xs0) xs3 (k0_pay8 (k0_pay3 (BitVec.ofNat 32 (i 0).val) (k0_pay19 x0) (k0_pay20 x0 xs2 xs1) xs3)) (k0_pay9 (k0_pay3 (BitVec.ofNat 32 (i 0).val) (k0_pay19 x0) (k0_pay20 x0 xs2 xs1) xs3)) (k0_pay11 (k0_pay3 (BitVec.ofNat 32 (i 0).val) (k0_pay19 x0) (k0_pay20 x0 xs2 xs1) xs3)) (k0_pay12 (k0_pay3 (BitVec.ofNat 32 (i 0).val) (k0_pay19 x0) (k0_pay20 x0 xs2 xs1) xs3)) (k0_pay13 (F := F)) := by
  rw [View.read_writes_eq_canon _ _ _ (coverC_4 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_5 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.1 S1x1.size (by sl_kernel_rfl) y

set_option maxHeartbeats 1600000 in
/-- Read back, they are the store's payload over the contents the body loaded. -/
theorem pieceC_5 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.2.1) = k0_pay6 (k0_pay8 (k0_pay3 (BitVec.ofNat 32 (i 0).val) (k0_pay19 x0) (k0_pay20 x0 xs2 xs1) xs3)) := by
  rw [View.read_writes_eq_canon _ _ _ (coverC_5 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S264x8192.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.2.1 S264x8192.size (by sl_kernel_rfl) y

set_option maxHeartbeats 1600000 in
/-- Read back, they are the store's payload over the contents the body loaded. -/
theorem pieceC_s3 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwA.read (Elt F) (VwA.writes (Elt F) VwA.junk (runC c i arg1 harg1 arg2 harg2 arg3 harg3 arg4 harg4 arg5 harg5 arg6 harg6 arg7 harg7 arg8 harg8 arg9 harg9 arg10 harg10 hcA hcC x0 e0 xs0 xs1 xs2 xs3 xs4).2.2.2.1) = k0_pay4 (BitVec.ofNat 32 (i 0).val) (k0_pay19 x0) (k0_pay20 x0 xs2 xs1) xs3 := by
  rw [View.read_writes_eq_canon _ _ _ (coverC_s3 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

/-- The pieces case C leaves in this buffer cover it. -/
theorem coverC_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) (y : S1x1.Idx) :
    ∃ pc ∈ (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1, y ∈ pc.1.set :=
  View.cover_of_tiledL (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1 S1x1.size (by sl_kernel_rfl) y

set_option maxHeartbeats 1600000 in
/-- Read back, they are the store's payload over the contents the body loaded. -/
theorem pieceC_s4 (c : Dev nD) (i : grid0.Coords) (arg1 : Memref sig .tc .vmem S512x256 .f32) (harg1 : arg1.IsWhole) (arg2 : Memref sig .tc .vmem S8192x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S8192x256 .bf16) (harg6 : arg6.IsWhole) (arg7 : Memref sig .tc .vmem S256x8192 .bf16) (harg7 : arg7.IsWhole) (arg8 : Memref sig .tc .vmem S1x8192 .f32) (harg8 : arg8.IsWhole) (arg9 : Memref sig .tc .vmem S264x8192 .f32) (harg9 : arg9.IsWhole) (arg10 : Memref sig .tc .vmem S1x1 .f32) (harg10 : arg10.IsWhole) (hcA : ¬condA i) (hcC : condC i)
    (x0 : Vec F S512x256 .f32) (e0 : Vec F S8192x256 .f32) (xs0 : Vec F S8192x256 .bf16) (xs1 : Vec F S256x8192 .bf16) (xs2 : Vec F S1x8192 .f32) (xs3 : Vec F S264x8192 .f32) (xs4 : Vec F S1x1 .f32) :
    VwS.read (Elt F) (VwS.writes (Elt F) VwS.junk (runC c i arg1 harg1 arg2 harg2 arg3 harg3 arg4 harg4 arg5 harg5 arg6 harg6 arg7 harg7 arg8 harg8 arg9 harg9 arg10 harg10 hcA hcC x0 e0 xs0 xs1 xs2 xs3 xs4).2.2.2.2.1) = k0_pay2 (k0_pay23 i xs4) (k0_pay24 x0 xs2 xs1 xs0) := by
  rw [View.read_writes_eq_canon _ _ _ (coverC_s4 c i arg1 harg1 arg2 harg2 arg3 harg3 arg4 harg4 arg5 harg5 arg6 harg6 arg7 harg7 arg8 harg8 arg9 harg9 arg10 harg10 hcA hcC x0 e0 xs0 xs1 xs2 xs3 xs4)]
  unfold runC
  dsimp only
  sl_unfold_words
  rw [View.canon_unit_zero hz]
  simp only [View.readAt_eq_ld, harg1.read_unread, harg2.read_unread, harg6.read_unread, harg7.read_unread, harg8.read_unread, harg9.read_unread, harg10.read_unread, View.ld_unit_zero (S := S512x256) hz, View.ld_unit_zero (S := S8192x256) hz, View.ld_unit_zero (S := S256x8192) hz, View.ld_unit_zero (S := S1x8192) hz, View.ld_unit_zero (S := S264x8192) hz, View.ld_unit_zero (S := S1x1) hz]

end Cert.KernelIdeal.Body

end
-- ==== Proof.KI.Frame.lean ====
/-
  The body obligation of the kernel at every point of the grid, the run of the whole program, and its frame.
-/
import proofs.«125548_g45775761441265_cont_8to1_c_906_26_alg».proof.Proof.KI.State
import proofs.«125548_g45775761441265_cont_8to1_c_906_26_alg».proof.Proof.KI.PiecesA
import proofs.«125548_g45775761441265_cont_8to1_c_906_26_alg».proof.Proof.KI.PiecesB
import proofs.«125548_g45775761441265_cont_8to1_c_906_26_alg».proof.Proof.KI.PiecesC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 8000000 in
/-- The body at any point: the inputs' buffers hold their blocks; the closed forms of the two conditions say which
    case the point is in; the invariant hands the body every scratch at what the point before left (at anything
    before the first point) and takes each back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
      unfold Dat.leavesExact; rw [liveAt_0 t], after_0]
  rw [show (dats m 0 c).leavesExact 1 t = owns (c : Thread nD τ) (ms1 t) fullShare ((dats m 0 c).after 1 t) from by
      unfold Dat.leavesExact; rw [liveAt_1 t], after_1]
  rw [show (dats m 0 c).leavesExact 2 t = owns (c : Thread nD τ) (ms2 t) fullShare ((dats m 0 c).after 2 t) from by
      unfold Dat.leavesExact; rw [liveAt_2 t], after_2]
  by_cases h0 : t.val = 0
  · -- the first point
    have hcA : condA (grid0.coords t) := (hcondA t).mpr h0
    have hcC : ¬condC (grid0.coords t) := fun h => by have := (hcondC t).mp h; omega
    rw [Dat.leavesExact_idle (dats m 0 c) 3 t (idleAt_3 t hcC) (noFlush_3 t hcC),
      Dat.leavesExact_idle (dats m 0 c) 4 t (idleAt_4 t hcC) (noFlush_4 t hcC)]
    rw [PhiS_castSucc m c t, PhiS_zero m c _ _ h0, PhiA_eq]
    have hS3 : S3 m c t.val t.isLt = k0_pay4 (arg0At t) (k0_pay19 (xb m c t)) (k0_pay20 (xb m c t) (S2 m c) (S1 m c)) junk3 := by
      obtain ⟨n, hn⟩ := t; obtain rfl : n = 0 := h0; rfl
    have hS4 : S4 m c t.val t.isLt = k0_pay2 (k0_pay23 (grid0.coords t) junk4) (k0_pay24 (xb m c t) (S2 m c) (S1 m c) (S0 m c)) := by
      obtain ⟨n, hn⟩ := t; obtain rfl : n = 0 := h0; rfl
    rw [hS3, hS4]
    have he : iblk m c 1 t = eb m c := by
      have ht0 : t = t0_0 := Fin.ext h0
      rw [ht0]; rfl
    iintro ⟨⟨⟨HS0, HS1, HS2, ⟨%j3, HS3⟩, ⟨%j4, HS4⟩⟩, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ _ _ _ _ _ _ _ _ hcA hcC (iblk m c 0 t) (eb m c) j3 j4).2.2.2.2.2.2 _ _ Set.univ _)
    isplitl [H0]; · iexact H0
    isplitl [H1]; · rw [he]; iexact H1
    isplitl [H2]; · iexists _; iexact H2
    isplitl [H3]; · iexact H3
    isplitl [H4]; · iexact H4
    isplitl [HS0]; · iexact HS0
    isplitl [HS1]; · iexact HS1
    isplitl [HS2]; · iexact HS2
    isplitl [HS3]; · iexact HS3
    isplitl [HS4]; · iexact HS4
    iintro ⟨H0, H1, ⟨%e2, H2⟩, H3, H4, ⟨%es0, HS0⟩, ⟨%es1, HS1⟩, ⟨%es2, HS2⟩, ⟨%es3, HS3⟩, ⟨%es4, HS4⟩⟩
    isplitl [HS0 HS1 HS2 HS3 HS4 Hg]
    · isplitl [HS0 HS1 HS2 HS3 HS4]
      · isplitl [HS0]
        · unfold owns; iexists _; isplitr; swap; iexact HS0; ipureintro; exact (View.read_writes_of_cover _ _ _ _ _ (coverA_s0 c _ _ _ _ _ _ _ _ _ _ _ _ _ _ _ _ _ _ _ _ _ _ _ _ _ _ _)).trans (pieceA_s0 c _ _ _ _ _ _ _ _ _ _ _ _ _ _ _ _ _ _ _ _ _ _ _ _ _ _ _)
        isplitl [HS1]
        · unfold owns; iexists _; isplitr; swap; iexact HS1; ipureintro; exact (View.read_writes_of_cover _ _ _ _ _ (coverA_s1 c _ _ _ _ _ _ _ _ _ _ _ _ _ _ _ _ _ _ _ _ _ _ _ _ _ _ _)).trans (pieceA_s1 c _ _ _ _ _ _ _ _ _ _ _ _ _ _ _ _ _ _ _ _ _ _ _ _ _ _ _)
        isplitl [HS2]
        · unfold owns; iexists _; isplitr; swap; iexact HS2; ipureintro; exact (View.read_writes_of_cover _ _ _ _ _ (coverA_s2 c _ _ _ _ _ _ _ _ _ _ _ _ _ _ _ _ _ _ _ _ _ _ _ _ _ _ _)).trans (pieceA_s2 c _ _ _ _ _ _ _ _ _ _ _ _ _ _ _ _ _ _ _ _ _ _ _ _ _ _ _)
        isplitl [HS3]
        · unfold owns; iexists _; isplitr; swap; iexact HS3; ipureintro; exact (View.read_writes_of_cover _ _ _ _ _ (coverA_s3 c _ _ _ _ _ _ _ _ _ _ _ _ _ _ _ _ _ _ _ _ _ _ _ _ _ _ _)).trans ((pieceA_s3 c _ _ _ _ _ _ _ _ _ _ _ _ _ _ _ _ _ _ _ _ _ _ _ _ _ _ _).trans (pay4_junk _ (isFirst t h0) _ _ _ _))
        unfold owns; iexists _; isplitr; swap; iexact HS4; ipureintro; exact (View.read_writes_of_cover _ _ _ _ _ (coverA_s4 c _ _ _ _ _ _ _ _ _ _ _ _ _ _ _ _ _ _ _ _ _ _ _ _ _ _ _)).trans ((pieceA_s4 c _ _ _ _ _ _ _ _ _ _ _ _ _ _ _ _ _ _ _ _ _ _ _ _ _ _ _).trans (congrArg (fun v => k0_pay2 v _) (pay23_junk _ (isFirst t h0) _ _)))
      iexact Hg
    isplitl [Ho]; · iexact Ho
    isplitl [H0]; · iexact H0
    isplitl [H1]; · rw [he]; iexact H1
    isplitl [H2]
    · unfold owns; iexists _; isplitr; swap; iexact H2; ipureintro; exact (View.read_writes_of_cover _ _ _ _ _ (coverA_3 c _ _ _ _ _ _ _ _ _ _ _ _ _ _ _ _ _ _ _ _ _ _ _ _ _ _ _)).trans (pieceA_3 c _ _ _ _ _ _ _ _ _ _ _ _ _ _ _ _ _ _ _ _ _ _ _ _ _ _ _)
    isplitl [H3]; · iexists _; iexact H3
    iexists _; iexact H4
  · by_cases h15 : t.val = 15
    · -- the last point
      have hcA : ¬condA (grid0.coords t) := fun h => h0 ((hcondA t).mp h)
      have hcC : condC (grid0.coords t) := (hcondC t).mpr h15
      rw [show (dats m 0 c).leavesExact 3 t = owns (c : Thread nD τ) (ms3 t) fullShare ((dats m 0 c).after 3 t) from by
          unfold Dat.leavesExact; rw [liveAt_3 t hcC], after_3]
      rw [show (dats m 0 c).leavesExact 4 t = owns (c : Thread nD τ) (ms4 t) fullShare ((dats m 0 c).after 4 t) from by
          unfold Dat.leavesExact; rw [liveAt_4 t hcC], after_4]
      rw [PhiS_castSucc m c t, PhiS_pos m c _ _ h0, S3_pos m c t h0, S4_pos m c t h0]
      have ht : t = t0_15 := Fin.ext h15
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ _ _ _ _ _ _ _ _ hcA hcC (iblk m c 0 t) (iblk m c 1 t) (S0 m c) (S1 m c) (S2 m c) (S3 m c (t.val - 1) (Nat.lt_of_le_of_lt (Nat.sub_le _ _) t.isLt)) (S4 m c (t.val - 1) (Nat.lt_of_le_of_lt (Nat.sub_le _ _) t.isLt))).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, ⟨%e2, H2⟩, ⟨%e3, H3⟩, ⟨%e4, H4⟩, HS0, HS1, HS2, ⟨%es3, HS3⟩, ⟨%es4, HS4⟩⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]
          · unfold owns; iexists _; isplitr; swap; iexact HS3; ipureintro; exact (View.read_writes_of_cover _ _ _ _ _ (coverC_s3 c _ _ _ _ _ _ _ _ _ _ _ _ _ _ _ _ _ _ _ _ _ _ _ _ _ _ _ _ _ _)).trans (pieceC_s3 c _ _ _ _ _ _ _ _ _ _ _ _ _ _ _ _ _ _ _ _ _ _ _ _ _ _ _ _ _ _)
          unfold owns; iexists _; isplitr; swap; iexact HS4; ipureintro; exact (View.read_writes_of_cover _ _ _ _ _ (coverC_s4 c _ _ _ _ _ _ _ _ _ _ _ _ _ _ _ _ _ _ _ _ _ _ _ _ _ _ _ _ _ _)).trans (pieceC_s4 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr; swap; iexact H2; ipureintro; exact (View.read_writes_of_cover _ _ _ _ _ (coverC_3 c _ _ _ _ _ _ _ _ _ _ _ _ _ _ _ _ _ _ _ _ _ _ _ _ _ _ _ _ _ _)).trans (pieceC_3 c _ _ _ _ _ _ _ _ _ _ _ _ _ _ _ _ _ _ _ _ _ _ _ _ _ _ _ _ _ _)
      isplitl [H3]
      · unfold owns; iexists _; isplitr; swap; iexact H3; ipureintro; exact (View.read_writes_of_cover _ _ _ _ _ (coverC_4 c _ _ _ _ _ _ _ _ _ _ _ _ _ _ _ _ _ _ _ _ _ _ _ _ _ _ _ _ _ _)).trans ((pieceC_4 c _ _ _ _ _ _ _ _ _ _ _ _ _ _ _ _ _ _ _ _ _ _ _ _ _ _ _ _ _ _).trans (by subst ht; rfl))
      unfold owns; iexists _; isplitr; swap; iexact H4; ipureintro; exact (View.read_writes_of_cover _ _ _ _ _ (coverC_5 c _ _ _ _ _ _ _ _ _ _ _ _ _ _ _ _ _ _ _ _ _ _ _ _ _ _ _ _ _ _)).trans ((pieceC_5 c _ _ _ _ _ _ _ _ _ _ _ _ _ _ _ _ _ _ _ _ _ _ _ _ _ _ _ _ _ _).trans (by subst ht; rfl))
    · -- a middle point
      have hcA : ¬condA (grid0.coords t) := fun h => h0 ((hcondA t).mp h)
      have hcC : ¬condC (grid0.coords t) := fun h => h15 ((hcondC t).mp h)
      rw [Dat.leavesExact_idle (dats m 0 c) 3 t (idleAt_3 t hcC) (noFlush_3 t hcC),
        Dat.leavesExact_idle (dats m 0 c) 4 t (idleAt_4 t hcC) (noFlush_4 t hcC)]
      rw [PhiS_castSucc m c t, PhiS_pos m c _ _ h0, S3_pos m c t h0, S4_pos m c t h0]
      iintro ⟨⟨⟨HS0, HS1, HS2, HS3, HS4⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ _ _ _ _ _ _ _ _ hcA hcC (iblk m c 0 t) (iblk m c 1 t) (S0 m c) (S1 m c) (S2 m c) (S3 m c (t.val - 1) (Nat.lt_of_le_of_lt (Nat.sub_le _ _) t.isLt)) (S4 m c (t.val - 1) (Nat.lt_of_le_of_lt (Nat.sub_le _ _) t.isLt))).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      isplitl [HS2]; · iexact HS2
      isplitl [HS3]; · iexact HS3
      isplitl [HS4]; · iexact HS4
      iintro ⟨H0, H1, ⟨%e2, H2⟩, H3, H4, HS0, HS1, HS2, ⟨%es3, HS3⟩, ⟨%es4, HS4⟩⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]
          · unfold owns; iexists _; isplitr; swap; iexact HS3; ipureintro; exact (View.read_writes_of_cover _ _ _ _ _ (coverB_s3 c _ _ _ _ _ _ _ _ _ _ _ _ _ _ _ _ _ _ _ _ _ _ _ _ _ _ _ _ _ _)).trans (pieceB_s3 c _ _ _ _ _ _ _ _ _ _ _ _ _ _ _ _ _ _ _ _ _ _ _ _ _ _ _ _ _ _)
          unfold owns; iexists _; isplitr; swap; iexact HS4; ipureintro; exact (View.read_writes_of_cover _ _ _ _ _ (coverB_s4 c _ _ _ _ _ _ _ _ _ _ _ _ _ _ _ _ _ _ _ _ _ _ _ _ _ _ _ _ _ _)).trans (pieceB_s4 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr; swap; iexact H2; ipureintro; exact (View.read_writes_of_cover _ _ _ _ _ (coverB_3 c _ _ _ _ _ _ _ _ _ _ _ _ _ _ _ _ _ _ _ _ _ _ _ _ _ _ _ _ _ _)).trans (pieceB_3 c _ _ _ _ _ _ _ _ _ _ _ _ _ _ _ _ _ _ _ _ _ _ _ _ _ _ _ _ _ _)
      isplitl [H3]; · iexists _; iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program terminates, and every final state has every array of the pipeline at
    what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, as functions of the token matrix `X` (8192 tokens × 256 features)
  and the codebook `E` (8192 codes × 256 features) over the extended reals.

  A soft vector quantizer: each token gets softmax weights over the codes from the logits
  `2·x·e − ‖e‖²` (one program also subtracts the row constant `‖x‖²`, which a softmax does not see);
  the quantized token is the weighted mean of the codes; the scalar loss adds the mean squared error (twice,
  once scaled), a regulariser `Σ (w/c)²` over the moving-average codebook `w` and cluster sizes `c`, and two
  entropies of the code-usage distribution; the perplexity is the exponential of the first entropy.

  Everything downstream of the weights is written ONCE, over an arbitrary weight matrix `enc`; the two
  arrangements differ only in how the weights are formed (`encK` / `encR`) and in how the regulariser is
  grouped (`regK`: the squares summed first, one quotient per code; `regR`: each entry divided, then squared).
-/
import Mathlib
import Idealize.ShloMosaic.PureOps.Ideal

noncomputable section

namespace Cert.VQ

open Idealize.ShloMosaic

/-- Token rows, codes, features. -/
abbrev Tok := Fin 8192
abbrev Code := Fin 8192
abbrev Feat := Fin 256

/-- Row-major numbering of the tokens: token `1024·b + r` is row `r` of batch `b`; and back. -/
def tokOf (b : Fin 8) (r : Fin 1024) : Tok := ⟨1024 * b.val + r.val, by have := b.isLt; have := r.isLt; omega⟩
def batchOf (t : Tok) : Fin 8 := ⟨t.val / 1024, by have := t.isLt; omega⟩
def rowOf (t : Tok) : Fin 1024 := ⟨t.val % 1024, Nat.mod_lt _ (by norm_num)⟩
theorem tokOf_batchOf_rowOf (t : Tok) : tokOf (batchOf t) (rowOf t) = t :=
  Fin.ext (by simp only [tokOf, batchOf, rowOf]; omega)
theorem batchOf_tokOf (b : Fin 8) (r : Fin 1024) : batchOf (tokOf b r) = b :=
  Fin.ext (by have := r.isLt; simp only [tokOf, batchOf]; omega)
theorem rowOf_tokOf (b : Fin 8) (r : Fin 1024) : rowOf (tokOf b r) = r :=
  Fin.ext (by have := r.isLt; simp only [tokOf, rowOf]; omega)

/-- The tokens in tiles of 512 consecutive rows: token `512·k + r` is row `r` of tile `k`. -/
def tileTok (k : Fin 16) (r : Fin 512) : Tok := ⟨512 * k.val + r.val, by have := k.isLt; have := r.isLt; omega⟩

/-- An f32 word read as an extended real. -/
abbrev w (b : BitVec 32) : EReal := Ideal.ofBits .f32 b

/-- The largest of a row of extended reals (the fold of `max` from `⊥`). -/
def rowMax (f : Code → EReal) : EReal := Finset.univ.fold max ⊥ f

section weights
variable (X : Tok → Feat → EReal) (E : Code → Feat → EReal)

/-- `‖e_n‖²` and `‖x_t‖²`. -/
def esq (n : Code) : EReal := ∑ d, E n d * E n d
def xsq (t : Tok) : EReal := ∑ d, X t d * X t d

/-- One arrangement's logits: `x·(e + e) − ‖e‖²`. -/
def lgK (t : Tok) (n : Code) : EReal := (∑ d, X t d * (E n d + E n d)) - esq E n
/-- Its unnormalised weights, their row sum, and the weights: `p · (1 / s)`. -/
def pK (t : Tok) (n : Code) : EReal := Ideal.exp (lgK X E t n - rowMax (lgK X E t))
def sK (t : Tok) : EReal := ∑ n, pK X E t n
def encK (t : Tok) (n : Code) : EReal := pK X E t n * Ideal.div (w 0x3F800000#32) (sK X E t)

/-- The other arrangement's logits: `−((‖x‖² + ‖e‖²) − 2·(x·e)) / 1`. -/
def lgR (t : Tok) (n : Code) : EReal :=
  Ideal.div (-((xsq X t + esq E n) - w 0x40000000#32 * ∑ d, X t d * E n d)) (w 0x3F800000#32)
/-- Its unnormalised weights, their row sum, and the weights: `p / s`. -/
def pR (t : Tok) (n : Code) : EReal := Ideal.exp (lgR X E t n - rowMax (lgR X E t))
def sR (t : Tok) : EReal := ∑ n, pR X E t n
def encR (t : Tok) (n : Code) : EReal := Ideal.div (pR X E t n) (sR X E t)

end weights

section downstream
variable (X : Tok → Feat → EReal) (E : Code → Feat → EReal) (enc : Tok → Code → EReal)

/-- The quantized token (the weighted mean of the codes) and the straight-through output `x + (q − x)`. -/
def quant (t : Tok) (d : Feat) : EReal := ∑ n, enc t n * E n d
def outv (t : Tok) (d : Feat) : EReal := X t d + (quant E enc t d - X t d)

/-- The total squared error and its mean over the 8192·256 entries. -/
def sqerr : EReal := ∑ t, ∑ d, (quant E enc t d - X t d) * (quant E enc t d - X t d)
def mse : EReal := Ideal.div (sqerr X E enc) (w 0x4A000000#32)

/-- Column sums of the weights (how much each code is used), and their mean over the tokens. -/
def colsum (n : Code) : EReal := ∑ t, enc t n
def avg (n : Code) : EReal := Ideal.div (colsum enc n) (w 0x46000000#32)
/-- `Σ avg · log (avg + tiny)` (the first entropy is its negative). -/
def entSum : EReal := ∑ n, avg enc n * Ideal.log (avg enc n + w 0x2EDBE6FF#32)

/-- The moving-average cluster size after one step from zero, its total, the usage distribution and
    `Σ up · log (up + tiny)` (the second entropy is its negative). -/
def ema (n : Code) : EReal := w 0x3C23D70A#32 * colsum enc n
def emaTot : EReal := ∑ n, ema enc n
def up (n : Code) : EReal := Ideal.div (ema enc n) (emaTot enc + w 0x3727C5AC#32)
def divSum : EReal := ∑ n, up enc n * Ideal.log (up enc n + w 0x2EDBE6FF#32)

/-- The smoothed cluster size `(ema + ε) / (tot + N·ε) · tot`. -/
def csz (n : Code) : EReal :=
  Ideal.div (ema enc n + w 0x3727C5AC#32) (emaTot enc + w 0x3DA7C5AC#32) * emaTot enc

/-- The regulariser, squares summed first: `Σ_n (Σ_d (c·Σ_t x·enc)²) / (c_n · c_n)`. -/
def regK : EReal :=
  ∑ n, Ideal.div (∑ d, (w 0x3C23D70A#32 * ∑ t, X t d * enc t n) * (w 0x3C23D70A#32 * ∑ t, X t d * enc t n))
    (csz enc n * csz enc n)
/-- The regulariser, each entry divided first: `Σ_n Σ_d ((c·Σ_t enc·x) / c_n)²`. -/
def regR : EReal :=
  ∑ n, ∑ d, Ideal.div (w 0x3C23D70A#32 * ∑ t, enc t n * X t d) (csz enc n)
    * Ideal.div (w 0x3C23D70A#32 * ∑ t, enc t n * X t d) (csz enc n)

/-- The loss and the perplexity in the first arrangement (negation written `0 − ·`). -/
def lossK : EReal :=
  ((mse X E enc + w 0x3E800000#32 * mse X E enc) + regK X enc)
    + w 0x3F4CCCCD#32 * ((0 - entSum enc) + (0 - divSum enc))
def perpK : EReal := Ideal.exp (0 - entSum enc)

/-- The loss and the perplexity in the second arrangement. -/
def lossR : EReal :=
  ((mse X E enc + w 0x3E800000#32 * mse X E enc) + regR X enc)
    + w 0x3F4CCCCD#32 * (-(entSum enc) + -(divSum enc))
def perpR : EReal := Ideal.exp (-(entSum enc))

end downstream

end Cert.VQ

end
-- ==== Proof.Laws1.lean ====
/-
  General facts used to join the two arrangements of the soft vector quantizer:
  the coercion of a finite real sum, the values of the f32 words that occur, the fold of `max`
  over a row of reals, division of reals inside the extended reals, and the regrouping of a sum
  over the tokens into tiles of 512 consecutive rows.
-/
import Mathlib
import Idealize.ShloMosaic.PureOps.Ideal
import proofs.«125548_g45775761441265_cont_8to1_c_906_26_alg».proof.Proof.Spec

noncomputable section

namespace Cert.VQ

open Idealize.ShloMosaic

/-! ### Coercions -/

/-- The coercion `ℝ → EReal` commutes with finite sums. -/
@[norm_cast] theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with `max`. -/
theorem coe_max (a b : ℝ) : ((max a b : ℝ) : EReal) = max (a : EReal) (b : EReal) :=
  EReal.coe_strictMono.monotone.map_max

/-- The quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- A product with the reciprocal of a real that is not zero is the quotient. -/
theorem mul_div_one_coe (p : EReal) {s : ℝ} (hs : s ≠ 0) :
    p * Ideal.div ((1 : ℝ) : EReal) (s : EReal) = Ideal.div p (s : EReal) := by
  rw [Ideal.div_coe hs, Ideal.div_coe hs, EReal.coe_one, one_mul]

/-! ### The fold of `max` from `⊥` -/

/-- Subtracting a real constant commutes with the fold of `max` from `⊥`. -/
theorem fold_max_sub {ι : Type*} (s : Finset ι) (f : ι → EReal) (c : ℝ) :
    s.fold max ⊥ (fun n => f n - (c : EReal)) = s.fold max ⊥ f - (c : EReal) := by
  classical
  induction s using Finset.induction_on with
  | empty => simp [EReal.bot_sub]
  | insert a s ha ih =>
    rw [Finset.fold_insert ha, Finset.fold_insert ha, ih]
    exact ((show Monotone (fun y : EReal => y - (c : EReal)) from
      fun _ _ h => EReal.sub_le_sub h le_rfl).map_max).symm

/-- Over a nonempty finite set of reals the fold of `max` from `⊥` is a real. -/
theorem fold_max_coe {ι : Type*} {s : Finset ι} (hs : s.Nonempty) (f : ι → ℝ) :
    ∃ m : ℝ, s.fold max ⊥ (fun n => (f n : EReal)) = (m : EReal) := by
  induction hs using Finset.Nonempty.cons_induction with
  | singleton a => exact ⟨f a, by simp⟩
  | cons a s ha hs ih =>
    obtain ⟨m, hm⟩ := ih
    exact ⟨max (f a) m, by rw [Finset.fold_cons, hm, coe_max]⟩

/-- The largest entry of a row of reals is a real. -/
theorem rowMax_coe (f : Code → ℝ) : ∃ m : ℝ, rowMax (fun n => (f n : EReal)) = (m : EReal) :=
  fold_max_coe Finset.univ_nonempty f

/-- Subtracting a real constant from a row lowers its largest entry by that constant. -/
theorem rowMax_sub (f : Code → EReal) (c : ℝ) :
    rowMax (fun n => f n - (c : EReal)) = rowMax f - (c : EReal) :=
  fold_max_sub Finset.univ f c

/-! ### The f32 words that occur -/

/-- `0x3F800000` is the real one. -/
theorem w_one : w 0x3F800000#32 = ((1 : ℝ) : EReal) := by
  simp [Ideal.ofBits, Ideal.ieee, -EReal.coe_mul]; norm_num

/-- `0x40000000` is the real two. -/
theorem w_two : w 0x40000000#32 = ((2 : ℝ) : EReal) := by
  simp [Ideal.ofBits, Ideal.ieee, -EReal.coe_mul]; norm_num

/-- `0x3C23D70A` (the decay complement, about 0.01) is a positive real. -/
theorem w_decay_pos : ∃ r : ℝ, 0 < r ∧ w 0x3C23D70A#32 = (r : EReal) := by
  refine ⟨_, ?_, by simp [Ideal.ofBits, Ideal.ieee, -EReal.coe_mul]; rfl⟩
  positivity

/-- `0x3727C5AC` (the smoothing constant, about 1e-5) is a positive real. -/
theorem w_eps_pos : ∃ r : ℝ, 0 < r ∧ w 0x3727C5AC#32 = (r : EReal) := by
  refine ⟨_, ?_, by simp [Ideal.ofBits, Ideal.ieee, -EReal.coe_mul]; rfl⟩
  positivity

/-- `0x3DA7C5AC` (the number of codes times the smoothing constant) is a positive real. -/
theorem w_neps_pos : ∃ r : ℝ, 0 < r ∧ w 0x3DA7C5AC#32 = (r : EReal) := by
  refine ⟨_, ?_, by simp [Ideal.ofBits, Ideal.ieee, -EReal.coe_mul]; rfl⟩
  positivity

/-! ### Tiles of 512 consecutive tokens -/

/-- Tile `k`, row `r` ↦ token `512·k + r` is a bijection. -/
def tileEquiv : Fin 16 × Fin 512 ≃ Tok where
  toFun p := tileTok p.1 p.2
  invFun t := (⟨t.val / 512, by have := t.isLt; omega⟩, ⟨t.val % 512, Nat.mod_lt _ (by norm_num)⟩)
  left_inv := by
    rintro ⟨k, r⟩
    have hk := k.isLt
    have hr := r.isLt
    refine Prod.ext (Fin.ext ?_) (Fin.ext ?_)
    · show (512 * k.val + r.val) / 512 = k.val
      omega
    · show (512 * k.val + r.val) % 512 = r.val
      omega
  right_inv := by
    intro t
    refine Fin.ext ?_
    show 512 * (t.val / 512) + t.val % 512 = t.val
    omega

/-- A sum over the tiles of the sums over each tile's rows is the sum over all tokens. -/
theorem sum_tiles {M : Type*} [AddCommMonoid M] (f : Tok → M) :
    ∑ k : Fin 16, ∑ r : Fin 512, f (tileTok k r) = ∑ t, f t :=
  (Fintype.sum_prod_type' (fun k r => f (tileTok k r))).symm.trans (Equiv.sum_comp tileEquiv f)

/-- A running total that starts at `0 + g 0` and adds `g (k+1)` at step `k+1` is the partial sum. -/
theorem run_total (g : ℕ → EReal) (a : ℕ → EReal) (h0 : a 0 = 0 + g 0)
    (hs : ∀ k, a (k + 1) = a k + g (k + 1)) (n : ℕ) : a n = ∑ k ∈ Finset.range (n + 1), g k := by
  induction n with
  | zero => simp [h0]
  | succ n ih => rw [hs, ih, Finset.sum_range_succ _ (n + 1)]

/-- The same when the total starts at `g 0`. -/
theorem run_total' (g : ℕ → EReal) (a : ℕ → EReal) (h0 : a 0 = g 0)
    (hs : ∀ k, a (k + 1) = a k + g (k + 1)) (n : ℕ) : a n = ∑ k ∈ Finset.range (n + 1), g k :=
  run_total g a (by rw [h0, zero_add]) hs n

/-- The sum over the first sixteen naturals is the sum over `Fin 16`. -/
theorem sum_range_sixteen {M : Type*} [AddCommMonoid M] (g : ℕ → M) :
    ∑ k ∈ Finset.range 16, g k = ∑ k : Fin 16, g k.val :=
  Finset.sum_range g

/-- A running total over the sixteen tiles ends at the sum over the tiles. -/
theorem run_total_sixteen (g : ℕ → EReal) (a : ℕ → EReal) (h0 : a 0 = 0 + g 0)
    (hs : ∀ k, a (k + 1) = a k + g (k + 1)) : a 15 = ∑ k : Fin 16, g k.val := by
  rw [run_total g a h0 hs 15, sum_range_sixteen]

end Cert.VQ

end
-- ==== Proof.Laws2.lean ====
/-
  The softmax weights of the two arrangements agree, and are positive reals.

  With every input a real, both arrangements' logits are reals; one arrangement's logits are the
  other's minus the row constant `‖x‖²`, which the subtraction of the row maximum cancels; the
  exponentials are then the same positive reals, so are their row sums, and `p · (1/s) = p/s`.
-/
import Mathlib
import Idealize.ShloMosaic.PureOps.Ideal
import proofs.«125548_g45775761441265_cont_8to1_c_906_26_alg».proof.Proof.Spec
import proofs.«125548_g45775761441265_cont_8to1_c_906_26_alg».proof.Proof.Laws1

noncomputable section

namespace Cert.VQ

open Idealize.ShloMosaic

/-- The real logits `x·(e + e) − ‖e‖²` and the real row constant `‖x‖²`. -/
def lkReal (x : Tok → Feat → ℝ) (e : Code → Feat → ℝ) (t : Tok) (n : Code) : ℝ :=
  (∑ d, x t d * (e n d + e n d)) - ∑ d, e n d * e n d
def xsReal (x : Tok → Feat → ℝ) (t : Tok) : ℝ := ∑ d, x t d * x t d

section
variable {X : Tok → Feat → EReal} {E : Code → Feat → EReal} {x : Tok → Feat → ℝ} {e : Code → Feat → ℝ}

/-- The first arrangement's logits are the real logits. -/
theorem lgK_coe (hx : ∀ t d, X t d = (x t d : EReal)) (he : ∀ n d, E n d = (e n d : EReal)) (t : Tok) (n : Code) :
    lgK X E t n = (lkReal x e t n : EReal) := by
  simp only [lgK, esq, hx, he, lkReal]
  push_cast
  rfl

/-- The second arrangement's logits are the real logits minus the row constant. -/
theorem lgR_coe (hx : ∀ t d, X t d = (x t d : EReal)) (he : ∀ n d, E n d = (e n d : EReal)) (t : Tok) (n : Code) :
    lgR X E t n = ((lkReal x e t n - xsReal x t : ℝ) : EReal) := by
  have h : -(((∑ d, x t d * x t d) + ∑ d, e n d * e n d) - 2 * ∑ d, x t d * e n d) / 1
      = lkReal x e t n - xsReal x t := by
    simp only [lkReal, xsReal, mul_add, Finset.sum_add_distrib]
    ring
  rw [← h]
  simp only [lgR, xsq, esq, hx, he, w_one, w_two]
  rw [← div_coe_coe _ one_ne_zero]
  push_cast
  rfl

/-- The second arrangement's row maximum is the first's minus the row constant. -/
theorem rowMax_lgR (hx : ∀ t d, X t d = (x t d : EReal)) (he : ∀ n d, E n d = (e n d : EReal)) (t : Tok) :
    rowMax (lgR X E t) = rowMax (lgK X E t) - (xsReal x t : EReal) := by
  have h : lgR X E t = fun n => lgK X E t n - (xsReal x t : EReal) :=
    funext fun n => by rw [lgR_coe hx he, lgK_coe hx he, EReal.coe_sub]
  rw [h, rowMax_sub]

/-- The unnormalised weights of the first arrangement: the exponentials of the real logits minus a real. -/
theorem pK_coe (hx : ∀ t d, X t d = (x t d : EReal)) (he : ∀ n d, E n d = (e n d : EReal)) (t : Tok) :
    ∃ m : ℝ, ∀ n, pK X E t n = (Real.exp (lkReal x e t n - m) : EReal) := by
  obtain ⟨m, hm⟩ := rowMax_coe (lkReal x e t)
  have h : lgK X E t = fun n => (lkReal x e t n : EReal) := funext (lgK_coe hx he t)
  refine ⟨m, fun n => ?_⟩
  rw [pK, h, hm, ← EReal.coe_sub, Ideal.exp_coe]

/-- The two arrangements have the same unnormalised weights. -/
theorem pR_eq_pK (hx : ∀ t d, X t d = (x t d : EReal)) (he : ∀ n d, E n d = (e n d : EReal)) (t : Tok) (n : Code) :
    pR X E t n = pK X E t n := by
  obtain ⟨m, hm⟩ := rowMax_coe (lkReal x e t)
  have h : lgK X E t = fun n => (lkReal x e t n : EReal) := funext (lgK_coe hx he t)
  have hh : ((lkReal x e t n - xsReal x t : ℝ) : EReal) - ((m : EReal) - (xsReal x t : EReal))
      = (lkReal x e t n : EReal) - (m : EReal) := by
    rw [← EReal.coe_sub, ← EReal.coe_sub, ← EReal.coe_sub, sub_sub_sub_cancel_right]
  rw [pR, pK, rowMax_lgR hx he, lgR_coe hx he, lgK_coe hx he, h, hm, hh]

/-- The row sums agree. -/
theorem sR_eq_sK (hx : ∀ t d, X t d = (x t d : EReal)) (he : ∀ n d, E n d = (e n d : EReal)) (t : Tok) :
    sR X E t = sK X E t :=
  Finset.sum_congr rfl fun n _ => pR_eq_pK hx he t n

/-- The row sum is a positive real. -/
theorem sK_coe (hx : ∀ t d, X t d = (x t d : EReal)) (he : ∀ n d, E n d = (e n d : EReal)) (t : Tok) :
    ∃ s : ℝ, 0 < s ∧ sK X E t = (s : EReal) := by
  obtain ⟨m, hm⟩ := pK_coe hx he t
  refine ⟨∑ n, Real.exp (lkReal x e t n - m), Finset.sum_pos (fun n _ => Real.exp_pos _) Finset.univ_nonempty, ?_⟩
  rw [sK, coe_sum]
  exact Finset.sum_congr rfl fun n _ => hm n

theorem encK_eq_encR_of_coe (hx : ∀ t d, X t d = (x t d : EReal)) (he : ∀ n d, E n d = (e n d : EReal)) :
    encK X E = encR X E := by
  funext t n
  obtain ⟨s, hs, hsK⟩ := sK_coe hx he t
  rw [encK, encR, pR_eq_pK hx he, sR_eq_sK hx he, hsK, w_one, mul_div_one_coe _ hs.ne']

theorem encR_pos_of_coe (hx : ∀ t d, X t d = (x t d : EReal)) (he : ∀ n d, E n d = (e n d : EReal)) (t : Tok) (n : Code) :
    ∃ r : ℝ, 0 < r ∧ encR X E t n = (r : EReal) := by
  obtain ⟨s, hs, hsK⟩ := sK_coe hx he t
  obtain ⟨m, hm⟩ := pK_coe hx he t
  refine ⟨Real.exp (lkReal x e t n - m) / s, div_pos (Real.exp_pos _) hs, ?_⟩
  rw [encR, pR_eq_pK hx he, sR_eq_sK hx he, hsK, hm, div_coe_coe _ hs.ne']

end

section
variable {X : Tok → Feat → EReal} {E : Code → Feat → EReal}

/-- The two arrangements form the same softmax weights, every input being a real. -/
theorem encK_eq_encR (hX : ∀ t d, ∃ r : ℝ, X t d = (r : EReal)) (hE : ∀ n d, ∃ r : ℝ, E n d = (r : EReal)) :
    encK X E = encR X E := by
  choose x hx using hX
  choose e he using hE
  exact encK_eq_encR_of_coe hx he

/-- Each weight is a positive real. -/
theorem encR_pos (hX : ∀ t d, ∃ r : ℝ, X t d = (r : EReal)) (hE : ∀ n d, ∃ r : ℝ, E n d = (r : EReal))
    (t : Tok) (n : Code) : ∃ r : ℝ, 0 < r ∧ encR X E t n = (r : EReal) := by
  choose x hx using hX
  choose e he using hE
  exact encR_pos_of_coe hx he t n

theorem encK_pos (hX : ∀ t d, ∃ r : ℝ, X t d = (r : EReal)) (hE : ∀ n d, ∃ r : ℝ, E n d = (r : EReal))
    (t : Tok) (n : Code) : ∃ r : ℝ, 0 < r ∧ encK X E t n = (r : EReal) := by
  rw [encK_eq_encR hX hE]
  exact encR_pos hX hE t n

end

end Cert.VQ

end
-- ==== Proof.Laws3.lean ====
/-
  The regulariser, the loss and the perplexity of the two arrangements agree.

  With positive real weights the column sums, the moving averages, their total and the smoothed
  cluster sizes are positive reals; so the quotient of a sum of squares by `c·c` is the sum of the
  squares of the quotients by `c`, an identity of real numbers. The loss and the perplexity then
  differ only in how a negation is written.
-/
import Mathlib
import Idealize.ShloMosaic.PureOps.Ideal
import proofs.«125548_g45775761441265_cont_8to1_c_906_26_alg».proof.Proof.Spec
import proofs.«125548_g45775761441265_cont_8to1_c_906_26_alg».proof.Proof.Laws1
import proofs.«125548_g45775761441265_cont_8to1_c_906_26_alg».proof.Proof.Laws2

noncomputable section

namespace Cert.VQ

open Idealize.ShloMosaic

/-- A sum of squares of reals divided by `c·c` is the sum of the squares of the quotients by `c`. -/
theorem div_sq_sum {ι : Type*} (s : Finset ι) (v : ι → ℝ) {c : ℝ} (hc : c ≠ 0) :
    Ideal.div (∑ d ∈ s, (v d : EReal) * (v d : EReal)) ((c : EReal) * (c : EReal))
      = ∑ d ∈ s, Ideal.div (v d : EReal) (c : EReal) * Ideal.div (v d : EReal) (c : EReal) := by
  have h1 : (∑ d ∈ s, (v d : EReal) * (v d : EReal)) = ((∑ d ∈ s, v d * v d : ℝ) : EReal) := by
    rw [coe_sum]
    exact Finset.sum_congr rfl fun d _ => (EReal.coe_mul _ _).symm
  have h2 : ∀ d, Ideal.div (v d : EReal) (c : EReal) * Ideal.div (v d : EReal) (c : EReal)
      = ((v d / c * (v d / c) : ℝ) : EReal) := fun d => by
    rw [div_coe_coe _ hc, ← EReal.coe_mul]
  rw [h1, ← EReal.coe_mul, div_coe_coe _ (mul_ne_zero hc hc)]
  simp only [h2]
  rw [← coe_sum, Finset.sum_div]
  exact congrArg _ (Finset.sum_congr rfl fun d _ => mul_div_mul_comm _ _ _ _)

section
variable {X : Tok → Feat → EReal} {enc : Tok → Code → EReal} {x : Tok → Feat → ℝ} {a : Tok → Code → ℝ}

/-- The column sums of real weights are real. -/
theorem colsum_coe (ha : ∀ t n, enc t n = (a t n : EReal)) (n : Code) :
    colsum enc n = ((∑ t, a t n : ℝ) : EReal) := by
  rw [colsum, coe_sum]
  exact Finset.sum_congr rfl fun t _ => ha t n

/-- With positive real weights every smoothed cluster size is a positive real. -/
theorem csz_pos_of_coe (ha : ∀ t n, enc t n = (a t n : EReal)) (hpos : ∀ t n, 0 < a t n) (n : Code) :
    ∃ c : ℝ, 0 < c ∧ csz enc n = (c : EReal) := by
  obtain ⟨c1, hc1, hw1⟩ := w_decay_pos
  obtain ⟨ε, hε, hwε⟩ := w_eps_pos
  obtain ⟨η, hη, hwη⟩ := w_neps_pos
  have hcs : ∀ n, 0 < ∑ t, a t n := fun n => Finset.sum_pos (fun t _ => hpos t n) Finset.univ_nonempty
  have hema : ∀ n, ema enc n = ((c1 * ∑ t, a t n : ℝ) : EReal) := fun n => by
    rw [ema, hw1, colsum_coe ha, EReal.coe_mul]
  have hemapos : ∀ n, 0 < c1 * ∑ t, a t n := fun n => mul_pos hc1 (hcs n)
  have htot : emaTot enc = ((∑ n, c1 * ∑ t, a t n : ℝ) : EReal) := by
    rw [emaTot, coe_sum]
    exact Finset.sum_congr rfl fun n _ => hema n
  have htotpos : 0 < ∑ n, c1 * ∑ t, a t n :=
    Finset.sum_pos (fun n _ => hemapos n) Finset.univ_nonempty
  have hden : 0 < (∑ n, c1 * ∑ t, a t n) + η := add_pos htotpos hη
  refine ⟨(c1 * ∑ t, a t n + ε) / ((∑ n, c1 * ∑ t, a t n) + η) * ∑ n, c1 * ∑ t, a t n,
    mul_pos (div_pos (add_pos (hemapos n) hε) hden) htotpos, ?_⟩
  rw [csz, hema, htot, hwε, hwη, ← EReal.coe_add, ← EReal.coe_add, div_coe_coe _ hden.ne', ← EReal.coe_mul]

/-- With real tokens and positive real weights the two groupings of the regulariser agree. -/
theorem regK_eq_regR_of_coe (hx : ∀ t d, X t d = (x t d : EReal)) (ha : ∀ t n, enc t n = (a t n : EReal))
    (hpos : ∀ t n, 0 < a t n) : regK X enc = regR X enc := by
  obtain ⟨c1, hc1, hw1⟩ := w_decay_pos
  unfold regK regR
  refine Finset.sum_congr rfl fun n _ => ?_
  obtain ⟨c, hc, hcsz⟩ := csz_pos_of_coe ha hpos n
  have hv : ∀ d, w 0x3C23D70A#32 * ∑ t, enc t n * X t d = ((c1 * ∑ t, a t n * x t d : ℝ) : EReal) := fun d => by
    rw [hw1, EReal.coe_mul, coe_sum]
    exact congrArg ((c1 : EReal) * ·) (Finset.sum_congr rfl fun t _ => by rw [ha, hx, EReal.coe_mul])
  have hu : ∀ d, w 0x3C23D70A#32 * ∑ t, X t d * enc t n = ((c1 * ∑ t, a t n * x t d : ℝ) : EReal) := fun d => by
    rw [← hv d]
    exact congrArg (w 0x3C23D70A#32 * ·) (Finset.sum_congr rfl fun t _ => mul_comm _ _)
  simp only [hu, hv, hcsz]
  exact div_sq_sum Finset.univ _ hc.ne'

end

section
variable {X : Tok → Feat → EReal} {E : Code → Feat → EReal}

/-- The two groupings of the regulariser agree for any weights that are positive reals. -/
theorem regK_eq_regR_of_pos {enc : Tok → Code → EReal} (hX : ∀ t d, ∃ r : ℝ, X t d = (r : EReal))
    (henc : ∀ t n, ∃ r : ℝ, 0 < r ∧ enc t n = (r : EReal)) : regK X enc = regR X enc := by
  choose x hx using hX
  choose a hpos ha using henc
  exact regK_eq_regR_of_coe hx ha hpos

/-- With positive real weights every smoothed cluster size is a positive real. -/
theorem csz_pos {enc : Tok → Code → EReal} (henc : ∀ t n, ∃ r : ℝ, 0 < r ∧ enc t n = (r : EReal)) (n : Code) :
    ∃ c : ℝ, 0 < c ∧ csz enc n = (c : EReal) := by
  choose a hpos ha using henc
  exact csz_pos_of_coe ha hpos n

/-- The two groupings of the regulariser agree at the softmax weights. -/
theorem regK_eq_regR (hX : ∀ t d, ∃ r : ℝ, X t d = (r : EReal)) (hE : ∀ n d, ∃ r : ℝ, E n d = (r : EReal)) :
    regK X (encR X E) = regR X (encR X E) :=
  regK_eq_regR_of_pos hX (encR_pos hX hE)

/-- The two arrangements' losses agree. -/
theorem lossK_eq_lossR (hX : ∀ t d, ∃ r : ℝ, X t d = (r : EReal)) (hE : ∀ n d, ∃ r : ℝ, E n d = (r : EReal)) :
    lossK X E (encK X E) = lossR X E (encR X E) := by
  rw [encK_eq_encR hX hE, lossK, lossR, regK_eq_regR hX hE, zero_sub, zero_sub]

/-- The two arrangements' perplexities agree. -/
theorem perpK_eq_perpR (hX : ∀ t d, ∃ r : ℝ, X t d = (r : EReal)) (hE : ∀ n d, ∃ r : ℝ, E n d = (r : EReal)) :
    perpK (encK X E) = perpR (encR X E) := by
  rw [encK_eq_encR hX hE, perpK, perpR, zero_sub]

/-- The two arrangements' outputs agree. -/
theorem outv_eq (hX : ∀ t d, ∃ r : ℝ, X t d = (r : EReal)) (hE : ∀ n d, ∃ r : ℝ, E n d = (r : EReal)) :
    outv X E (encK X E) = outv X E (encR X E) :=
  congrArg (outv X E) (encK_eq_encR hX hE)

end

end Cert.VQ

end
-- ==== Proof.Laws.lean ====
/-
  The laws that join the two arrangements of the soft vector quantizer, collected.
-/
import proofs.«125548_g45775761441265_cont_8to1_c_906_26_alg».proof.Proof.Laws1
import proofs.«125548_g45775761441265_cont_8to1_c_906_26_alg».proof.Proof.Laws2
import proofs.«125548_g45775761441265_cont_8to1_c_906_26_alg».proof.Proof.Laws3
-- ==== Proof.Finite.lean ====
/-
  The precondition read back: both argument arrays hold real numbers.

  The printed predicate is `all(|x| < +∞) ∧ all(|e| < +∞)` over the two arrays. Its value `1` splits
  at the `and`; each `all` (a reduction by `and` into one index) gives the comparison at every index;
  the pattern `0x7F800000` is `⊤`, and `max x (−x) < ⊤` fails at `⊥` and at `⊤`, so `x` is a real.
-/
import Mathlib
import Idealize.ShloMosaic.PureOps.Ideal
import Idealize.ShloMosaic.Lib.ValueIdx
import Idealize.ShloMosaic.Lib.ReduceAll
import proofs.«125548_g45775761441265_cont_8to1_c_906_26_alg».proof.Pre_finite_inputs
import proofs.«125548_g45775761441265_cont_8to1_c_906_26_alg».proof.Proof.Spec

noncomputable section

namespace Cert.VQ.Pre

open Idealize.ShloMosaic Cert.Pre_finite_inputs

/-- The scalar shape has one index. -/
instance : Subsingleton S_.Idx := ⟨fun a b => funext fun d => d.elim0⟩

/-- The f32 pattern `0x7F800000` is `+∞`. -/
theorem ofBits_inf : Ideal.ofBits .f32 0x7F800000#32 = (⊤ : EReal) := by
  simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- Under the precondition every entry of both argument arrays is a real. -/
theorem reals_of_pre [Cert.Pre_finite_inputs.Facts] (a0 : FVec Ideal S8x1024x256 .f32)
    (a1 : FVec Ideal S8192x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hA, hB⟩ := IntOp.andi_eq_one.1 h0
  exact ⟨fun i => real_of_abs_lt_inf (a0 i) (Host.reduce_andi_all _ _ _ _ _ hA i),
    fun i => real_of_abs_lt_inf (a1 i) (Host.reduce_andi_all _ _ _ _ _ hB i)⟩

/-- In the specification's terms: the token matrix read off the first array is real. -/
theorem tokens_real [Cert.Pre_finite_inputs.Facts] (a0 : FVec Ideal S8x1024x256 .f32)
    (a1 : FVec Ideal S8192x256 .f32)
    (h : Cert.Pre_finite_inputs.fn (F := Ideal) a0 a1 = fun _ => 1#1) :
    ∀ (t : Tok) (d : Feat), ∃ r : ℝ, a0 (ValueIdx.ix3 (batchOf t) (rowOf t) d) = (r : EReal) :=
  fun t d => (reals_of_pre a0 a1 h).1 (ValueIdx.ix3 (batchOf t) (rowOf t) d)

/-- In the specification's terms: the codebook read off the second array is real. -/
theorem codes_real [Cert.Pre_finite_inputs.Facts] (a0 : FVec Ideal S8x1024x256 .f32)
    (a1 : FVec Ideal S8192x256 .f32)
    (h : Cert.Pre_finite_inputs.fn (F := Ideal) a0 a1 = fun _ => 1#1) :
    ∀ (n : Code) (d : Feat), ∃ r : ℝ, a1 (ValueIdx.ix2 n d) = (r : EReal) :=
  fun n d => (reals_of_pre a0 a1 h).2 (ValueIdx.ix2 n d)

end Cert.VQ.Pre

end
-- ==== Proof.RefArrays.lean ====
/-
  The reference program's two input arrays read as the token matrix and the codebook.

  The first argument has shape [8, 1024, 256]: batch, row within the batch, feature. Numbering the tokens row-major
  (token 1024·b + r is row r of batch b) makes it the 8192 × 256 token matrix X. The second argument, of shape
  [8192, 256], is the codebook E as it stands. Both are functions of the valuation of the program's buffers.
-/
import proofs.«125548_g45775761441265_cont_8to1_c_906_26_alg».proof.Proof.Spec
import proofs.«125548_g45775761441265_cont_8to1_c_906_26_alg».proof.Proof.Gen.ReferenceIdeal.Run
import Idealize.ShloMosaic.Lib.ValueIdx

noncomputable section

namespace Cert.VQ.Ref

open Idealize.ShloMosaic Idealize.ShloMosaic.ValueIdx Idealize.SL.Sem Cert.ReferenceIdeal

/-- The token matrix held by the first argument: entry (t, d) is the argument at (batch of t, row of t, d). -/
def Xof (V0 : Valuation τ sig (Elt Ideal)) : Tok → Feat → EReal :=
  fun t d => (V0 (Proc.devRef .tc main_arg0) : S8x1024x256.Idx → EReal) (ix3 (batchOf t) (rowOf t) d)

/-- The codebook held by the second argument: entry (n, d) is the argument at (n, d). -/
def Eof (V0 : Valuation τ sig (Elt Ideal)) : Code → Feat → EReal :=
  fun n d => (V0 (Proc.devRef .tc main_arg1) : S8192x256.Idx → EReal) (ix2 n d)

end Cert.VQ.Ref

end
-- ==== Proof.RefWeights.lean ====
/-
  The reference program's softmax weights, quantized tokens and straight-through output, read entry by entry.

  The reference forms, for the 8192 × 256 token matrix X and the 8192 × 256 codebook E,
    the logits        −((‖x_t‖² + ‖e_n‖²) − 2·(x_t·e_n)) / 1,
    the weights       exp(logit − row maximum) divided by their row sum,
    the quantized row Σ_n weight(t, n) · e_n,
    the output        x + (quantized − x),
  out of whole-array operations: row sums kept as a column or a row and broadcast back to 8192 × 8192, a transpose, two
  matrix products with one contracted axis, a row maximum taken from −∞, and two reshapes between [8, 1024, 256] and
  [8192, 256]. Each whole-array operation read at one entry is the corresponding scalar operation on entries; a sum that
  starts from the float word of 0 is the plain sum, and a maximum with −∞ is the other operand.
-/
import proofs.«125548_g45775761441265_cont_8to1_c_906_26_alg».proof.Proof.Spec
import proofs.«125548_g45775761441265_cont_8to1_c_906_26_alg».proof.Proof.RefArrays
import proofs.«125548_g45775761441265_cont_8to1_c_906_26_alg».proof.Proof.Gen.ReferenceIdeal.Run
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.VQ.Ref

open Idealize.ShloMosaic Idealize.ShloMosaic.ValueIdx Idealize.SL.Sem Cert.ReferenceIdeal Cert.ReferenceIdeal.Gen
open Cert.ReferenceIdeal.Value (res_main_v0 res_main_v17 res_main_v24 res_main_v28 res_main_v30)

/-! ## Whole-array operations of the program's shapes read at an entry -/

section Layout
variable {α : Type}

/-- A vector of 8192 row values kept as a column and repeated along the rows: entry (t, n) is the value of row t. -/
theorem col_bcast_apply (v : S8192.Idx → α) (t n : Fin 8192) :
    broadcastInDim S8192x8192 ![0, 1] bcast_S8192x1_S8192x8192_0_1
        (broadcastInDim S8192x1 ![0] bcast_S8192_S8192x1_0 v) (ix2 t n) = v (ix1 t) :=
  (broadcastInDim_apply ![0, 1] bcast_S8192x1_S8192x8192_0_1 _ (ix2 t n) (ix2 t (0 : Fin 1)) (fun a => by
      match a with
      | ⟨0, _⟩ => show t.val = if (8192 : ℕ) = 1 then 0 else t.val; rw [if_neg (by decide)]
      | ⟨1, _⟩ => show (0 : ℕ) = if (1 : ℕ) = 1 then 0 else n.val; rw [if_pos rfl])).trans
    (broadcastInDim_apply ![0] bcast_S8192_S8192x1_0 v (ix2 t (0 : Fin 1)) (ix1 t) (fun a => by
      match a with
      | ⟨0, _⟩ => show t.val = if (8192 : ℕ) = 1 then 0 else t.val; rw [if_neg (by decide)]))

/-- A vector of 8192 column values kept as a row and repeated down the columns: entry (t, n) is the value of column n. -/
theorem row_bcast_apply (v : S8192.Idx → α) (t n : Fin 8192) :
    broadcastInDim S8192x8192 ![0, 1] bcast_S1x8192_S8192x8192_0_1
        (broadcastInDim S1x8192 ![1] bcast_S8192_S1x8192_1 v) (ix2 t n) = v (ix1 n) :=
  (broadcastInDim_apply ![0, 1] bcast_S1x8192_S8192x8192_0_1 _ (ix2 t n) (ix2 (0 : Fin 1) n) (fun a => by
      match a with
      | ⟨0, _⟩ => show (0 : ℕ) = if (1 : ℕ) = 1 then 0 else t.val; rw [if_pos rfl]
      | ⟨1, _⟩ => show n.val = if (8192 : ℕ) = 1 then 0 else n.val; rw [if_neg (by decide)])).trans
    (broadcastInDim_apply ![1] bcast_S8192_S1x8192_1 v (ix2 (0 : Fin 1) n) (ix1 n) (fun a => by
      match a with
      | ⟨0, _⟩ => show n.val = if (8192 : ℕ) = 1 then 0 else n.val; rw [if_neg (by decide)]))

/-- The codebook transposed: entry (d, n) of the transpose is entry (n, d). -/
theorem transpose_code_apply (x : S8192x256.Idx → α) (d : Fin 256) (n : Fin 8192) :
    transpose S256x8192 [1, 0] x transposes_S8192x256_S256x8192_1_0 (ix2 d n) = x (ix2 n d) :=
  transpose_apply [1, 0] x transposes_S8192x256_S256x8192_1_0 (ix2 d n) (ix2 n d) (fun b =>
    match b with
    | ⟨0, _⟩ => rfl
    | ⟨1, _⟩ => rfl)

/-- The [8, 1024, 256] array read as [8192, 256], row-major: row t is row (t mod 1024) of batch (t div 1024). -/
theorem reshape_tokens_apply (x : S8x1024x256.Idx → α) (t : Tok) (d : Feat) :
    shapeCast S8192x256 x shapeCasts_S8x1024x256_S8192x256 (ix2 t d) = x (ix3 (batchOf t) (rowOf t) d) :=
  shapeCast_apply x shapeCasts_S8x1024x256_S8192x256 (ix2 t d) (ix3 (batchOf t) (rowOf t) d) (by
    rewrite [Shape.rowMajor_val_three, Shape.rowMajor_val_two]
    show (t.val / 1024 * 1024 + t.val % 1024) * 256 + d.val = t.val * 256 + d.val
    omega)

/-- The [8192, 256] array read as [8, 1024, 256], row-major: row r of batch b is row 1024·b + r. -/
theorem reshape_batches_apply (x : S8192x256.Idx → α) (b : Fin 8) (r : Fin 1024) (d : Feat) :
    shapeCast S8x1024x256 x shapeCasts_S8192x256_S8x1024x256 (ix3 b r d) = x (ix2 (tokOf b r) d) :=
  shapeCast_apply x shapeCasts_S8192x256_S8x1024x256 (ix3 b r d) (ix2 (tokOf b r) d) (by
    rewrite [Shape.rowMajor_val_two, Shape.rowMajor_val_three]
    show (1024 * b.val + r.val) * 256 + d.val = (b.val * 1024 + r.val) * 256 + d.val
    omega)

end Layout

/-! ## Host operations on single entries -/

/-- The host's negation of an array, at an entry, is the negation of the entry. -/
theorem hostNegf_apply {s : Shape} {φ : FTy} (a : FVec Ideal s φ) (i : s.Idx) : Host.negf a i = -(a i) := rfl

/-- The host's exponential of an array, at an entry, is the exponential of the entry. -/
theorem hostExp_apply {s : Shape} {φ : FTy} (a : FVec Ideal s φ) (i : s.Idx) : Host.exp a i = Ideal.exp (a i) := rfl

/-- The float word of −∞ is the bottom of the extended reals. -/
theorem ofBits_negInf : Ideal.ofBits .f32 0xFF800000#32 = ⊥ := by simp [Ideal.ofBits, Ideal.ieee]

/-! ## Row sums and the row maximum -/

/-- The sum along each row of an 8192 × 256 array, started from the float word of 0: entry t is the plain sum of row t. -/
theorem rowsum256_apply (x : FVec Ideal S8192x256 .f32) (t : Fin 8192) :
    Host.reduceAdd x (constant (F := Ideal) S_ .f32 0x00000000#32) reducesTo_S8192x256_S8192_d1 h_S_ (ix1 t)
      = ∑ d : Fin 256, x (ix2 t d) := by
  rw [hostReduceAdd_apply, Ideal.hostReduceAdd_single reducesTo_S8192x256_S8192_d1 (by decide) x _ (ix1 t),
    constant_apply, Ideal.ofBits_zero_f32, zero_add]
  exact Finset.sum_congr rfl fun k _ => congrArg x (funext fun a => Fin.ext (by
    match a with
    | ⟨0, _⟩ => rfl
    | ⟨1, _⟩ => rfl))

/-- The sum along each row of an 8192 × 8192 array, started from the float word of 0: entry t is the plain sum of row t. -/
theorem rowsum8192_apply (x : FVec Ideal S8192x8192 .f32) (t : Fin 8192) :
    Host.reduceAdd x (constant (F := Ideal) S_ .f32 0x00000000#32) reducesTo_S8192x8192_S8192_d1 h_S_ (ix1 t)
      = ∑ n : Fin 8192, x (ix2 t n) := by
  rw [hostReduceAdd_apply, Ideal.hostReduceAdd_single reducesTo_S8192x8192_S8192_d1 (by decide) x _ (ix1 t),
    constant_apply, Ideal.ofBits_zero_f32, zero_add]
  exact Finset.sum_congr rfl fun k _ => congrArg x (funext fun a => Fin.ext (by
    match a with
    | ⟨0, _⟩ => rfl
    | ⟨1, _⟩ => rfl))

/-- The maximum along each row of an 8192 × 8192 array, started from the float word of −∞: entry t is the largest entry of
    row t (the fold of the maximum from the bottom element over the row). -/
theorem rowmax_apply (x : FVec Ideal S8192x8192 .f32) (t : Fin 8192) :
    Host.reduce FloatOps.maximumf x (constant (F := Ideal) S_ .f32 0xFF800000#32) reducesTo_S8192x8192_S8192_d1 h_S_ (ix1 t)
      = rowMax fun n => x (ix2 t n) := by
  have h : S8192x8192.Reduces [1] S8192 := by decide
  rw [Host.reduce_eq_fold_single FloatOps.maximumf x _ reducesTo_S8192x8192_S8192_d1 h h_S_ (ix1 t), constant_apply,
    ofBits_negInf]
  have e : x ∘ h.lift (ix1 t) = fun n : Fin 8192 => x (ix2 t n) := funext fun n => congrArg x (funext fun a => Fin.ext (by
    match a with
    | ⟨0, _⟩ => rfl
    | ⟨1, _⟩ => rfl))
  rw [e]
  rfl

/-! ## The two matrix products

Each contracts ONE axis: the product of the token matrix with the transposed codebook contracts the 256 features, the
product of the weights with the codebook contracts the 8192 codes. At an entry the product is the sum over the contracted
coordinate of the products of the two operands' entries; the operand indices are read off the dimension numbers axis by
axis. -/

theorem dotXE_lhs0 (i : S8192x8192.Idx) (q : dot_S8192x256_S256x8192_S8192x8192_1_0_0_1_n_n.contr.Idx) :
    (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch by decide),
    dif_pos (show (0 : Fin S8192x256.rank) ∈ dot_S8192x256_S256x8192_S8192x8192_1_0_0_1_n_n.lhsNonContracting by decide)]
  rfl
theorem dotXE_lhs1 (i : S8192x8192.Idx) (q : dot_S8192x256_S256x8192_S8192x8192_1_0_0_1_n_n.contr.Idx) :
    (dot_S8192x256_S256x8192_S8192x8192_1_0_0_1_n_n.lhsIdx i q 1).val = (q ⟨0, by decide⟩).val :=
  dot_S8192x256_S256x8192_S8192x8192_1_0_0_1_n_n.lhsIdx_val_of_single rfl i q
theorem dotXE_rhs0 (i : S8192x8192.Idx) (q : dot_S8192x256_S256x8192_S8192x8192_1_0_0_1_n_n.contr.Idx) :
    (dot_S8192x256_S256x8192_S8192x8192_1_0_0_1_n_n.rhsIdx i q 0).val = (q ⟨0, by decide⟩).val :=
  dot_S8192x256_S256x8192_S8192x8192_1_0_0_1_n_n.rhsIdx_val_of_single rfl i q
theorem dotXE_rhs1 (i : S8192x8192.Idx) (q : dot_S8192x256_S256x8192_S8192x8192_1_0_0_1_n_n.contr.Idx) :
    (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch by decide),
    dif_pos (show (1 : Fin S256x8192.rank) ∈ dot_S8192x256_S256x8192_S8192x8192_1_0_0_1_n_n.rhsNonContracting by decide)]
  rfl

/-- The 8192 × 256 by 256 × 8192 product at (t, n): the sum over the 256 features. -/
theorem dotXE_apply (l : FVec Ideal S8192x256 .f32) (r : FVec Ideal S256x8192 .f32) (t n : Fin 8192) :
    Host.dotGeneral dot_S8192x256_S256x8192_S8192x8192_1_0_0_1_n_n none l r (ix2 t n) = ∑ d : Fin 256, l (ix2 t d) * r (ix2 d n) := by
  simp only [Host.dotGeneral]
  rw [Ideal.dotGeneral_apply, ← Equiv.sum_comp (contrEquiv1 dot_S8192x256_S256x8192_S8192x8192_1_0_0_1_n_n 256 rfl rfl).symm]
  refine Finset.sum_congr rfl fun k _ => ?_
  have hk := contrEquiv1_symm_val dot_S8192x256_S256x8192_S8192x8192_1_0_0_1_n_n 256 rfl rfl k
  have el : dot_S8192x256_S256x8192_S8192x8192_1_0_0_1_n_n.lhsIdx (ix2 t n) ((contrEquiv1 dot_S8192x256_S256x8192_S8192x8192_1_0_0_1_n_n 256 rfl rfl).symm k) = ix2 t k :=
    funext fun a => Fin.ext (by
      match a with
      | ⟨0, _⟩ => exact dotXE_lhs0 _ _
      | ⟨1, _⟩ => exact (dotXE_lhs1 _ _).trans hk)
  have er : dot_S8192x256_S256x8192_S8192x8192_1_0_0_1_n_n.rhsIdx (ix2 t n) ((contrEquiv1 dot_S8192x256_S256x8192_S8192x8192_1_0_0_1_n_n 256 rfl rfl).symm k) = ix2 k n :=
    funext fun a => Fin.ext (by
      match a with
      | ⟨0, _⟩ => exact (dotXE_rhs0 _ _).trans hk
      | ⟨1, _⟩ => exact dotXE_rhs1 _ _)
  rw [el, er]

theorem dotWE_lhs0 (i : S8192x256.Idx) (q : dot_S8192x8192_S8192x256_S8192x256_1_0_0_1_n_n.contr.Idx) :
    (dot_S8192x8192_S8192x256_S8192x256_1_0_0_1_n_n.lhsIdx i q 0).val = (i 0).val := by
  unfold DotDims.lhsIdx
  rw [dif_neg (show ¬(0 : Fin S8192x8192.rank) ∈ dot_S8192x8192_S8192x256_S8192x256_1_0_0_1_n_n.lhsBatch by decide),
    dif_pos (show (0 : Fin S8192x8192.rank) ∈ dot_S8192x8192_S8192x256_S8192x256_1_0_0_1_n_n.lhsNonContracting by decide)]
  rfl
theorem dotWE_lhs1 (i : S8192x256.Idx) (q : dot_S8192x8192_S8192x256_S8192x256_1_0_0_1_n_n.contr.Idx) :
    (dot_S8192x8192_S8192x256_S8192x256_1_0_0_1_n_n.lhsIdx i q 1).val = (q ⟨0, by decide⟩).val :=
  dot_S8192x8192_S8192x256_S8192x256_1_0_0_1_n_n.lhsIdx_val_of_single rfl i q
theorem dotWE_rhs0 (i : S8192x256.Idx) (q : dot_S8192x8192_S8192x256_S8192x256_1_0_0_1_n_n.contr.Idx) :
    (dot_S8192x8192_S8192x256_S8192x256_1_0_0_1_n_n.rhsIdx i q 0).val = (q ⟨0, by decide⟩).val :=
  dot_S8192x8192_S8192x256_S8192x256_1_0_0_1_n_n.rhsIdx_val_of_single rfl i q
theorem dotWE_rhs1 (i : S8192x256.Idx) (q : dot_S8192x8192_S8192x256_S8192x256_1_0_0_1_n_n.contr.Idx) :
    (dot_S8192x8192_S8192x256_S8192x256_1_0_0_1_n_n.rhsIdx i q 1).val = (i 1).val := by
  unfold DotDims.rhsIdx
  rw [dif_neg (show ¬(1 : Fin S8192x256.rank) ∈ dot_S8192x8192_S8192x256_S8192x256_1_0_0_1_n_n.rhsBatch by decide),
    dif_pos (show (1 : Fin S8192x256.rank) ∈ dot_S8192x8192_S8192x256_S8192x256_1_0_0_1_n_n.rhsNonContracting by decide)]
  rfl

/-- The 8192 × 8192 by 8192 × 256 product at (t, d): the sum over the 8192 codes. -/
theorem dotWE_apply (l : FVec Ideal S8192x8192 .f32) (r : FVec Ideal S8192x256 .f32) (t : Fin 8192) (d : Fin 256) :
    Host.dotGeneral dot_S8192x8192_S8192x256_S8192x256_1_0_0_1_n_n none l r (ix2 t d) = ∑ n : Fin 8192, l (ix2 t n) * r (ix2 n d) := by
  simp only [Host.dotGeneral]
  rw [Ideal.dotGeneral_apply, ← Equiv.sum_comp (contrEquiv1 dot_S8192x8192_S8192x256_S8192x256_1_0_0_1_n_n 8192 rfl rfl).symm]
  refine Finset.sum_congr rfl fun k _ => ?_
  have hk := contrEquiv1_symm_val dot_S8192x8192_S8192x256_S8192x256_1_0_0_1_n_n 8192 rfl rfl k
  have el : dot_S8192x8192_S8192x256_S8192x256_1_0_0_1_n_n.lhsIdx (ix2 t d) ((contrEquiv1 dot_S8192x8192_S8192x256_S8192x256_1_0_0_1_n_n 8192 rfl rfl).symm k) = ix2 t k :=
    funext fun a => Fin.ext (by
      match a with
      | ⟨0, _⟩ => exact dotWE_lhs0 _ _
      | ⟨1, _⟩ => exact (dotWE_lhs1 _ _).trans hk)
  have er : dot_S8192x8192_S8192x256_S8192x256_1_0_0_1_n_n.rhsIdx (ix2 t d) ((contrEquiv1 dot_S8192x8192_S8192x256_S8192x256_1_0_0_1_n_n 8192 rfl rfl).symm k) = ix2 k d :=
    funext fun a => Fin.ext (by
      match a with
      | ⟨0, _⟩ => exact (dotWE_rhs0 _ _).trans hk
      | ⟨1, _⟩ => exact dotWE_rhs1 _ _)
  rw [el, er]

/-- The product of an 8192 × 256 array with the TRANSPOSE of another at (t, n): the sum over the 256 features of the
    products of row t of the first and row n of the second. -/
theorem dotXEt_apply (l e : FVec Ideal S8192x256 .f32) (t n : Fin 8192) :
    Host.dotGeneral dot_S8192x256_S256x8192_S8192x8192_1_0_0_1_n_n none l
        (transpose S256x8192 [1, 0] e transposes_S8192x256_S256x8192_1_0) (ix2 t n)
      = ∑ d : Fin 256, l (ix2 t d) * e (ix2 n d) := by
  rw [dotXE_apply]
  exact Finset.sum_congr rfl fun d _ => by rw [transpose_code_apply]

/-! ## The program's stages over arbitrary arrays -/

/-- The logits stage: from a token matrix `x` and a codebook `e`, entry (t, n) of
    −((row sums of x² as a column + row sums of e² as a row) − 2 · x eᵀ) / 1. -/
theorem logits_apply (x e : FVec Ideal S8192x256 .f32) (t n : Fin 8192) :
    Host.divf (Host.negf (subf (addf
          (broadcastInDim S8192x8192 ![0, 1] bcast_S8192x1_S8192x8192_0_1 (broadcastInDim S8192x1 ![0] bcast_S8192_S8192x1_0
            (Host.reduceAdd (mulf x x) (constant (F := Ideal) S_ .f32 0x00000000#32) reducesTo_S8192x256_S8192_d1 h_S_)))
          (broadcastInDim S8192x8192 ![0, 1] bcast_S1x8192_S8192x8192_0_1 (broadcastInDim S1x8192 ![1] bcast_S8192_S1x8192_1
            (Host.reduceAdd (mulf e e) (constant (F := Ideal) S_ .f32 0x00000000#32) reducesTo_S8192x256_S8192_d1 h_S_))))
        (mulf (broadcastInDim S8192x8192 ![] bcast_S_S8192x8192 (constant (F := Ideal) S_ .f32 0x40000000#32))
          (Host.dotGeneral dot_S8192x256_S256x8192_S8192x8192_1_0_0_1_n_n none x
            (transpose S256x8192 [1, 0] e transposes_S8192x256_S256x8192_1_0)))))
      (broadcastInDim S8192x8192 ![] bcast_S_S8192x8192 (constant (F := Ideal) S_ .f32 0x3F800000#32)) (ix2 t n)
    = Ideal.div (-((∑ d : Fin 256, x (ix2 t d) * x (ix2 t d) + ∑ d : Fin 256, e (ix2 n d) * e (ix2 n d))
        - w 0x40000000#32 * ∑ d : Fin 256, x (ix2 t d) * e (ix2 n d))) (w 0x3F800000#32) := by
  rw [hostDivf_apply, hostNegf_apply, subf_apply, addf_apply, mulf_apply, col_bcast_apply, row_bcast_apply,
    rowsum256_apply, rowsum256_apply, broadcastInDim_scalar_apply, broadcastInDim_scalar_apply, constant_apply,
    constant_apply, dotXEt_apply]
  simp only [mulf_apply]

/-- The unnormalised weights stage: from logits `lg`, entry (t, n) of exp(lg − row maximum), the row maximum taken from −∞
    and once more compared with −∞. -/
theorem expshift_apply (lg : FVec Ideal S8192x8192 .f32) (t n : Fin 8192) :
    Host.exp (subf lg (broadcastInDim S8192x8192 ![0, 1] bcast_S8192x1_S8192x8192_0_1
        (broadcastInDim S8192x1 ![0] bcast_S8192_S8192x1_0
          (maximumf (broadcastInDim S8192 ![] bcast_S_S8192 (constant (F := Ideal) S_ .f32 0xFF800000#32))
            (Host.reduce FloatOps.maximumf lg (constant (F := Ideal) S_ .f32 0xFF800000#32)
              reducesTo_S8192x8192_S8192_d1 h_S_))))) (ix2 t n)
    = Ideal.exp (lg (ix2 t n) - rowMax fun m => lg (ix2 t m)) := by
  rw [hostExp_apply, subf_apply, col_bcast_apply, maximumf_apply, broadcastInDim_scalar_apply, constant_apply,
    rowmax_apply, ofBits_negInf, max_eq_right bot_le]

/-- The weights stage: from unnormalised weights `p`, entry (t, n) of p divided by its row sum. -/
theorem normalise_apply (p : FVec Ideal S8192x8192 .f32) (t n : Fin 8192) :
    Host.divf p (broadcastInDim S8192x8192 ![0, 1] bcast_S8192x1_S8192x8192_0_1
        (broadcastInDim S8192x1 ![0] bcast_S8192_S8192x1_0
          (Host.reduceAdd p (constant (F := Ideal) S_ .f32 0x00000000#32) reducesTo_S8192x8192_S8192_d1 h_S_))) (ix2 t n)
    = Ideal.div (p (ix2 t n)) (∑ m : Fin 8192, p (ix2 t m)) := by
  rw [hostDivf_apply, col_bcast_apply, rowsum8192_apply]

/-! ## The reference program's terms -/

section Terms
variable (V0 : Valuation τ sig (Elt Ideal))

/-- (a) The reshaped first argument is the token matrix. -/
theorem ref_x (t : Tok) (d : Feat) : (res_main_v0 V0 : S8192x256.Idx → EReal) (ix2 t d) = Xof V0 t d := by
  unfold res_main_v0 Xof
  exact reshape_tokens_apply _ t d

/-- (b) The reference's logits. -/
theorem ref_lg (t : Tok) (n : Code) :
    (res_main_v17 V0 : S8192x8192.Idx → EReal) (ix2 t n) = lgR (Xof V0) (Eof V0) t n := by
  unfold res_main_v17
  refine (logits_apply (res_main_v0 V0) (V0 (Proc.devRef .tc main_arg1)) t n).trans ?_
  simp only [ref_x V0]
  rfl

/-- (c) The reference's unnormalised weights. -/
theorem ref_p (t : Tok) (n : Code) :
    (res_main_v24 V0 : S8192x8192.Idx → EReal) (ix2 t n) = pR (Xof V0) (Eof V0) t n := by
  unfold res_main_v24
  refine (expshift_apply (res_main_v17 V0) t n).trans ?_
  simp only [ref_lg V0]
  rfl

/-- (d) The reference's weights. -/
theorem ref_enc (t : Tok) (n : Code) :
    (res_main_v28 V0 : S8192x8192.Idx → EReal) (ix2 t n) = encR (Xof V0) (Eof V0) t n := by
  unfold res_main_v28
  refine (normalise_apply (res_main_v24 V0) t n).trans ?_
  simp only [ref_p V0]
  rfl

/-- (e) The reference's quantized tokens, batch by batch. -/
theorem ref_quant (b : Fin 8) (r : Fin 1024) (d : Feat) :
    (res_main_v30 V0 : S8x1024x256.Idx → EReal) (ix3 b r d)
      = quant (Eof V0) (encR (Xof V0) (Eof V0)) (tokOf b r) d := by
  unfold res_main_v30
  refine (reshape_batches_apply _ b r d).trans ?_
  rw [dotWE_apply]
  simp only [ref_enc V0]
  rfl

/-- (f) The reference's output, batch by batch: x + (quantized − x). -/
theorem ref_out_ix3 (b : Fin 8) (r : Fin 1024) (d : Feat) :
    (addf (V0 (Proc.devRef .tc main_arg0)) (subf (res_main_v30 V0) (V0 (Proc.devRef .tc main_arg0)))
        : S8x1024x256.Idx → EReal) (ix3 b r d)
      = outv (Xof V0) (Eof V0) (encR (Xof V0) (Eof V0)) (tokOf b r) d := by
  rw [addf_apply, subf_apply, ref_quant V0 b r d]
  unfold outv Xof
  rw [batchOf_tokOf, rowOf_tokOf]

/-- (f) The same as one equation of arrays. -/
theorem ref_out :
    (addf (V0 (Proc.devRef .tc main_arg0)) (subf (res_main_v30 V0) (V0 (Proc.devRef .tc main_arg0)))
        : S8x1024x256.Idx → EReal)
      = fun i => outv (Xof V0) (Eof V0) (encR (Xof V0) (Eof V0)) (tokOf (i 0) (i 1)) (i 2) := by
  funext i
  obtain ⟨b, r, d, rfl⟩ : ∃ (b : Fin 8) (r : Fin 1024) (d : Fin 256), i = ix3 b r d := ⟨i 0, i 1, i 2, eq_ix3 i⟩
  exact ref_out_ix3 V0 b r d

end Terms

end Cert.VQ.Ref

end
-- ==== Proof.RefScalarsLib.lean ====
/-
  The reference program's host operations read at an index, over the extended reals, and its named intermediate
  arrays downstream of the soft-assignment weights.

  First the layout and reduction operations of this program's shapes at an index: a scalar spread over an array, a
  column sum of the 8192 × 8192 weight matrix, a sum of a vector or of every entry of a rank-2 / rank-3 array
  (the rank-3 one re-indexed by tokens numbered row-major), the transpose of the weight matrix, the matrix product
  contracting the tokens, and a vector kept as a column and spread along rows. Then, over an arbitrary weight
  matrix `enc` that the weights array is assumed to hold, the cluster sizes, their total, the mean usage, the usage
  distribution, the updated codebook entry and the quantization error, each equal to the specification's function.
-/
import proofs.«125548_g45775761441265_cont_8to1_c_906_26_alg».proof.Proof.Spec
import proofs.«125548_g45775761441265_cont_8to1_c_906_26_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws

noncomputable section

namespace Cert.VQ.Ref

open Idealize.ShloMosaic Idealize.ShloMosaic.ValueIdx Idealize.SL.Sem Cert.ReferenceIdeal Cert.ReferenceIdeal.Gen
open Cert.ReferenceIdeal.Value (res_main_v0 res_main_v28 res_main_v30 res_main_v37 res_main_v38 res_main_v56 res_main_v63 res_main_v64 res_main_v68 res_main_v76 res_main_v86)

variable {α : Type}

/-- A rank-1 index set is its one coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A scalar broadcast to any shape reads the scalar everywhere. -/
theorem bcast0_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A sum over the only axis of a vector, from the initial value. -/
theorem reduce1_apply (x : S8192.Idx → EReal) (init : S_.Idx → EReal) (j : S_.Idx) :
    Host.reduceAdd (F := Ideal) (φ := .f32) x init reducesTo_S8192_S_d0 h_S_ j = init ix0 + ∑ n : Fin 8192, x (ix1 n) := by
  show Ideal.hostReduceAdd reducesTo_S8192_S_d0 x (init (Shape.Idx.first h_S_)) j = _
  rw [Ideal.hostReduceAdd_total _ (fun b => b.elim0), sum_idx1, eq_ix0 (Shape.Idx.first h_S_)]

/-- A column sum of a square matrix, from the initial value. -/
theorem reduceCol_apply (x : S8192x8192.Idx → EReal) (init : S_.Idx → EReal) (n : Fin 8192) :
    Host.reduceAdd (F := Ideal) (φ := .f32) x init reducesTo_S8192x8192_S8192_d0 h_S_ (ix1 n) = init ix0 + ∑ t : Fin 8192, x (ix2 t n) := by
  show Ideal.hostReduceAdd reducesTo_S8192x8192_S8192_d0 x (init (Shape.Idx.first h_S_)) (ix1 n) = _
  rw [Ideal.hostReduceAdd_single _ (by decide : S8192x8192.Reduces [0] S8192), eq_ix0 (Shape.Idx.first h_S_)]
  refine congrArg (init ix0 + ·) (Finset.sum_congr rfl fun k _ => congrArg x (funext fun a => ?_))
  match a with
  | ⟨0, _⟩ => exact Fin.ext rfl
  | ⟨1, _⟩ => exact Fin.ext rfl

/-- A rank-3 index set of shape [8, 1024, 256] is tokens × features, the tokens numbered row-major. -/
def idxEquivTok : S8x1024x256.Idx ≃ Tok × Feat where
  toFun i := (tokOf (i 0) (i 1), i 2)
  invFun p := ix3 (batchOf p.1) (rowOf p.1) p.2
  left_inv i := by
    obtain ⟨b, r, d, rfl⟩ : ∃ (b : Fin 8) (r : Fin 1024) (d : Fin 256), i = ix3 b r d := ⟨i 0, i 1, i 2, eq_ix3 i⟩
    show ix3 (batchOf (tokOf b r)) (rowOf (tokOf b r)) d = ix3 b r d
    rw [batchOf_tokOf, rowOf_tokOf]
  right_inv p := by
    show (tokOf (batchOf p.1) (rowOf p.1), p.2) = p
    rw [tokOf_batchOf_rowOf]

theorem sum_idxTok {M : Type*} [AddCommMonoid M] (f : S8x1024x256.Idx → M) :
    ∑ i, f i = ∑ t : Tok, ∑ d : Feat, f (ix3 (batchOf t) (rowOf t) d) := by
  rw [← Equiv.sum_comp idxEquivTok.symm f, Fintype.sum_prod_type]
  rfl

/-- The sum over every entry of a [8192, 256] array, from the initial value. -/
theorem reduce2tot_apply (x : S8192x256.Idx → EReal) (init : S_.Idx → EReal) (j : S_.Idx) :
    Host.reduceAdd (F := Ideal) (φ := .f32) x init reducesTo_S8192x256_S_d0_1 h_S_ j
      = init ix0 + ∑ n : Fin 8192, ∑ d : Fin 256, x (ix2 n d) := by
  show Ideal.hostReduceAdd reducesTo_S8192x256_S_d0_1 x (init (Shape.Idx.first h_S_)) j = _
  rw [Ideal.hostReduceAdd_total _ (fun b => b.elim0), sum_idx2, eq_ix0 (Shape.Idx.first h_S_)]

/-- The sum over every entry of a [8, 1024, 256] array, from the initial value, by tokens and features. -/
theorem reduce3tot_apply (x : S8x1024x256.Idx → EReal) (init : S_.Idx → EReal) (j : S_.Idx) :
    Host.reduceAdd (F := Ideal) (φ := .f32) x init reducesTo_S8x1024x256_S_d0_1_2 h_S_ j
      = init ix0 + ∑ t : Tok, ∑ d : Feat, x (ix3 (batchOf t) (rowOf t) d) := by
  show Ideal.hostReduceAdd reducesTo_S8x1024x256_S_d0_1_2 x (init (Shape.Idx.first h_S_)) j = _
  rw [Ideal.hostReduceAdd_total _ (fun b => b.elim0), sum_idxTok, eq_ix0 (Shape.Idx.first h_S_)]

/-- The product of a [8192, 8192] matrix with a [8192, 256] matrix at an entry: the sum over the shared axis. -/
theorem dot_apply (l : S8192x8192.Idx → EReal) (r : S8192x256.Idx → EReal) (n : Fin 8192) (d : Fin 256) :
    Host.dotGeneral (F := Ideal) (φ₁ := .f32) (φ₂ := .f32) dot_S8192x8192_S8192x256_S8192x256_1_0_0_1_n_n none l r (ix2 n d)
      = ∑ t : Fin 8192, l (ix2 n t) * r (ix2 t d) := by
  show FloatOps.dotGeneral (F := Ideal) (φ₁ := .f32) (φ₂ := .f32) dot_S8192x8192_S8192x256_S8192x256_1_0_0_1_n_n none .single l r (ix2 n d) = _
  rw [Ideal.dotGeneral_apply,
    ← Equiv.sum_comp (contrEquiv1 dot_S8192x8192_S8192x256_S8192x256_1_0_0_1_n_n 8192 rfl rfl).symm]
  refine Finset.sum_congr rfl fun t _ => ?_
  congr 1
  · refine congrArg l (funext fun a => ?_)
    match a with
    | ⟨0, _⟩ => exact Fin.ext rfl
    | ⟨1, _⟩ =>
      exact Fin.ext ((DotDims.lhsIdx_val_of_single dot_S8192x8192_S8192x256_S8192x256_1_0_0_1_n_n (cl := ⟨1, by decide⟩) rfl (ix2 n d) _).trans
        (contrEquiv1_symm_val dot_S8192x8192_S8192x256_S8192x256_1_0_0_1_n_n 8192 rfl rfl t))
  · refine congrArg r (funext fun a => ?_)
    match a with
    | ⟨0, _⟩ =>
      exact Fin.ext ((DotDims.rhsIdx_val_of_single dot_S8192x8192_S8192x256_S8192x256_1_0_0_1_n_n (cr := ⟨0, by decide⟩) rfl (ix2 n d) _).trans
        (contrEquiv1_symm_val dot_S8192x8192_S8192x256_S8192x256_1_0_0_1_n_n 8192 rfl rfl t))
    | ⟨1, _⟩ => exact Fin.ext rfl

/-- A vector kept as a column and then spread along the rows reads its entry of the row. -/
theorem bcastCol_apply (x : S8192.Idx → α) (n : Fin 8192) (d : Fin 256) :
    broadcastInDim S8192x256 ![0, 1] bcast_S8192x1_S8192x256_0_1 (broadcastInDim S8192x1 ![0] bcast_S8192_S8192x1_0 x) (ix2 n d)
      = x (ix1 n) := by
  rw [broadcastInDim_apply _ _ _ _ (ix2 n (0 : Fin 1)) (fun a => by
      match a with
      | ⟨0, _⟩ => rfl
      | ⟨1, _⟩ => rfl),
    broadcastInDim_apply _ _ _ _ (ix1 n) (fun a => by
      match a with
      | ⟨0, _⟩ => rfl)]

/-- The square weight matrix transposed reads, at (n, t), the matrix at (t, n). -/
theorem transposeSq_apply (x : S8192x8192.Idx → α) (n t : Fin 8192) :
    transpose S8192x8192 [1, 0] x transposes_S8192x8192_S8192x8192_1_0 (ix2 n t) = x (ix2 t n) :=
  transpose_ix2_apply x _ n t

/-- The product of the transposed weight matrix with a [8192, 256] matrix at an entry. -/
theorem dotT_apply (l : S8192x8192.Idx → EReal) (r : S8192x256.Idx → EReal) (n : Fin 8192) (d : Fin 256) :
    Host.dotGeneral (F := Ideal) (φ₁ := .f32) (φ₂ := .f32) dot_S8192x8192_S8192x256_S8192x256_1_0_0_1_n_n none
        (transpose S8192x8192 [1, 0] l transposes_S8192x8192_S8192x8192_1_0) r (ix2 n d)
      = ∑ t : Fin 8192, l (ix2 t n) * r (ix2 t d) := by
  rw [dot_apply]
  exact Finset.sum_congr rfl fun t _ => by rw [transposeSq_apply]

/-! ## The elementwise host operations at an index (definitional at the extended reals) -/

theorem hdivf_apply {s : Shape} {φ : FTy} (a b : FVec Ideal s φ) (i : s.Idx) : Host.divf a b i = Ideal.div (a i) (b i) := rfl
theorem hnegf_apply {s : Shape} {φ : FTy} (a : FVec Ideal s φ) (i : s.Idx) : Host.negf a i = -(a i) := rfl
theorem hexp_apply {s : Shape} {φ : FTy} (a : FVec Ideal s φ) (i : s.Idx) : Host.exp a i = Ideal.exp (a i) := rfl
theorem hlog_apply {s : Shape} {φ : FTy} (a : FVec Ideal s φ) (i : s.Idx) : Host.log a i = Ideal.log (a i) := rfl

section values
variable (V0 : Valuation τ sig (Elt Ideal)) (X : Tok → Feat → EReal) (E : Code → Feat → EReal) (enc : Tok → Code → EReal)

/-- The moving-average cluster size after one step from zero. -/
theorem v37_apply (h28 : ∀ t n, (res_main_v28 V0 : S8192x8192.Idx → EReal) (ix2 t n) = enc t n) (n : Code) :
    (res_main_v37 V0 : S8192.Idx → EReal) (ix1 n) = ema enc n := by
  unfold res_main_v37
  rw [addf_apply, mulf_apply, mulf_apply, bcast0_apply, bcast0_apply, bcast0_apply, reduceCol_apply]
  simp only [constant_apply, Ideal.ofBits_zero_f32, mul_zero, zero_add, h28]
  rfl

theorem v63_apply (h28 : ∀ t n, (res_main_v28 V0 : S8192x8192.Idx → EReal) (ix2 t n) = enc t n) (n : Code) :
    (res_main_v63 V0 : S8192.Idx → EReal) (ix1 n) = ema enc n := by
  unfold res_main_v63
  rw [addf_apply, mulf_apply, mulf_apply, bcast0_apply, bcast0_apply, bcast0_apply, reduceCol_apply]
  simp only [constant_apply, Ideal.ofBits_zero_f32, mul_zero, zero_add, h28]
  rfl

/-- Its total over the codes. -/
theorem v38_apply (h28 : ∀ t n, (res_main_v28 V0 : S8192x8192.Idx → EReal) (ix2 t n) = enc t n) (j : S_.Idx) :
    (res_main_v38 V0 : S_.Idx → EReal) j = emaTot enc := by
  unfold res_main_v38
  rw [reduce1_apply]
  simp only [constant_apply, Ideal.ofBits_zero_f32, zero_add, v37_apply V0 enc h28]
  rfl

/-- The mean use of a code over the tokens. -/
theorem v76_apply (h28 : ∀ t n, (res_main_v28 V0 : S8192x8192.Idx → EReal) (ix2 t n) = enc t n) (n : Code) :
    (res_main_v76 V0 : S8192.Idx → EReal) (ix1 n) = avg enc n := by
  unfold res_main_v76
  rw [hdivf_apply, reduceCol_apply, bcast0_apply]
  simp only [constant_apply, Ideal.ofBits_zero_f32, zero_add, h28]
  rfl

/-- The usage distribution. -/
theorem v86_apply (h28 : ∀ t n, (res_main_v28 V0 : S8192x8192.Idx → EReal) (ix2 t n) = enc t n) (n : Code) :
    (res_main_v86 V0 : S8192.Idx → EReal) (ix1 n) = up enc n := by
  unfold res_main_v86
  rw [hdivf_apply, bcast0_apply, addf_apply, reduce1_apply]
  simp only [constant_apply, Ideal.ofBits_zero_f32, zero_add, v63_apply V0 enc h28]
  rfl

end values

section values2
variable (V0 : Valuation τ sig (Elt Ideal)) (X : Tok → Feat → EReal) (E : Code → Feat → EReal) (enc : Tok → Code → EReal)

/-- The updated codebook entry: the scaled weighted sum of the tokens over the smoothed cluster size. -/
theorem v56_apply (h28 : ∀ t n, (res_main_v28 V0 : S8192x8192.Idx → EReal) (ix2 t n) = enc t n)
    (h0 : ∀ t d, (res_main_v0 V0 : S8192x256.Idx → EReal) (ix2 t d) = X t d) (n : Code) (d : Feat) :
    (res_main_v56 V0 : S8192x256.Idx → EReal) (ix2 n d)
      = Ideal.div (w 0x3C23D70A#32 * ∑ t, enc t n * X t d) (csz enc n) := by
  unfold res_main_v56
  rw [hdivf_apply, addf_apply, mulf_apply, mulf_apply, bcast0_apply, bcast0_apply, bcast0_apply, dotT_apply, bcastCol_apply,
    mulf_apply, hdivf_apply, addf_apply, bcast0_apply, bcast0_apply, bcast0_apply, addf_apply]
  simp only [constant_apply, Ideal.ofBits_zero_f32, mul_zero, zero_add, h28, h0,
    v37_apply V0 enc h28, v38_apply V0 enc h28]
  rfl

/-- The quantization error at an entry. -/
theorem v64_apply (h30 : ∀ b r d, (res_main_v30 V0 : S8x1024x256.Idx → EReal) (ix3 b r d) = quant E enc (tokOf b r) d)
    (hA0 : ∀ b r d, (V0 (Proc.devRef .tc main_arg0) : S8x1024x256.Idx → EReal) (ix3 b r d) = X (tokOf b r) d)
    (b : Fin 8) (r : Fin 1024) (d : Feat) :
    (res_main_v64 V0 : S8x1024x256.Idx → EReal) (ix3 b r d) = quant E enc (tokOf b r) d - X (tokOf b r) d := by
  unfold res_main_v64
  rw [subf_apply, h30, hA0]

theorem v68_apply (h30 : ∀ b r d, (res_main_v30 V0 : S8x1024x256.Idx → EReal) (ix3 b r d) = quant E enc (tokOf b r) d)
    (hA0 : ∀ b r d, (V0 (Proc.devRef .tc main_arg0) : S8x1024x256.Idx → EReal) (ix3 b r d) = X (tokOf b r) d)
    (b : Fin 8) (r : Fin 1024) (d : Feat) :
    (res_main_v68 V0 : S8x1024x256.Idx → EReal) (ix3 b r d) = quant E enc (tokOf b r) d - X (tokOf b r) d := by
  unfold res_main_v68
  rw [subf_apply, h30, hA0]

end values2

end Cert.VQ.Ref

end
-- ==== Proof.RefScalars.lean ====
/-
  The reference program's two scalar results, the perplexity and the loss, as the specification's functions of the
  token matrix, the codebook and the weight matrix the weights array is assumed to hold.

  Each reduction to a scalar is read as the specification's sum: the entropy sums over the codes, the squared error
  over tokens and features (the rank-3 error array re-indexed by tokens numbered row-major), and the regulariser over
  the entries of the updated codebook. The results then assemble by the elementwise operations at the one index of
  a scalar.
-/
import proofs.«125548_g45775761441265_cont_8to1_c_906_26_alg».proof.Proof.RefScalarsLib

noncomputable section

namespace Cert.VQ.Ref

open Idealize.ShloMosaic Idealize.ShloMosaic.ValueIdx Idealize.SL.Sem Cert.ReferenceIdeal Cert.ReferenceIdeal.Gen
open Cert.ReferenceIdeal.Value (res_main_v0 res_main_v28 res_main_v30 res_main_v37 res_main_v38 res_main_v56 res_main_v63 res_main_v64 res_main_v68 res_main_v76 res_main_v86)

section results
variable (V0 : Valuation τ sig (Elt Ideal)) (X : Tok → Feat → EReal) (E : Code → Feat → EReal) (enc : Tok → Code → EReal)

/-- The sum over the codes of mean usage times the logarithm of mean usage plus a tiny constant. -/
theorem entTerm_apply (h28 : ∀ t n, (res_main_v28 V0 : S8192x8192.Idx → EReal) (ix2 t n) = enc t n) (j : S_.Idx) :
    (Host.reduceAdd (F := Ideal) (mulf (res_main_v76 V0) (Host.log (F := Ideal) (addf (res_main_v76 V0) (broadcastInDim S8192 ![] bcast_S_S8192 (constant (F := Ideal) S_ .f32 0x2EDBE6FF#32))))) (constant (F := Ideal) S_ .f32 0x00000000#32) reducesTo_S8192_S_d0 h_S_ : S_.Idx → EReal) j = entSum enc := by
  rw [reduce1_apply, constant_apply, Ideal.ofBits_zero_f32, zero_add]
  unfold entSum
  refine Finset.sum_congr rfl fun n _ => ?_
  rw [mulf_apply, hlog_apply, addf_apply, bcast0_apply, constant_apply, v76_apply V0 enc h28]

/-- The same sum for the usage distribution. -/
theorem divTerm_apply (h28 : ∀ t n, (res_main_v28 V0 : S8192x8192.Idx → EReal) (ix2 t n) = enc t n) (j : S_.Idx) :
    (Host.reduceAdd (F := Ideal) (mulf (res_main_v86 V0) (Host.log (F := Ideal) (addf (res_main_v86 V0) (broadcastInDim S8192 ![] bcast_S_S8192 (constant (F := Ideal) S_ .f32 0x2EDBE6FF#32))))) (constant (F := Ideal) S_ .f32 0x00000000#32) reducesTo_S8192_S_d0 h_S_ : S_.Idx → EReal) j = divSum enc := by
  rw [reduce1_apply, constant_apply, Ideal.ofBits_zero_f32, zero_add]
  unfold divSum
  refine Finset.sum_congr rfl fun n _ => ?_
  rw [mulf_apply, hlog_apply, addf_apply, bcast0_apply, constant_apply, v86_apply V0 enc h28]

/-- The total squared quantization error, summed over tokens and features. -/
theorem sq64_apply (h30 : ∀ b r d, (res_main_v30 V0 : S8x1024x256.Idx → EReal) (ix3 b r d) = quant E enc (tokOf b r) d)
    (hA0 : ∀ b r d, (V0 (Proc.devRef .tc main_arg0) : S8x1024x256.Idx → EReal) (ix3 b r d) = X (tokOf b r) d) (j : S_.Idx) :
    (Host.reduceAdd (F := Ideal) (mulf (res_main_v64 V0) (res_main_v64 V0)) (constant (F := Ideal) S_ .f32 0x00000000#32) reducesTo_S8x1024x256_S_d0_1_2 h_S_ : S_.Idx → EReal) j = sqerr X E enc := by
  rw [reduce3tot_apply, constant_apply, Ideal.ofBits_zero_f32, zero_add]
  unfold sqerr
  refine Finset.sum_congr rfl fun t _ => Finset.sum_congr rfl fun d _ => ?_
  rw [mulf_apply, v64_apply V0 X E enc h30 hA0, tokOf_batchOf_rowOf]

theorem sq68_apply (h30 : ∀ b r d, (res_main_v30 V0 : S8x1024x256.Idx → EReal) (ix3 b r d) = quant E enc (tokOf b r) d)
    (hA0 : ∀ b r d, (V0 (Proc.devRef .tc main_arg0) : S8x1024x256.Idx → EReal) (ix3 b r d) = X (tokOf b r) d) (j : S_.Idx) :
    (Host.reduceAdd (F := Ideal) (mulf (res_main_v68 V0) (res_main_v68 V0)) (constant (F := Ideal) S_ .f32 0x00000000#32) reducesTo_S8x1024x256_S_d0_1_2 h_S_ : S_.Idx → EReal) j = sqerr X E enc := by
  rw [reduce3tot_apply, constant_apply, Ideal.ofBits_zero_f32, zero_add]
  unfold sqerr
  refine Finset.sum_congr rfl fun t _ => Finset.sum_congr rfl fun d _ => ?_
  rw [mulf_apply, v68_apply V0 X E enc h30 hA0, tokOf_batchOf_rowOf]

/-- The regulariser: the sum of the squared entries of the updated codebook. -/
theorem regTerm_apply (h28 : ∀ t n, (res_main_v28 V0 : S8192x8192.Idx → EReal) (ix2 t n) = enc t n)
    (h0 : ∀ t d, (res_main_v0 V0 : S8192x256.Idx → EReal) (ix2 t d) = X t d) (j : S_.Idx) :
    (Host.reduceAdd (F := Ideal) (mulf (res_main_v56 V0) (res_main_v56 V0)) (constant (F := Ideal) S_ .f32 0x00000000#32) reducesTo_S8192x256_S_d0_1 h_S_ : S_.Idx → EReal) j = regR X enc := by
  rw [reduce2tot_apply, constant_apply, Ideal.ofBits_zero_f32, zero_add]
  unfold regR
  refine Finset.sum_congr rfl fun n _ => Finset.sum_congr rfl fun d _ => ?_
  rw [mulf_apply, v56_apply V0 X enc h28 h0]

/-- The perplexity: the exponential of the entropy of the mean code usage. -/
theorem ref_perp (h28 : ∀ t n, (res_main_v28 V0 : S8192x8192.Idx → EReal) (ix2 t n) = enc t n) :
    (Host.exp (F := Ideal) (Host.negf (F := Ideal) (Host.reduceAdd (F := Ideal) (mulf (res_main_v76 V0) (Host.log (F := Ideal) (addf (res_main_v76 V0) (broadcastInDim S8192 ![] bcast_S_S8192 (constant (F := Ideal) S_ .f32 0x2EDBE6FF#32))))) (constant (F := Ideal) S_ .f32 0x00000000#32) reducesTo_S8192_S_d0 h_S_)) : S_.Idx → EReal)
      = fun _ => perpR enc := by
  funext j
  rw [hexp_apply, hnegf_apply, entTerm_apply V0 enc h28]
  rfl

/-- The loss: the two mean squared errors, the regulariser over the updated codebook, and the two entropies. -/
theorem ref_loss (h28 : ∀ t n, (res_main_v28 V0 : S8192x8192.Idx → EReal) (ix2 t n) = enc t n)
    (h0 : ∀ t d, (res_main_v0 V0 : S8192x256.Idx → EReal) (ix2 t d) = X t d)
    (h30 : ∀ b r d, (res_main_v30 V0 : S8x1024x256.Idx → EReal) (ix3 b r d) = quant E enc (tokOf b r) d)
    (hA0 : ∀ b r d, (V0 (Proc.devRef .tc main_arg0) : S8x1024x256.Idx → EReal) (ix3 b r d) = X (tokOf b r) d) :
    (addf (addf (addf (Host.divf (F := Ideal) (Host.reduceAdd (F := Ideal) (mulf (res_main_v68 V0) (res_main_v68 V0)) (constant (F := Ideal) S_ .f32 0x00000000#32) reducesTo_S8x1024x256_S_d0_1_2 h_S_) (constant (F := Ideal) S_ .f32 0x4A000000#32)) (mulf (constant (F := Ideal) S_ .f32 0x3E800000#32) (Host.divf (F := Ideal) (Host.reduceAdd (F := Ideal) (mulf (res_main_v64 V0) (res_main_v64 V0)) (constant (F := Ideal) S_ .f32 0x00000000#32) reducesTo_S8x1024x256_S_d0_1_2 h_S_) (constant (F := Ideal) S_ .f32 0x4A000000#32)))) (Host.reduceAdd (F := Ideal) (mulf (res_main_v56 V0) (res_main_v56 V0)) (constant (F := Ideal) S_ .f32 0x00000000#32) reducesTo_S8192x256_S_d0_1 h_S_)) (mulf (constant (F := Ideal) S_ .f32 0x3F4CCCCD#32) (addf (Host.negf (F := Ideal) (Host.reduceAdd (F := Ideal) (mulf (res_main_v76 V0) (Host.log (F := Ideal) (addf (res_main_v76 V0) (broadcastInDim S8192 ![] bcast_S_S8192 (constant (F := Ideal) S_ .f32 0x2EDBE6FF#32))))) (constant (F := Ideal) S_ .f32 0x00000000#32) reducesTo_S8192_S_d0 h_S_)) (Host.negf (F := Ideal) (Host.reduceAdd (F := Ideal) (mulf (res_main_v86 V0) (Host.log (F := Ideal) (addf (res_main_v86 V0) (broadcastInDim S8192 ![] bcast_S_S8192 (constant (F := Ideal) S_ .f32 0x2EDBE6FF#32))))) (constant (F := Ideal) S_ .f32 0x00000000#32) reducesTo_S8192_S_d0 h_S_)))) : S_.Idx → EReal)
      = fun _ => lossR X E enc := by
  funext j
  rw [addf_apply, addf_apply, addf_apply, mulf_apply, mulf_apply, addf_apply, hnegf_apply, hnegf_apply, hdivf_apply,
    hdivf_apply, constant_apply, constant_apply, constant_apply,
    entTerm_apply V0 enc h28, divTerm_apply V0 enc h28, sq64_apply V0 X E enc h30 hA0, sq68_apply V0 X E enc h30 hA0,
    regTerm_apply V0 X enc h28 h0]
  rfl

end results

end Cert.VQ.Ref

end
-- ==== Proof.RefSide.lean ====
/-
  The reference's run with its three results in the specification's terms: the straight-through output, the loss
  and the perplexity of the second arrangement, as functions of the token matrix and the codebook read off the
  argument arrays.
-/
import proofs.«125548_g45775761441265_cont_8to1_c_906_26_alg».proof.Proof.RefWeights
import proofs.«125548_g45775761441265_cont_8to1_c_906_26_alg».proof.Proof.RefScalars

noncomputable section

namespace Cert.VQ.Ref

open Cert.ReferenceIdeal Cert.ReferenceIdeal.Gen Cert.ReferenceIdeal.Value Cert.VQ
open Idealize.ShloMosaic Idealize.ShloMosaic.TcCoe Idealize.ShloMosaic.ValueIdx Idealize.SL.Sem Idealize.ShloMosaic.StableHlo

/-- The argument array read at a batch and a row is the token matrix at that token. -/
theorem arg0_apply (V0 : Valuation τ sig (Elt Ideal)) (b : Fin 8) (r : Fin 1024) (d : Feat) :
    (V0 (Proc.devRef .tc main_arg0) : S8x1024x256.Idx → EReal) (ix3 b r d) = Xof V0 (tokOf b r) d := by
  unfold Xof
  rw [batchOf_tokOf, rowOf_tokOf]

/-- Every weakly fair execution of the reference terminates with its three results at the specification's second
    arrangement of the argument arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107)
          = (fun i => outv (Xof (launchContents m c)) (Eof (launchContents m c))
              (encR (Xof (launchContents m c)) (Eof (launchContents m c))) (tokOf (i 0) (i 1)) (i 2))
      ∧ r.2.mem ((c.tc : Thread nD τ).loc main_v105)
          = (fun _ => lossR (Xof (launchContents m c)) (Eof (launchContents m c))
              (encR (Xof (launchContents m c)) (Eof (launchContents m c))))
      ∧ r.2.mem ((c.tc : Thread nD τ).loc main_v99)
          = (fun _ => perpR (encR (Xof (launchContents m c)) (Eof (launchContents m c))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.ReferenceIdeal.Value.run (F := Ideal) m ρ)
  obtain ⟨h1, h2, h3, h4, h5⟩ := h c
  refine ⟨h1.trans ?_, h2.trans ?_, h3.trans ?_, h4, h5⟩
  · exact ref_out (launchContents m c)
  · exact ref_loss (launchContents m c) (Xof (launchContents m c)) (Eof (launchContents m c))
      (encR (Xof (launchContents m c)) (Eof (launchContents m c)))
      (ref_enc (launchContents m c)) (ref_x (launchContents m c)) (ref_quant (launchContents m c))
      (arg0_apply (launchContents m c))
  · exact ref_perp (launchContents m c) (encR (Xof (launchContents m c)) (Eof (launchContents m c)))
      (ref_enc (launchContents m c))

end Cert.VQ.Ref

end
-- ==== Proof.KV.Blocks.lean ====
/-
  The blocks the kernel's pipeline stages, read off the arrays entry by entry.

  The token matrix (8192 × 256) is staged in 16 tiles of 512 consecutive rows: entry (r, d) of the tile of grid point t
  is entry (512·t + r, d) of the matrix. The codebook (8192 × 256) is staged whole, once. The token matrix itself is the
  program's first argument of shape [8, 1024, 256] read row-major: row t is row (t mod 1024) of batch (t div 1024).
-/
import proofs.«125548_g45775761441265_cont_8to1_c_906_26_alg».proof.Proof.KI.State
import proofs.«125548_g45775761441265_cont_8to1_c_906_26_alg».proof.Proof.Spec
import Idealize.ShloMosaic.Lib.ValueIdx
import Idealize.ShloMosaic.Lib.Pipeline.Value
import Idealize.ShloMosaic.Lib.StableHlo.Run

set_option maxRecDepth 16384

noncomputable section

namespace Cert.VQ.KerArr

open Cert.KernelIdeal Cert.KernelIdeal.Gen Cert.VQ
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The token matrix as the region finds it. -/
def Xk (c : Dev nD) : Tok → Feat → EReal := fun t d => (V m c main_v0 : S8192x256.Idx → EReal) (ix2 t d)
/-- The codebook as the region finds it. -/
def Ek (c : Dev nD) : Code → Feat → EReal := fun n d => (V m c main_arg1 : S8192x256.Idx → EReal) (ix2 n d)

/-- The token window's block index at grid point t is (t, 0). -/
theorem index_tokens : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The codebook window's block index is (0, 0) at every grid point. -/
theorem index_codes : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The token window's block at grid point t, entry (r, d): entry (512·t + r, d) of the token matrix. -/
theorem iblk0_apply (c : Dev nD) (t : Fin cfg0.N) (r : Fin 512) (d : Fin 256) :
    (iblk m c 0 t : Vec Ideal S512x256 .f32) (ix2 r d) = Xk m c (tileTok ⟨t.val, lt_of_lt_of_eq t.isLt N_0⟩ r) d := by
  obtain ⟨h0, h1⟩ := index_tokens t
  unfold iblk Xk
  rw [View.read_apply]
  show V m c main_v0 _ = V m c main_v0 _
  congr 1
  funext a
  apply Fin.ext
  match a with
  | ⟨0, _⟩ => show win0_0.index t (0 : Fin 2) * 512 + 1 * r.val = 512 * t.val + r.val; rw [h0]; omega
  | ⟨1, _⟩ => show win0_0.index t (1 : Fin 2) * 256 + 1 * d.val = d.val; rw [h1]; omega

/-- The codebook window's block, at any grid point, is the whole codebook. -/
theorem iblk1_apply (c : Dev nD) (t : Fin cfg0.N) (n : Fin 8192) (d : Fin 256) :
    (iblk m c 1 t : Vec Ideal S8192x256 .f32) (ix2 n d) = Ek m c n d := by
  obtain ⟨h0, h1⟩ := index_codes t
  unfold iblk Ek
  rw [View.read_apply]
  show V m c main_arg1 _ = V m c main_arg1 _
  congr 1
  funext a
  apply Fin.ext
  match a with
  | ⟨0, _⟩ => show win0_1.index t (0 : Fin 2) * 8192 + 1 * n.val = n.val; rw [h0]; omega
  | ⟨1, _⟩ => show win0_1.index t (1 : Fin 2) * 256 + 1 * d.val = d.val; rw [h1]; omega

/-- The [8, 1024, 256] array read as [8192, 256], row-major: row t is row (t mod 1024) of batch (t div 1024). -/
theorem reshape_in_apply {α : Type} (x : S8x1024x256.Idx → α) (h : S8x1024x256.ShapeCasts S8192x256) (t : Tok) (d : Feat) :
    shapeCast S8192x256 x h (ix2 t d) = x (ix3 (batchOf t) (rowOf t) d) :=
  shapeCast_apply x h (ix2 t d) (ix3 (batchOf t) (rowOf t) d) (by
    rewrite [Shape.rowMajor_val_three, Shape.rowMajor_val_two]
    show (t.val / 1024 * 1024 + t.val % 1024) * 256 + d.val = t.val * 256 + d.val
    omega)

/-- The token matrix is the first argument as launched, reshaped. -/
theorem V_tokens (c : Dev nD) :
    (V m c main_v0 : S8192x256.Idx → EReal)
      = shapeCast S8192x256 (m ((c : Thread nD τ).loc main_arg0)) shapeCasts_S8x1024x256_S8192x256 := by
  dsimp only [Gen.V, Gen.V0]
  simp only [Gen.hostOps0, List.flatten_cons, List.flatten_nil, List.append_nil, List.cons_append, List.nil_append]
  after_results
  rfl

/-- (1c) The token matrix in terms of the first argument as launched. -/
theorem Xk_eq (c : Dev nD) (t : Tok) (d : Feat) :
    Xk m c t d = (m ((c : Thread nD τ).loc main_arg0) : S8x1024x256.Idx → EReal) (ix3 (batchOf t) (rowOf t) d) := by
  unfold Xk
  rw [V_tokens]
  exact reshape_in_apply _ _ t d

/-- (1c) The codebook is the second argument as launched. -/
theorem Ek_eq (c : Dev nD) (n : Code) (d : Feat) :
    Ek m c n d = (m ((c : Thread nD τ).loc main_arg1) : S8192x256.Idx → EReal) (ix2 n d) := by
  unfold Ek
  rw [V_main_arg1]

/-! ## The staged blocks -/

open Cert.KernelIdeal.Body in
/-- (1a) The token tile of grid point t: entry (r, d) is entry (512·t + r, d) of the token matrix. -/
theorem xb_apply (c : Dev nD) (t : Fin cfg0.N) (r : Fin 512) (d : Fin 256) :
    xb m c t (ix2 r d) = Xk m c (tileTok ⟨t.val, lt_of_lt_of_eq t.isLt N_0⟩ r) d := by
  unfold xb
  exact iblk0_apply m c t r d

open Cert.KernelIdeal.Body in
/-- (1b) The codebook block is the codebook. -/
theorem eb_apply (c : Dev nD) (n : Fin 8192) (d : Fin 256) : eb m c (ix2 n d) = Ek m c n d := by
  unfold eb
  exact iblk1_apply m c t0_0 n d

end Cert.VQ.KerArr

end
-- ==== Proof.KV.Arrays.lean ====
/-
  The kernel's result arrays after the run, from what the body leaves at each grid point.

  The output array (8192 × 256) is written back tile by tile: grid point t writes rows 512·t … 512·t + 511, and the 16
  tiles cover every row, row i lying in the tile of point i div 512. So if the tile left at point t is, entry by entry,
  one function G of the row's number in the whole array, the array ends holding G. The two scalar results are [1, 1]
  arrays with one block, written back at the last grid point only; they end holding what the body leaves there.
-/
import proofs.«125548_g45775761441265_cont_8to1_c_906_26_alg».proof.Proof.KV.Blocks

set_option maxRecDepth 16384

noncomputable section

namespace Cert.VQ.KerArr

open Cert.KernelIdeal Cert.KernelIdeal.Gen Cert.KernelIdeal.Body Cert.VQ
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The block indices of the three output windows, decided over the grid -/

/-- The output window's block index at grid point t is (t, 0). -/
theorem index_out : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- The two scalar windows' block index is (0, 0) at every grid point. -/
theorem index_s3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_s4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## The output array -/

section Output
variable (G : Dev nD → Tok → Feat → EReal)
  (hG : ∀ (c : Dev nD) (t : Fin cfg0.N) (r : Fin 512) (d : Fin 256),
    O2 m c t (ix2 r d) = G c (tileTok ⟨t.val, lt_of_lt_of_eq t.isLt N_0⟩ r) d)

/-- The function G as an array of the output's shape. -/
abbrev Garr (c : Dev nD) : S8192x256.Idx → EReal := fun i => G c (i 0) (i 1)

include hG in
/-- What grid point t writes back is its block of G. -/
theorem flushed2_eq (c : Dev nD) (t : Fin cfg0.N) :
    (dats m 0 c).flushed 2 t = ((cfg0.win 2).blk t).view.read (Elt Ideal) (Garr G c) := by
  show (cfg0.win 2).cut (grid0.coords t) ((dats m 0 c).after 2 t) = _
  rw [after_2]
  obtain ⟨h0, h1⟩ := index_out t
  funext j
  obtain ⟨r, d, rfl⟩ : ∃ (r : Fin 512) (d : Fin 256), j = ix2 r d := ⟨j 0, j 1, eq_ix2 j⟩
  rw [View.read_apply]
  show O2 m c t (ix2 r d) = G c ((((cfg0.win 2).blk t).view.emb (ix2 r d)) 0) ((((cfg0.win 2).blk t).view.emb (ix2 r d)) 1)
  rw [hG c t r d]
  congr 1
  · apply Fin.ext
    show 512 * t.val + r.val = win0_2.index t (0 : Fin 2) * 512 + 1 * r.val
    rw [h0]; omega
  · apply Fin.ext
    show d.val = win0_2.index t (1 : Fin 2) * 256 + 1 * d.val
    rw [h1]; omega

/-- An index of the output array is in grid point t's block iff each coordinate is in the block's range on its axis. -/
theorem mem_blk2 (t : Fin cfg0.N) (i : S8192x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v1_0).slice (win0_2.rect t)).set ↔ _
  rw [View.set_slice_whole, Rect.mem_set_unit]
  exact Iff.rfl

/-- Every row of the output array lies in the tile of grid point (row div 512), which writes its tile back. -/
theorem cover2 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 512 :=
    ⟨⟨(i 0).val / 512, by rw [show cfg0.N = 16 from N_0]; omega⟩, rfl⟩
  obtain ⟨h0, h1⟩ := index_out t
  refine ⟨t, flush0_2 t, ?_⟩
  rw [mem_blk2]
  intro a
  match a with
  | ⟨0, _⟩ =>
    show win0_2.index t (0 : Fin 2) * 512 ≤ (i 0).val ∧ (i 0).val < win0_2.index t (0 : Fin 2) * 512 + 512
    rw [h0, ht]; omega
  | ⟨1, _⟩ =>
    show win0_2.index t (1 : Fin 2) * 256 ≤ (i 1).val ∧ (i 1).val < win0_2.index t (1 : Fin 2) * 256 + 256
    rw [h1]; omega

include hG in
/-- The output array after the run is G. -/
theorem final2 (c : Dev nD) : (dats m 0 c).arrAt 2 cfg0.N = Garr G c :=
  (dats m 0 c).arrAt_eq_of_cover 2 (Garr G c) (fun t _ => flushed2_eq m G hG c t) (cover2)

include hG in
/-- The same, entry by entry. -/
theorem final2_apply (c : Dev nD) (t : Tok) (d : Feat) :
    ((dats m 0 c).arrAt 2 cfg0.N : S8192x256.Idx → EReal) (ix2 t d) = G c t d := by
  rw [final2 m G hG c]

end Output

/-! ## The two scalar results -/

/-- The last grid point. -/
theorem flush3_last : (cfg0.win 3).flush t0_15 = true := (flush0_3 t0_15).mpr rfl
theorem flush4_last : (cfg0.win 4).flush t0_15 = true := (flush0_4 t0_15).mpr rfl

/-- What a grid point that writes the first scalar back writes is its block of what the body leaves. -/
theorem flushed3_eq (c : Dev nD) (t : Fin cfg0.N) :
    (dats m 0 c).flushed 3 t = ((cfg0.win 3).blk t).view.read (Elt Ideal) (O3 m c) := by
  show (cfg0.win 3).cut (grid0.coords t) ((dats m 0 c).after 3 t) = _
  rw [after_3]
  obtain ⟨h0, h1⟩ := index_s3 t
  funext j
  rw [View.read_apply]
  show O3 m c j = O3 m c (((cfg0.win 3).blk t).view.emb j)
  congr 1
  funext a
  apply Fin.ext
  match a with
  | ⟨0, _⟩ => show (j 0).val = win0_3.index t (0 : Fin 2) * 1 + 1 * (j 0).val; rw [h0]; omega
  | ⟨1, _⟩ => show (j 1).val = win0_3.index t (1 : Fin 2) * 1 + 1 * (j 1).val; rw [h1]; omega

theorem flushed4_eq (c : Dev nD) (t : Fin cfg0.N) :
    (dats m 0 c).flushed 4 t = ((cfg0.win 4).blk t).view.read (Elt Ideal) (O4 m c) := by
  show (cfg0.win 4).cut (grid0.coords t) ((dats m 0 c).after 4 t) = _
  rw [after_4]
  obtain ⟨h0, h1⟩ := index_s4 t
  funext j
  rw [View.read_apply]
  show O4 m c j = O4 m c (((cfg0.win 4).blk t).view.emb j)
  congr 1
  funext a
  apply Fin.ext
  match a with
  | ⟨0, _⟩ => show (j 0).val = win0_4.index t (0 : Fin 2) * 1 + 1 * (j 0).val; rw [h0]; omega
  | ⟨1, _⟩ => show (j 1).val = win0_4.index t (1 : Fin 2) * 1 + 1 * (j 1).val; rw [h1]; omega

/-- The one entry of a [1, 1] array lies in the one block, which the last grid point writes back. -/
theorem cover3 (i : S1x1.Idx) : ∃ t : Fin cfg0.N, (cfg0.win 3).flush t = true ∧ i ∈ ((cfg0.win 3).blk t).view.set := by
  obtain ⟨h0, h1⟩ := index_s3 t0_15
  refine ⟨t0_15, flush3_last, ?_⟩
  show i ∈ ((View.whole main_v1_1).slice (win0_3.rect t0_15)).set
  rw [View.set_slice_whole, Rect.mem_set_unit]
  intro a
  have hi0 : (i 0).val < 1 := (i 0).isLt
  have hi1 : (i 1).val < 1 := (i 1).isLt
  match a with
  | ⟨0, _⟩ =>
    show win0_3.index t0_15 (0 : Fin 2) * 1 ≤ (i 0).val ∧ (i 0).val < win0_3.index t0_15 (0 : Fin 2) * 1 + 1
    rw [h0]; omega
  | ⟨1, _⟩ =>
    show win0_3.index t0_15 (1 : Fin 2) * 1 ≤ (i 1).val ∧ (i 1).val < win0_3.index t0_15 (1 : Fin 2) * 1 + 1
    rw [h1]; omega

theorem cover4 (i : S1x1.Idx) : ∃ t : Fin cfg0.N, (cfg0.win 4).flush t = true ∧ i ∈ ((cfg0.win 4).blk t).view.set := by
  obtain ⟨h0, h1⟩ := index_s4 t0_15
  refine ⟨t0_15, flush4_last, ?_⟩
  show i ∈ ((View.whole main_v1_2).slice (win0_4.rect t0_15)).set
  rw [View.set_slice_whole, Rect.mem_set_unit]
  intro a
  have hi0 : (i 0).val < 1 := (i 0).isLt
  have hi1 : (i 1).val < 1 := (i 1).isLt
  match a with
  | ⟨0, _⟩ =>
    show win0_4.index t0_15 (0 : Fin 2) * 1 ≤ (i 0).val ∧ (i 0).val < win0_4.index t0_15 (0 : Fin 2) * 1 + 1
    rw [h0]; omega
  | ⟨1, _⟩ =>
    show win0_4.index t0_15 (1 : Fin 2) * 1 ≤ (i 1).val ∧ (i 1).val < win0_4.index t0_15 (1 : Fin 2) * 1 + 1
    rw [h1]; omega

/-- The first scalar result's array after the run holds what the body leaves at the last grid point. -/
theorem final3 (c : Dev nD) : (dats m 0 c).arrAt 3 cfg0.N = O3 m c :=
  (dats m 0 c).arrAt_eq_of_cover 3 (O3 m c) (fun t _ => flushed3_eq m c t) cover3

/-- The second scalar result's array likewise. -/
theorem final4 (c : Dev nD) : (dats m 0 c).arrAt 4 cfg0.N = O4 m c :=
  (dats m 0 c).arrAt_eq_of_cover 4 (O4 m c) (fun t _ => flushed4_eq m c t) cover4

end Cert.VQ.KerArr

end
-- ==== Proof.KV.Tail.lean ====
/-
  The kernel's run with its three results named.

  After the region the program reshapes its three result arrays: the 8192 × 256 output to [8, 1024, 256] (row r of
  batch b is row 1024·b + r), and each [1, 1] scalar array to a scalar. Each reshape read at an entry is the array's
  entry with the same row-major position. With the arrays the region leaves (the output array the function G of the
  row's number, the scalar arrays what the body leaves at the last grid point), the results follow entry by entry; the
  two arguments end as launched.
-/
import proofs.«125548_g45775761441265_cont_8to1_c_906_26_alg».proof.Proof.KV.Arrays
import proofs.«125548_g45775761441265_cont_8to1_c_906_26_alg».proof.Proof.KI.Frame
import Idealize.ShloMosaic.Lib.StableHlo.Run

set_option maxRecDepth 16384

noncomputable section

namespace Cert.VQ.KerArr

open Cert.KernelIdeal Cert.KernelIdeal.Gen Cert.KernelIdeal.Body Cert.VQ
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The three reshapes after the region, read at an entry -/

/-- The [8192, 256] array read as [8, 1024, 256], row-major: row r of batch b is row 1024·b + r. -/
theorem reshape_out_apply {α : Type} (x : S8192x256.Idx → α) (h : S8192x256.ShapeCasts S8x1024x256)
    (b : Fin 8) (r : Fin 1024) (d : Feat) : shapeCast S8x1024x256 x h (ix3 b r d) = x (ix2 (tokOf b r) d) :=
  shapeCast_apply x h (ix3 b r d) (ix2 (tokOf b r) d) (by
    rewrite [Shape.rowMajor_val_two, Shape.rowMajor_val_three]
    show (1024 * b.val + r.val) * 256 + d.val = (b.val * 1024 + r.val) * 256 + d.val
    omega)

/-- A [1, 1] array read as a scalar: its one entry. -/
theorem reshape_scalar_apply {α : Type} (x : S1x1.Idx → α) (h : S1x1.ShapeCasts S_) (j : S_.Idx) :
    shapeCast S_ x h j = x (ix2 (0 : Fin 1) (0 : Fin 1)) :=
  shapeCast_apply x h j (ix2 (0 : Fin 1) (0 : Fin 1)) (by
    rewrite [Shape.rowMajor_val_two]
    show 0 * 1 + 0 = (Shape.rowMajorPi S_.size j).val
    rw [Shape.rowMajorPi_zero])

/-! ## What the program's buffers hold after the lines that follow the region -/

section Results
variable (G : Dev nD → Tok → Feat → EReal)
  (hG : ∀ (c : Dev nD) (t : Fin cfg0.N) (r : Fin 512) (d : Fin 256),
    O2 m c t (ix2 r d) = G c (tileTok ⟨t.val, lt_of_lt_of_eq t.isLt N_0⟩ r) d)

/-- The reshaped output is the reshape of the output array the region leaves. -/
theorem tail_v2 (c : Dev nD) :
    Pipeline.afterTail₀ cfgs (dats m) 0 (V0 m) [hostOps1] c main_v2
      = shapeCast S8x1024x256 ((dats m 0 c).arrAt 2 cfg0.N) shapeCasts_S8192x256_S8x1024x256 := by
  unfold Pipeline.afterTail₀
  show StableHlo.after hostOps1 _ (Proc.devRef .tc main_v2) = _
  after_results
  exact congrArg (fun x => shapeCast S8x1024x256 x shapeCasts_S8192x256_S8x1024x256)
    (Pipeline.withArrays_arr spec0 launch0.win.arr_inj c _ _ 2)

theorem tail_v3 (c : Dev nD) :
    Pipeline.afterTail₀ cfgs (dats m) 0 (V0 m) [hostOps1] c main_v3
      = shapeCast S_ ((dats m 0 c).arrAt 3 cfg0.N) shapeCasts_S1x1_S_ := by
  unfold Pipeline.afterTail₀
  show StableHlo.after hostOps1 _ (Proc.devRef .tc main_v3) = _
  after_results
  exact congrArg (fun x => shapeCast S_ x shapeCasts_S1x1_S_)
    (Pipeline.withArrays_arr spec0 launch0.win.arr_inj c _ _ 3)

theorem tail_v4 (c : Dev nD) :
    Pipeline.afterTail₀ cfgs (dats m) 0 (V0 m) [hostOps1] c main_v4
      = shapeCast S_ ((dats m 0 c).arrAt 4 cfg0.N) shapeCasts_S1x1_S_ := by
  unfold Pipeline.afterTail₀
  show StableHlo.after hostOps1 _ (Proc.devRef .tc main_v4) = _
  after_results
  exact congrArg (fun x => shapeCast S_ x shapeCasts_S1x1_S_)
    (Pipeline.withArrays_arr spec0 launch0.win.arr_inj c _ _ 4)

include hG in
/-- The first result: entry (b, r, d) is G at row 1024·b + r. -/
theorem result_v2 (c : Dev nD) :
    (Pipeline.afterTail₀ cfgs (dats m) 0 (V0 m) [hostOps1] c main_v2 : S8x1024x256.Idx → EReal)
      = fun i => G c (tokOf (i 0) (i 1)) (i 2) := by
  rw [tail_v2, final2 m G hG c]
  funext i
  obtain ⟨b, r, d, rfl⟩ : ∃ (b : Fin 8) (r : Fin 1024) (d : Fin 256), i = ix3 b r d := ⟨i 0, i 1, i 2, eq_ix3 i⟩
  exact reshape_out_apply _ _ b r d

/-- The second and third results: the one entry of what the body leaves at the last grid point. -/
theorem result_v3 (c : Dev nD) :
    (Pipeline.afterTail₀ cfgs (dats m) 0 (V0 m) [hostOps1] c main_v3 : S_.Idx → EReal)
      = fun _ => O3 m c (ix2 (0 : Fin 1) (0 : Fin 1)) := by
  rw [tail_v3, final3 m c]
  funext j
  exact reshape_scalar_apply _ _ j

theorem result_v4 (c : Dev nD) :
    (Pipeline.afterTail₀ cfgs (dats m) 0 (V0 m) [hostOps1] c main_v4 : S_.Idx → EReal)
      = fun _ => O4 m c (ix2 (0 : Fin 1) (0 : Fin 1)) := by
  rw [tail_v4, final4 m c]
  funext j
  exact reshape_scalar_apply _ _ j

include hG in
/-- THE KERNEL'S RUN: every weakly fair execution ends with the three results at these contents and the two
    arguments as launched. -/
theorem kernel_run :
    θ_run defs (onTc (τ := τ) (main (F := Ideal))) ⟨m, fun _ => 0, ρ⟩ (fun r => ∀ c : Dev nD,
      r.2.mem ((c.tc : Thread nD τ).loc main_v2) = (fun i => G c (tokOf (i 0) (i 1)) (i 2))
      ∧ r.2.mem ((c.tc : Thread nD τ).loc main_v3) = (fun _ => O3 m c (ix2 (0 : Fin 1) (0 : Fin 1)))
      ∧ r.2.mem ((c.tc : Thread nD τ).loc main_v4) = (fun _ => O4 m c (ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 (by decide) (by decide))).trans (result_v2 m G hG c),
     ((h c).2 main_v3 (Pipeline.mem_restRefs_of main_v3 (by decide) (by decide))).trans (result_v3 m c),
     ((h c).2 main_v4 (Pipeline.mem_restRefs_of main_v4 (by decide) (by decide))).trans (result_v4 m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Results

end Cert.VQ.KerArr

end
-- ==== Proof.KerPrep.lean ====
/-
  The codebook preparation read one entry at a time over the extended reals.

  From the codebook block e (8192 codes × 256 features) the first grid point keeps three arrays: the block itself in the
  sixteen-bit format (a change of format is the identity on the extended reals), the transposed block added to itself
  (256 × 8192: entry (d, n) is e (n, d) + e (n, d)), and the row of squared norms (1 × 8192: entry (0, n) is the sum over the
  features d of e (n, d) · e (n, d), the transposed block squared entrywise and summed along its first axis from zero).
-/
import proofs.«125548_g45775761441265_cont_8to1_c_906_26_alg».proof.Proof.Gen.KernelIdeal.Skeleton
import proofs.«125548_g45775761441265_cont_8to1_c_906_26_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.VQ.Ker

open Idealize.ShloMosaic Idealize.ShloMosaic.ValueIdx Cert.KernelIdeal Cert.KernelIdeal.Gen Cert.VQ

/-- A sum along the first axis of a 256 × 8192 array, started from zero, read at column n: the sum over the rows. -/
theorem colSum_apply (v : FVec Ideal S256x8192 .f32) (h : S256x8192.Reduces [0] S8192) (hφ : FKind.Formats .f32)
    (hacc : (0x00000000#32 : BitVec 32) = FKind.add.neutral .f32 hφ) (n : Fin 8192) :
    multiReduction (F := Ideal) .add [0] S8192 v 0x00000000#32 h hφ hacc (ix1 n) = ∑ d : Fin 256, v (ix2 d n) := by
  refine (Ideal.multiReduction_add_single v 0x00000000#32 h hφ hacc (ix1 n)).trans ?_
  refine Finset.sum_congr rfl fun d _ => congrArg v ?_
  funext a
  apply Fin.ext
  match a with
  | ⟨0, _⟩ => rfl
  | ⟨1, _⟩ => rfl

/-- The transposed codebook block at (d, n) is the block at (n, d). -/
theorem pay14_apply (e : Vec Ideal S8192x256 .f32) (d : Fin 256) (n : Fin 8192) :
    k0_pay14 e (ix2 d n) = e (ix2 n d) := by
  unfold k0_pay14
  exact transpose_ix2_apply e _ d n

section
variable (E : Code → Feat → EReal)

/-- The kept codebook: entry (n, d) is the codebook's. -/
theorem prep_codebook (e : Vec Ideal S8192x256 .f32) (he : ∀ n d, e (ix2 n d) = E n d) (n : Fin 8192) (d : Fin 256) :
    k0_pay15 e (ix2 n d) = E n d := by
  unfold k0_pay15
  rw [shapeCast_self]
  exact (truncf_apply e _ (ix2 n d)).trans (he n d)

/-- The doubled transposed codebook: entry (d, n) is e (n, d) + e (n, d). -/
theorem prep_doubled (e : Vec Ideal S8192x256 .f32) (he : ∀ n d, e (ix2 n d) = E n d) (d : Fin 256) (n : Fin 8192) :
    k0_pay16 e (ix2 d n) = E n d + E n d := by
  unfold k0_pay16
  rw [shapeCast_self]
  show k0_pay14 e (ix2 d n) + k0_pay14 e (ix2 d n) = _
  rw [pay14_apply, he]

/-- The row of squared norms: entry (0, n) is the squared norm of code n. -/
theorem prep_sqnorm (e : Vec Ideal S8192x256 .f32) (he : ∀ n d, e (ix2 n d) = E n d) (n : Fin 8192) :
    k0_pay17 e (ix2 (0 : Fin 1) n) = esq E n := by
  unfold k0_pay17
  rw [shapeCast_self]
  refine (shapeCast_a_1a_apply _ _ (0 : Fin 1) n).trans ?_
  refine (colSum_apply _ _ _ _ n).trans ?_
  unfold esq
  refine Finset.sum_congr rfl fun d _ => ?_
  rw [mulf_apply, pay14_apply, he]

end

end Cert.VQ.Ker

end
-- ==== Proof.LibDense.lean ====
/-
  A dense layer and a three-layer perceptron, read one output at a time over the extended reals.

  A plain product of an M×K by a K×N array into a zero accumulator is, at row r and column c, the sum over k of
  lhs (r, k) · rhs (k, c) (plain_matmul_apply); a column [M,1] stretched along the second axis reads its row's one
  entry (broadcast_col_apply). So a dense layer on a tile of T columns — the product of the weights with the tile plus
  the stretched bias — reads, in column q, the weights applied to column q alone (dense_apply): a tile's width and
  position never enter. Three such layers with a maximum against a zero after the first two are, column by column, the
  scalar function mlpAt of that column (mlpTile_apply), whatever the width of the tile and whatever formats the arrays
  are held in (a change of format is the identity on the extended reals). mlpOut is the same function laid out batch
  major: row n of the result is mlpAt of row n of the input. No program is mentioned here.
-/
import Idealize.ShloMosaic.PureOps.Ideal.Laws
import Idealize.ShloMosaic.Lib.ValueIdx
import Idealize.ShloMosaic.Lib.Pipeline.Value

noncomputable section

open scoped BigOperators

namespace LibDense

open Idealize.ShloMosaic Idealize.ShloMosaic.ValueIdx

/-- A plain M×K by K×N product into the zero accumulator, at (r, c): the sum over k of lhs (r, k) · rhs (k, c). -/
theorem plain_matmul_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c)
      = ∑ k : Fin K, lhs (ix2 r k) * rhs (ix2 k c) := by
  subst hd
  refine (Ideal.matmul_constant_zero_apply (DotDims.plain M K N) prec lhs rhs (ix2 r c)).trans ?_
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hl : (DotDims.plain M K N).lhsIdx (ix2 r c) ((contrEquiv1 (DotDims.plain M K N) K hr hs).symm k) = ix2 r k := by
    funext a
    apply Fin.ext
    match a with
    | ⟨0, _⟩ => rfl
    | ⟨1, _⟩ =>
      exact ((DotDims.plain M K N).lhsIdx_val_of_single (cl := (1 : Fin 2)) rfl _ _).trans
        (contrEquiv1_symm_val _ K hr hs k)
  have hrr : (DotDims.plain M K N).rhsIdx (ix2 r c) ((contrEquiv1 (DotDims.plain M K N) K hr hs).symm k) = ix2 k c := by
    funext a
    apply Fin.ext
    match a with
    | ⟨0, _⟩ =>
      exact ((DotDims.plain M K N).rhsIdx_val_of_single (cr := (0 : Fin 2)) rfl _ _).trans
        (contrEquiv1_symm_val _ K hr hs k)
    | ⟨1, _⟩ => rfl
  rw [hl, hrr]

/-- A column [M,1] stretched to [M,N] reads, at (r, c), the column's entry of row r. -/
theorem broadcast_col_apply {M N : ℕ} {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- One output of a dense layer: row r of the weights applied to the vector h, plus the bias of row r. -/
def denseAt {M K : ℕ} (w : (⟨2, ![M, K]⟩ : Shape).Idx → EReal) (b : (⟨2, ![M, 1]⟩ : Shape).Idx → EReal)
    (h : Fin K → EReal) (r : Fin M) : EReal :=
  (∑ k : Fin K, w (ix2 r k) * h k) + b (ix2 r (0 : Fin 1))

/-- A dense layer on a tile of T columns, read at (r, q): the layer's output r on column q of the tile. -/
theorem dense_apply {M K T : ℕ} {φ₁ φ₂ φ₃ : FTy} (d : DotDims ⟨2, ![M, K]⟩ ⟨2, ![K, T]⟩ ⟨2, ![M, T]⟩)
    (hd : d = DotDims.plain M K T) (hb : (⟨2, ![M, 1]⟩ : Shape).Broadcasts ⟨2, ![M, T]⟩)
    (w : FVec Ideal ⟨2, ![M, K]⟩ φ₁) (b : FVec Ideal ⟨2, ![M, 1]⟩ φ₃) (h : FVec Ideal ⟨2, ![K, T]⟩ φ₂)
    (r : Fin M) (q : Fin T) :
    matmul d none w h (constant ⟨2, ![M, T]⟩ .f32 0x00000000#32) (ix2 r q) + broadcastTo ⟨2, ![M, T]⟩ b hb (ix2 r q)
      = denseAt w b (fun k => h (ix2 k q)) r := by
  rw [plain_matmul_apply d hd, broadcast_col_apply]
  rfl

/-- The three-layer perceptron on one input vector x, output c: dense, maximum with zero, dense, maximum with zero, dense. -/
def mlpAt {D0 D1 D2 D3 : ℕ} (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (x : Fin D0 → EReal) (c : Fin D3) : EReal :=
  denseAt w3 b3 (fun k => max (denseAt w2 b2 (fun j => max (denseAt w1 b1 x j) 0) k) 0) c

/-- The perceptron on a feature-major tile of T columns as vector operations compute it: each layer a plain product into
    a zero accumulator plus the stretched bias, the first two followed by a maximum against a splat z. -/
def mlpTile {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, T]⟩ : Shape).Idx → EReal :=
  let h1 : FVec Ideal ⟨2, ![D1, T]⟩ .f32 :=
    maximumf (addf (matmul (φ₁ := .f32) (φ₂ := .f32) d1 none w1 x (constant ⟨2, ![D1, T]⟩ .f32 0x00000000#32)) (broadcastTo ⟨2, ![D1, T]⟩ b1 hb1))
      (broadcast ⟨2, ![D1, T]⟩ z1)
  let h2 : FVec Ideal ⟨2, ![D2, T]⟩ .f32 :=
    maximumf (addf (matmul (φ₁ := .f32) (φ₂ := .f32) d2 none w2 h1 (constant ⟨2, ![D2, T]⟩ .f32 0x00000000#32)) (broadcastTo ⟨2, ![D2, T]⟩ b2 hb2))
      (broadcast ⟨2, ![D2, T]⟩ z2)
  addf (φ := .f32) (matmul (φ₁ := .f32) (φ₂ := .f32) d3 none w3 h2 (constant ⟨2, ![D3, T]⟩ .f32 0x00000000#32)) (broadcastTo ⟨2, ![D3, T]⟩ b3 hb3)

/-- Column by column the tile computation is the scalar perceptron of that column: the tile's width never enters. -/
theorem mlpTile_apply {D0 D1 D2 D3 T : ℕ}
    (d1 : DotDims ⟨2, ![D1, D0]⟩ ⟨2, ![D0, T]⟩ ⟨2, ![D1, T]⟩) (d2 : DotDims ⟨2, ![D2, D1]⟩ ⟨2, ![D1, T]⟩ ⟨2, ![D2, T]⟩)
    (d3 : DotDims ⟨2, ![D3, D2]⟩ ⟨2, ![D2, T]⟩ ⟨2, ![D3, T]⟩)
    (hd1 : d1 = DotDims.plain D1 D0 T) (hd2 : d2 = DotDims.plain D2 D1 T) (hd3 : d3 = DotDims.plain D3 D2 T)
    (hb1 : (⟨2, ![D1, 1]⟩ : Shape).Broadcasts ⟨2, ![D1, T]⟩) (hb2 : (⟨2, ![D2, 1]⟩ : Shape).Broadcasts ⟨2, ![D2, T]⟩)
    (hb3 : (⟨2, ![D3, 1]⟩ : Shape).Broadcasts ⟨2, ![D3, T]⟩) (z1 z2 : EReal) (hz1 : z1 = 0) (hz2 : z2 = 0)
    (x : (⟨2, ![D0, T]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal)
    (c : Fin D3) (q : Fin T) :
    mlpTile d1 d2 d3 hb1 hb2 hb3 z1 z2 x w1 b1 w2 b2 w3 b3 (ix2 c q)
      = mlpAt w1 b1 w2 b2 w3 b3 (fun i => x (ix2 i q)) c := by
  subst hz1 hz2
  unfold mlpTile mlpAt
  rw [addf_apply]
  refine (dense_apply (φ₁ := .f32) (φ₂ := .f32) (φ₃ := .f32) d3 hd3 hb3 w3 b3 _ c q).trans ?_
  refine congrArg (fun f => denseAt w3 b3 f c) (funext fun k => ?_)
  rw [maximumf_apply, addf_apply, broadcast_apply]
  refine congrArg (fun v => max v 0) ?_
  refine (dense_apply (φ₁ := .f32) (φ₂ := .f32) (φ₃ := .f32) d2 hd2 hb2 w2 b2 _ k q).trans ?_
  refine congrArg (fun f => denseAt w2 b2 f k) (funext fun j => ?_)
  rw [maximumf_apply, addf_apply, broadcast_apply]
  refine congrArg (fun v => max v 0) ?_
  exact dense_apply (φ₁ := .f32) (φ₂ := .f32) (φ₃ := .f32) d1 hd1 hb1 w1 b1 x j q

/-- The perceptron batch major: row n of the result is the scalar perceptron of row n of the input. -/
def mlpOut {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![B, D3]⟩ : Shape).Idx → EReal :=
  fun i => mlpAt w1 b1 w2 b2 w3 b3 (fun k => x (ix2 (i 0 : Fin B) k)) (i 1 : Fin D3)

theorem mlpOut_apply {B D0 D1 D2 D3 : ℕ} (x : (⟨2, ![B, D0]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (n : Fin B) (c : Fin D3) :
    mlpOut x w1 b1 w2 b2 w3 b3 (ix2 n c) = mlpAt w1 b1 w2 b2 w3 b3 (fun k => x (ix2 n k)) c := rfl

/-- The perceptron feature major: column n of the result is the scalar perceptron of column n of the input. -/
def mlpOutT {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) :
    (⟨2, ![D3, B]⟩ : Shape).Idx → EReal :=
  fun i => mlpAt w1 b1 w2 b2 w3 b3 (fun k => xT (ix2 k (i 1 : Fin B))) (i 0 : Fin D3)

theorem mlpOutT_apply {B D0 D1 D2 D3 : ℕ} (xT : (⟨2, ![D0, B]⟩ : Shape).Idx → EReal)
    (w1 : (⟨2, ![D1, D0]⟩ : Shape).Idx → EReal) (b1 : (⟨2, ![D1, 1]⟩ : Shape).Idx → EReal)
    (w2 : (⟨2, ![D2, D1]⟩ : Shape).Idx → EReal) (b2 : (⟨2, ![D2, 1]⟩ : Shape).Idx → EReal)
    (w3 : (⟨2, ![D3, D2]⟩ : Shape).Idx → EReal) (b3 : (⟨2, ![D3, 1]⟩ : Shape).Idx → EReal) (c : Fin D3) (n : Fin B) :
    mlpOutT xT w1 b1 w2 b2 w3 b3 (ix2 c n) = mlpAt w1 b1 w2 b2 w3 b3 (fun k => xT (ix2 k n)) c := rfl

/-- The word of all zero bits denotes zero in the sixteen-bit format too. -/
theorem ofBits_zero_bf16 : Ideal.ofBits .bf16 0x0000#16 = 0 := by simp [Ideal.ofBits, Ideal.ieee]

end LibDense

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.KerTile.lean ====
/-
  One row of a tile of 512 tokens, read one entry at a time over the extended reals.

  With the row of squared norms, the doubled transposed codebook and the codebook at hand, row r of the tile depends only on
  row r of the tokens x: its logits are the row of x times the doubled transposed codebook minus the squared norms; its
  largest logit is the fold of max from the bottom element; its unnormalised weights are the exponentials of the logits
  minus the largest; the weights are those times the quotient of one by their row sum; the quantized row is the weights
  times the codebook; then the difference to x, x plus the difference, and the squared difference. A change of number
  format is the identity on the extended reals and a sum started from the word of zero is the plain sum.
-/
import proofs.«125548_g45775761441265_cont_8to1_c_906_26_alg».proof.Proof.Gen.KernelIdeal.Skeleton
import proofs.«125548_g45775761441265_cont_8to1_c_906_26_alg».proof.Proof.Spec
import proofs.«125548_g45775761441265_cont_8to1_c_906_26_alg».proof.Proof.LibDense
import proofs.«125548_g45775761441265_cont_8to1_c_906_26_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.VQ.Ker

open Idealize.ShloMosaic Idealize.ShloMosaic.ValueIdx Cert.KernelIdeal Cert.KernelIdeal.Gen Cert.VQ

/-! ## Row reductions of a 512 × 8192 array -/

/-- Row r with the column k put back is the entry (r, k). -/
theorem rowLift (h : S512x8192.Reduces [1] S512) (r : Fin 512) (k : Fin 8192) : h.lift (ix1 r) k = ix2 r k := by
  funext a
  apply Fin.ext
  match a with
  | ⟨0, _⟩ => rfl
  | ⟨1, _⟩ => rfl

/-- A sum along the rows started from zero, read at row r: the sum over the columns. -/
theorem rowSum_apply (v : FVec Ideal S512x8192 .f32) (h : S512x8192.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ n : Fin 8192, v (ix2 r n) := by
  refine (Ideal.multiReduction_add_single v 0x00000000#32 h hφ hacc (ix1 r)).trans ?_
  exact Finset.sum_congr rfl fun k _ => congrArg v (rowLift h r k)

/-- A maximum along the rows started from minus infinity, read at row r: the fold of max from the bottom element. -/
theorem rowMax_apply (v : FVec Ideal S512x8192 .f32) (h : S512x8192.Reduces [1] S512) (hφ : FKind.Formats .f32)
    (hacc : (0xFF800000#32 : BitVec 32) = FKind.maximumf.neutral .f32 hφ) (r : Fin 512) :
    multiReduction (F := Ideal) .maximumf [1] S512 v 0xFF800000#32 h hφ hacc (ix1 r) = rowMax fun n => v (ix2 r n) := by
  refine (Ideal.multiReduction_maximumf_single v 0xFF800000#32 h hφ hacc (ix1 r)).trans ?_
  have e1 : (FloatOps.ofBits (F := Ideal) .f32 0xFF800000#32 : EReal) = ⊥ := Cert.Gcn.ofBits_negInf_f32
  have e2 : (v ∘ h.lift (ix1 r) : Fin 8192 → EReal) = fun n : Fin 8192 => v (ix2 r n) :=
    funext fun k => congrArg v (rowLift h r k)
  exact congrArg₂ (fun (b : EReal) (f : Fin 8192 → EReal) => (Finset.univ : Finset (Fin 8192)).fold max b f) e1 e2

/-- The exponential of an array at an index is the exponential of the entry. -/
theorem vexp_apply {s : Shape} (v : FVec Ideal s .f32) (i : s.Idx) : exp v i = Ideal.exp (v i) := rfl

/-! ## The softmax of one row of an array of logits -/

/-- The weights of row r of an array of logits whose row r is L: the exponential of the logit minus the row's largest, times
    the quotient of one by the row sum of those exponentials. -/
theorem softmaxRow_apply (lg : FVec Ideal S512x8192 .f32) (L : Code → EReal) (r : Fin 512) (hl : ∀ n, lg (ix2 r n) = L n)
    (h : S512x8192.Reduces [1] S512) (hc : S512.ShapeCasts S512x1) (hb : S512x1.Broadcasts S512x8192)
    (hφ : FKind.Formats .f32) (hmx : (0xFF800000#32 : BitVec 32) = FKind.maximumf.neutral .f32 hφ)
    (hφ' : FKind.Formats .f32) (hsm : (0x00000000#32 : BitVec 32) = FKind.add.neutral .f32 hφ') (n : Fin 8192) :
    mulf (F := Ideal)
        (exp (subf lg (broadcastTo S512x8192 (shapeCast S512x1 (multiReduction (F := Ideal) .maximumf [1] S512 lg 0xFF800000#32 h hφ hmx) hc) hb)))
        (broadcastTo S512x8192
          (divf (broadcast S512x1 (Scalar.ofBits (F := Ideal) .f32 0x3F800000#32))
            (shapeCast S512x1
              (multiReduction (F := Ideal) .add [1] S512
                (exp (subf lg (broadcastTo S512x8192 (shapeCast S512x1 (multiReduction (F := Ideal) .maximumf [1] S512 lg 0xFF800000#32 h hφ hmx) hc) hb)))
                0x00000000#32 h hφ' hsm) hc)) hb) (ix2 r n)
      = Ideal.exp (L n - rowMax L) * Ideal.div (w 0x3F800000#32) (∑ k, Ideal.exp (L k - rowMax L)) := by
  have hmax : shapeCast S512x1 (multiReduction (F := Ideal) .maximumf [1] S512 lg 0xFF800000#32 h hφ hmx) hc (ix2 r (0 : Fin 1))
      = rowMax L := by
    refine (Cert.Gcn.shapeCast_a_a1_apply _ hc r (0 : Fin 1)).trans ?_
    refine (rowMax_apply lg h hφ hmx r).trans ?_
    exact congrArg rowMax (funext hl)
  have hp : ∀ k : Fin 8192,
      exp (subf lg (broadcastTo S512x8192 (shapeCast S512x1 (multiReduction (F := Ideal) .maximumf [1] S512 lg 0xFF800000#32 h hφ hmx) hc) hb)) (ix2 r k)
        = Ideal.exp (L k - rowMax L) := by
    intro k
    rw [vexp_apply, subf_apply, Cert.Gcn.broadcastTo_a1_ab_apply, hmax, hl]
  have hs : shapeCast S512x1
      (multiReduction (F := Ideal) .add [1] S512
        (exp (subf lg (broadcastTo S512x8192 (shapeCast S512x1 (multiReduction (F := Ideal) .maximumf [1] S512 lg 0xFF800000#32 h hφ hmx) hc) hb)))
        0x00000000#32 h hφ' hsm) hc (ix2 r (0 : Fin 1)) = ∑ k, Ideal.exp (L k - rowMax L) := by
    refine (Cert.Gcn.shapeCast_a_a1_apply _ hc r (0 : Fin 1)).trans ?_
    refine (rowSum_apply _ h hφ' hsm r).trans ?_
    exact Finset.sum_congr rfl fun k _ => hp k
  rw [mulf_apply, hp n, Cert.Gcn.broadcastTo_a1_ab_apply, divf_apply, broadcast_apply, hs]
  rfl

/-! ## The tile's row -/

/-- The tile in the sixteen-bit format is the tile. -/
theorem pay18_apply (x : Vec Ideal S512x256 .f32) (r : Fin 512) (d : Fin 256) : k0_pay18 x (ix2 r d) = x (ix2 r d) := by
  unfold k0_pay18
  rw [shapeCast_self]

theorem pay19_apply (x : Vec Ideal S512x256 .f32) (r : Fin 512) (d : Fin 256) : k0_pay19 x (ix2 r d) = x (ix2 r d) := by
  unfold k0_pay19
  exact pay18_apply x r d

section
variable (X : Tok → Feat → EReal) (E : Code → Feat → EReal)

/-- The tile's row r in the sixteen-bit format is the token's row. -/
theorem tile_x (x : Vec Ideal S512x256 .f32) (t : Tok) (r : Fin 512) (hx : ∀ d, x (ix2 r d) = X t d) (d : Fin 256) :
    k0_pay19 x (ix2 r d) = X t d := (pay19_apply x r d).trans (hx d)

/-- The logits of row r: the token times the doubled codebook minus the squared norms. -/
theorem tile_logits (x : Vec Ideal S512x256 .f32) (s2 : Vec Ideal S1x8192 .f32) (s1 : Vec Ideal S256x8192 .bf16)
    (t : Tok) (r : Fin 512) (hx : ∀ d, x (ix2 r d) = X t d) (h2 : ∀ n, s2 (ix2 (0 : Fin 1) n) = esq E n)
    (h1 : ∀ d n, s1 (ix2 d n) = E n d + E n d) (n : Fin 8192) :
    subf (F := Ideal)
        (matmul (φ₁ := .bf16) (φ₂ := .bf16) dot_S512x256_S256x8192_S512x8192_1_0_0_1_n_n none (k0_pay19 x) s1 (constant S512x8192 .f32 0x00000000#32))
        (broadcastTo S512x8192 s2 broadcasts_S1x8192_S512x8192) (ix2 r n)
      = lgK X E t n := by
  rw [subf_apply, broadcastTo_1b_ab_apply, h2]
  unfold lgK
  refine congrArg (· - esq E n) ?_
  refine (LibDense.plain_matmul_apply (φ₁ := .bf16) (φ₂ := .bf16) _ rfl none (k0_pay19 x) s1 r n).trans ?_
  refine Finset.sum_congr rfl fun d _ => ?_
  rw [pay19_apply, hx, h1]

/-- The weights of row r. -/
theorem tile_enc (x : Vec Ideal S512x256 .f32) (s2 : Vec Ideal S1x8192 .f32) (s1 : Vec Ideal S256x8192 .bf16)
    (t : Tok) (r : Fin 512) (hx : ∀ d, x (ix2 r d) = X t d) (h2 : ∀ n, s2 (ix2 (0 : Fin 1) n) = esq E n)
    (h1 : ∀ d n, s1 (ix2 d n) = E n d + E n d) (n : Fin 8192) :
    k0_pay20 x s2 s1 (ix2 r n) = encK X E t n := by
  unfold k0_pay20
  exact softmaxRow_apply _ (lgK X E t) r (tile_logits X E x s2 s1 t r hx h2 h1) _ _ _ _ _ _ _ n

/-- The quantized row minus the token's row. -/
theorem tile_diff (x : Vec Ideal S512x256 .f32) (s2 : Vec Ideal S1x8192 .f32) (s1 : Vec Ideal S256x8192 .bf16)
    (s0 : Vec Ideal S8192x256 .bf16) (t : Tok) (r : Fin 512) (hx : ∀ d, x (ix2 r d) = X t d)
    (h2 : ∀ n, s2 (ix2 (0 : Fin 1) n) = esq E n) (h1 : ∀ d n, s1 (ix2 d n) = E n d + E n d)
    (h0 : ∀ n d, s0 (ix2 n d) = E n d) (d : Fin 256) :
    k0_pay21 x s2 s1 s0 (ix2 r d) = quant E (encK X E) t d - X t d := by
  unfold k0_pay21
  rw [subf_apply, pay18_apply, hx]
  refine congrArg (· - X t d) ?_
  refine (LibDense.plain_matmul_apply (φ₁ := .bf16) (φ₂ := .bf16) _ rfl none (k0_pay20 x s2 s1) s0 r d).trans ?_
  unfold quant
  refine Finset.sum_congr rfl fun n _ => ?_
  rw [tile_enc X E x s2 s1 t r hx h2 h1 n, h0]

/-- The output row: the token's row plus the difference. -/
theorem tile_out (x : Vec Ideal S512x256 .f32) (s2 : Vec Ideal S1x8192 .f32) (s1 : Vec Ideal S256x8192 .bf16)
    (s0 : Vec Ideal S8192x256 .bf16) (t : Tok) (r : Fin 512) (hx : ∀ d, x (ix2 r d) = X t d)
    (h2 : ∀ n, s2 (ix2 (0 : Fin 1) n) = esq E n) (h1 : ∀ d n, s1 (ix2 d n) = E n d + E n d)
    (h0 : ∀ n d, s0 (ix2 n d) = E n d) (d : Fin 256) :
    k0_pay22 x s2 s1 s0 (ix2 r d) = outv X E (encK X E) t d := by
  unfold k0_pay22
  rw [addf_apply, pay18_apply, hx, tile_diff X E x s2 s1 s0 t r hx h2 h1 h0 d]
  rfl

/-- The squared difference of row r, in the layout with a leading unit axis. -/
theorem tile_sq (x : Vec Ideal S512x256 .f32) (s2 : Vec Ideal S1x8192 .f32) (s1 : Vec Ideal S256x8192 .bf16)
    (s0 : Vec Ideal S8192x256 .bf16) (t : Tok) (r : Fin 512) (hx : ∀ d, x (ix2 r d) = X t d)
    (h2 : ∀ n, s2 (ix2 (0 : Fin 1) n) = esq E n) (h1 : ∀ d n, s1 (ix2 d n) = E n d + E n d)
    (h0 : ∀ n d, s0 (ix2 n d) = E n d) (d : Fin 256) :
    k0_pay24 x s2 s1 s0 (ix3 (0 : Fin 1) r d)
      = (quant E (encK X E) t d - X t d) * (quant E (encK X E) t d - X t d) := by
  unfold k0_pay24
  refine (shapeCast_ab_1ab_apply _ _ (0 : Fin 1) r d).trans ?_
  rw [mulf_apply, tile_diff X E x s2 s1 s0 t r hx h2 h1 h0 d]

end

end Cert.VQ.Ker

end
-- ==== Proof.KerAcc.lean ====
/-
  The kernel's two running sums, read one entry at a time over the extended reals.

  The squared-error cell starts from zero at the first tile and afterwards from what the cell held; each tile adds the
  sum of its 512 × 256 squared differences. The weighted-sum table [264, 8192] likewise starts from zero at the first
  tile; each tile adds, at row j and code n, the sum over the tile's 512 rows of (row j of the tile's tokens, laid
  side by side with eight columns of ones) times the weight of code n: rows 0 … 255 accumulate Σ_r x(r, j) · enc(r, n),
  rows 256 … 263 accumulate Σ_r enc(r, n). At the first tile neither result depends on what the cell or the table held.
-/
import proofs.«125548_g45775761441265_cont_8to1_c_906_26_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.VQ.Ker

open Idealize.ShloMosaic Idealize.ShloMosaic.ValueIdx Cert.KernelIdeal Cert.KernelIdeal.Gen

/-! ## Words -/

/-- Comparing a 32-bit word for equality with the zero word gives the bit 1 exactly at the zero word. -/
theorem cmpi_eq_zero (a : BitVec 32) : Scalar.cmpi .eq a 0#32 = if a = 0#32 then 1#1 else 0#1 := by
  unfold Scalar.cmpi IntOp.cmpi
  by_cases h : a = 0#32
  · subst h; rfl
  · rw [if_neg h]
    have hb : (a == 0#32) = false := by rw [beq_eq_false_iff_ne]; exact h
    rw [hb]; rfl

/-- A number below 16 written as a 32-bit word is the zero word only when it is zero. -/
theorem ofNat_eq_zero_iff (n : ℕ) (hn : n < 16) : BitVec.ofNat 32 n = 0#32 ↔ n = 0 := by
  constructor
  · intro h
    have h' := congrArg BitVec.toNat h
    simp at h'
    omega
  · rintro rfl; rfl

/-- The bf16 word 0x3F80 is one. -/
theorem ofBits_one_bf16 : Ideal.ofBits .bf16 0x3F80#16 = 1 := by
  simp [Ideal.ofBits, Ideal.ieee]
  norm_num [← EReal.coe_mul]

/-! ## The squared-error cell -/

section AnyF
variable {F : FTy → Type} [FloatOps F]

/-- At the first tile the cell's start value is the zero splat, whatever the cell held. -/
theorem pay23_first (i : grid0.Coords) (h : (i 0).val = 0) (a : Vec F S1x1 .f32) :
    k0_pay23 i a = broadcast S1x1 (Scalar.ofBits (F := F) .f32 0x00000000#32) := by
  unfold k0_pay23
  show Scalar.select (Scalar.cmpi .eq (BitVec.ofNat 32 (i 0).val) 0#32) _ a = _
  rw [cmpi_eq_zero, if_pos ((ofNat_eq_zero_iff _ (i 0).isLt).mpr h)]
  exact select_one _ _

/-- So at the first tile it does not depend on what the cell held. -/
theorem pay23_junk (i : grid0.Coords) (h : (i 0).val = 0) (a b : Vec F S1x1 .f32) : k0_pay23 i a = k0_pay23 i b :=
  (pay23_first i h a).trans (pay23_first i h b).symm

/-- At a later tile the start value is what the cell held. -/
theorem pay23_later (i : grid0.Coords) (h : (i 0).val ≠ 0) (a : Vec F S1x1 .f32) : k0_pay23 i a = a := by
  unfold k0_pay23
  show Scalar.select (Scalar.cmpi .eq (BitVec.ofNat 32 (i 0).val) 0#32) _ a = _
  rw [cmpi_eq_zero, if_neg (fun e => h ((ofNat_eq_zero_iff _ (i 0).isLt).mp e))]
  exact select_zero _ _

end AnyF

/-- The cell's start value at its one index: zero at the first tile, afterwards what the cell held. -/
theorem pay23_apply (i : grid0.Coords) (v31 : Vec Ideal S1x1 .f32) :
    k0_pay23 (F := Ideal) i v31 (ix2 0 0) = if (i 0).val = 0 then 0 else v31 (ix2 0 0) := by
  by_cases h : (i 0).val = 0
  · rw [if_pos h, pay23_first i h v31, broadcast_apply]
    exact Ideal.ofBits_zero_f32
  · rw [if_neg h, pay23_later i h v31]

/-! ## Sums over a rank-3 index set -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over the two trailing axes of a [1, A, B] array, read at the one index of the result: the iterated sum of
    the entries. -/
theorem reduce_tail_total {A B : ℕ} (src : FVec Ideal ⟨3, ![1, A, B]⟩ .f32)
    (h : (⟨3, ![1, A, B]⟩ : Shape).Reduces [1, 2] S1) (hφ : FKind.Formats .f32)
    (hacc : (0x00000000#32 : BitVec 32) = 0x00000000#32) (j : S1.Idx) :
    multiReduction (F := Ideal) .add [1, 2] S1 src 0x00000000#32 h hφ hacc j
      = ∑ a : Fin A, ∑ b : Fin B, src (ix3 0 a b) := by
  refine (Ideal.multiReduction_add_total src 0x00000000#32 h (fun b => ?_) hφ hacc j).trans ?_
  · match b with
    | ⟨0, _⟩ => rfl
  · rw [sum_idx3, Fin.sum_univ_one]

/-- The same sum after the result [1] is viewed as [1, 1, 1] and its one entry taken out. -/
theorem reduce_tail_scalar {A B : ℕ} (src : FVec Ideal ⟨3, ![1, A, B]⟩ .f32)
    (h : (⟨3, ![1, A, B]⟩ : Shape).Reduces [1, 2] S1) (hφ : FKind.Formats .f32)
    (hacc : (0x00000000#32 : BitVec 32) = 0x00000000#32) (hc1 : S1.ShapeCasts S1x1x1)
    (hp : ∀ a, (![0, 0, 0] : Fin 3 → Nat) a < S1x1x1.size a) :
    extractAt ![0, 0, 0] (shapeCast S1x1x1 (multiReduction (F := Ideal) .add [1, 2] S1 src 0x00000000#32 h hφ hacc) hc1) hp
      = ∑ a : Fin A, ∑ b : Fin B, src (ix3 0 a b) :=
  reduce_tail_total src h hφ hacc _

/-- The cell after a tile: its start value plus the sum of the tile's 512 × 256 entries. -/
theorem pay1_apply (v33 : FVec Ideal S1x1 .f32) (v35 : FVec Ideal S1x512x256 .f32) :
    k0_pay1 v33 v35 (ix2 0 0) = v33 (ix2 0 0) + ∑ r : Fin 512, ∑ d : Fin 256, v35 (ix3 0 r d) := by
  unfold k0_pay1
  rw [addf_apply, broadcast_apply]
  exact congrArg (v33 (ix2 0 0) + ·) (reduce_tail_scalar v35 _ _ _ _ _)

/-- What is stored back into the cell is that value. -/
theorem pay2_eq {F : FTy → Type} [FloatOps F] (v33 : FVec F S1x1 .f32) (v35 : FVec F S1x512x256 .f32) :
    k0_pay2 v33 v35 = k0_pay1 v33 v35 := by
  unfold k0_pay2
  exact shapeCast_self _ _

theorem pay2_apply (v33 : FVec Ideal S1x1 .f32) (v35 : FVec Ideal S1x512x256 .f32) :
    k0_pay2 v33 v35 (ix2 0 0) = v33 (ix2 0 0) + ∑ r : Fin 512, ∑ d : Fin 256, v35 (ix3 0 r d) := by
  rw [pay2_eq, pay1_apply]

/-! ## The weighted-sum table -/

/-- The dimension numbers of the table's product: the rows of both operands are contracted. -/
abbrev DW : DotDims S512x264 S512x8192 S264x8192 := dot_S512x264_S512x8192_S264x8192_0_0_1_1_n_n

/-- A 512 × 256 tile laid side by side with eight columns of one constant, at (r, j). -/
theorem concat_const_apply (v5 : FVec Ideal S512x256 .bf16) (c : Ideal .bf16)
    (h : Shape.Concatenates [S512x256, S512x8] S512x264 1) (r : Fin 512) (j : Fin 264) :
    concatenate S512x264 1 [⟨S512x256, v5⟩, ⟨S512x8, broadcast S512x8 c⟩] h (ix2 r j)
      = if hj : j.val < 256 then v5 (ix2 r ⟨j.val, hj⟩) else c := by
  by_cases hj : j.val < 256
  · rw [dif_pos hj]
    refine concatenate_pair_apply_left 1 v5 _ h (ix2 r j) rfl (ix2 r ⟨j.val, hj⟩) fun b => ?_
    match b with
    | ⟨0, _⟩ => rfl
    | ⟨1, _⟩ => rfl
  · rw [dif_neg hj]
    have hjB : j.val - 256 < 8 := by have := j.isLt; omega
    refine (concatenate_pair_apply_right 1 v5 _ h (ix2 r j) rfl rfl (ix2 r ⟨j.val - 256, hjB⟩) (fun b hb => ?_) ?_).trans rfl
    · match b with
      | ⟨0, _⟩ => rfl
      | ⟨1, _⟩ => exact absurd rfl hb
    · show (j.val - 256) + 256 = j.val
      omega

/-- A product that contracts the 512 rows of both operands, into the zero accumulator, at (j, n): the sum over the
    rows r of lhs (r, j) · rhs (r, n). -/
theorem matmul_rows_apply (lhs : FVec Ideal S512x264 .bf16) (rhs : FVec Ideal S512x8192 .bf16) (j : Fin 264) (n : Fin 8192) :
    matmul DW none lhs rhs (constant (F := Ideal) S264x8192 .f32 0x00000000#32) (ix2 j n)
      = ∑ r : Fin 512, lhs (ix2 r j) * rhs (ix2 r n) := by
  refine (Ideal.matmul_constant_zero_apply DW none lhs rhs (ix2 j n)).trans ?_
  have hr : DW.contr.rank = 1 := rfl
  have hs : DW.contr.size ⟨0, by omega⟩ = 512 := rfl
  rw [← Equiv.sum_comp (contrEquiv1 DW 512 hr hs).symm]
  refine Finset.sum_congr rfl fun k _ => ?_
  have hl : DW.lhsIdx (ix2 j n) ((contrEquiv1 DW 512 hr hs).symm k) = ix2 k j := by
    funext a
    apply Fin.ext
    match a with
    | ⟨0, _⟩ =>
      exact (DW.lhsIdx_val_of_single (cl := (0 : Fin 2)) rfl _ _).trans (contrEquiv1_symm_val _ 512 hr hs k)
    | ⟨1, _⟩ => rfl
  have hrr : DW.rhsIdx (ix2 j n) ((contrEquiv1 DW 512 hr hs).symm k) = ix2 k n := by
    funext a
    apply Fin.ext
    match a with
    | ⟨0, _⟩ =>
      exact (DW.rhsIdx_val_of_single (cr := (0 : Fin 2)) rfl _ _).trans (contrEquiv1_symm_val _ 512 hr hs k)
    | ⟨1, _⟩ => rfl
  rw [hl, hrr]

/-- The table after a tile, at row j and code n: zero at the first tile and otherwise what the table held, plus the sum
    over the tile's rows r of (the token entry x(r, j) for j below 256, one for the eight last rows) times the weight
    of code n in row r. -/
theorem pay3_apply (arg0 : BitVec 32) (v5 : FVec Ideal S512x256 .bf16) (v24 : FVec Ideal S512x8192 .bf16)
    (v47 : Vec Ideal S264x8192 .f32) (j : Fin 264) (n : Fin 8192) :
    k0_pay3 arg0 v5 v24 v47 (ix2 j n)
      = (if arg0 = 0#32 then 0 else v47 (ix2 j n))
        + ∑ r : Fin 512, (if h : j.val < 256 then v5 (ix2 r ⟨j.val, h⟩) else 1) * v24 (ix2 r n) := by
  unfold k0_pay3
  show (Scalar.select (Scalar.cmpi .eq arg0 0#32)
          (broadcast S264x8192 (Scalar.ofBits (F := Ideal) .f32 0x00000000#32)) v47) (ix2 j n)
      + matmul DW none
          (concatenate S512x264 1 [⟨S512x256, v5⟩, ⟨S512x8, broadcast S512x8 (Scalar.ofBits (F := Ideal) .bf16 0x3F80#16)⟩] _)
          v24 (constant (F := Ideal) S264x8192 .f32 0x00000000#32) (ix2 j n) = _
  rw [matmul_rows_apply, cmpi_eq_zero]
  congr 1
  · by_cases h : arg0 = 0#32
    · rw [if_pos h, if_pos h, select_one, broadcast_apply]
      exact Ideal.ofBits_zero_f32
    · rw [if_neg h, if_neg h, select_zero]
  · refine Finset.sum_congr rfl fun r _ => ?_
    rw [concat_const_apply]
    have h1 : Scalar.ofBits (F := Ideal) .bf16 0x3F80#16 = (1 : EReal) := ofBits_one_bf16
    rw [h1]

/-- Rows 0 … 255 of the table after a tile accumulate Σ_r x(r, d) · enc(r, n). -/
theorem pay3_apply_lo (arg0 : BitVec 32) (v5 : FVec Ideal S512x256 .bf16) (v24 : FVec Ideal S512x8192 .bf16)
    (v47 : Vec Ideal S264x8192 .f32) (d : Fin 256) (n : Fin 8192) :
    k0_pay3 arg0 v5 v24 v47 (ix2 ⟨d.val, by have := d.isLt; omega⟩ n)
      = (if arg0 = 0#32 then 0 else v47 (ix2 ⟨d.val, by have := d.isLt; omega⟩ n))
        + ∑ r : Fin 512, v5 (ix2 r d) * v24 (ix2 r n) := by
  rw [pay3_apply]
  refine congrArg _ (Finset.sum_congr rfl fun r _ => ?_)
  rw [dif_pos (show (⟨d.val, by have := d.isLt; omega⟩ : Fin 264).val < 256 from d.isLt)]

/-- Row 256 of the table after a tile accumulates Σ_r enc(r, n). -/
theorem pay3_apply_ones (arg0 : BitVec 32) (v5 : FVec Ideal S512x256 .bf16) (v24 : FVec Ideal S512x8192 .bf16)
    (v47 : Vec Ideal S264x8192 .f32) (n : Fin 8192) :
    k0_pay3 arg0 v5 v24 v47 (ix2 ⟨256, by norm_num⟩ n)
      = (if arg0 = 0#32 then 0 else v47 (ix2 ⟨256, by norm_num⟩ n)) + ∑ r : Fin 512, v24 (ix2 r n) := by
  rw [pay3_apply]
  refine congrArg _ (Finset.sum_congr rfl fun r _ => ?_)
  have h : ¬ ((⟨256, by norm_num⟩ : Fin 264).val < 256) := by norm_num
  rw [dif_neg h, one_mul]

section AnyF
variable {F : FTy → Type} [FloatOps F]

/-- What is stored back into the table is that value. -/
theorem pay4_eq (arg0 : BitVec 32) (v5 : FVec F S512x256 .bf16) (v24 : FVec F S512x8192 .bf16) (v47 : Vec F S264x8192 .f32) :
    k0_pay4 arg0 v5 v24 v47 = k0_pay3 arg0 v5 v24 v47 := by
  unfold k0_pay4
  exact shapeCast_self _ _

/-- At the first tile the table after the tile does not depend on what the table held. -/
theorem pay3_junk (v5 : FVec F S512x256 .bf16) (v24 : FVec F S512x8192 .bf16) (a b : Vec F S264x8192 .f32) :
    k0_pay3 0#32 v5 v24 a = k0_pay3 0#32 v5 v24 b := by
  unfold k0_pay3
  show addf (Scalar.select (Scalar.cmpi .eq (0#32 : BitVec 32) 0#32) _ a) _
      = addf (Scalar.select (Scalar.cmpi .eq (0#32 : BitVec 32) 0#32) _ b) _
  rw [cmpi_eq_zero, if_pos rfl, select_one, select_one]

theorem pay4_junk (v5 : FVec F S512x256 .bf16) (v24 : FVec F S512x8192 .bf16) (a b : Vec F S264x8192 .f32) :
    k0_pay4 0#32 v5 v24 a = k0_pay4 0#32 v5 v24 b := by
  rw [pay4_eq, pay4_eq, pay3_junk v5 v24 a b]

end AnyF

theorem pay4_apply (arg0 : BitVec 32) (v5 : FVec Ideal S512x256 .bf16) (v24 : FVec Ideal S512x8192 .bf16)
    (v47 : Vec Ideal S264x8192 .f32) (j : Fin 264) (n : Fin 8192) :
    k0_pay4 arg0 v5 v24 v47 (ix2 j n)
      = (if arg0 = 0#32 then 0 else v47 (ix2 j n))
        + ∑ r : Fin 512, (if h : j.val < 256 then v5 (ix2 r ⟨j.val, h⟩) else 1) * v24 (ix2 r n) := by
  rw [pay4_eq, pay3_apply]

end Cert.VQ.Ker

end
-- ==== Proof.KV.Accum.lean ====
/-
  The running totals over the sixteen tiles and what they amount to after the last tile.

  The token matrix is cut into sixteen tiles of 512 consecutive rows; tile k, row r is token 512·k + r. The codebook
  scratch prepared at the first tile holds the codebook, its doubled transpose and its squared norms, so every tile's rows
  are the rows of the soft quantizer at the tile's tokens. The table [264, 8192] starts from zero at the first tile and
  gains, at row j and code n, the sum over the tile's rows of (feature j of the token, or one for the last eight rows)
  times the weight of code n; after the last tile row 256 holds the column sums of the weights and rows 0 … 255 hold
  Σ_t x(t, d) · enc(t, n). The squared-error cell starts from zero and gains each tile's sum of squared differences; after
  the last tile it holds the total squared error.
-/
import proofs.«125548_g45775761441265_cont_8to1_c_906_26_alg».proof.Proof.KI.State
import proofs.«125548_g45775761441265_cont_8to1_c_906_26_alg».proof.Proof.KerPrep
import proofs.«125548_g45775761441265_cont_8to1_c_906_26_alg».proof.Proof.KerTile
import proofs.«125548_g45775761441265_cont_8to1_c_906_26_alg».proof.Proof.KerAcc
import proofs.«125548_g45775761441265_cont_8to1_c_906_26_alg».proof.Proof.Laws1

set_option maxRecDepth 16384

noncomputable section

open scoped BigOperators

namespace Cert.VQ.KerAcc

open Idealize.ShloMosaic Idealize.ShloMosaic.ValueIdx Idealize.ShloMosaic.TcCoe Idealize.SL Idealize.SL.Sem
open Cert.KernelIdeal Cert.KernelIdeal.Gen Cert.KernelIdeal.Body Cert.VQ Cert.VQ.Ker

/-! ## Tiles and grid points -/

/-- Row r of tile k, the tile number read modulo sixteen (so that it is defined for every natural k). -/
def tk (k : ℕ) (r : Fin 512) : Tok := tileTok ⟨k % 16, Nat.mod_lt _ (by norm_num)⟩ r

theorem tk_lt (k : ℕ) (h : k < 16) (r : Fin 512) : tk k r = tileTok ⟨k, h⟩ r := by
  unfold tk
  exact congrArg (fun q => tileTok q r) (Fin.ext (Nat.mod_eq_of_lt h))

theorem tk_fin (k : Fin 16) (r : Fin 512) : tk k.val r = tileTok k r := tk_lt k.val k.isLt r

/-- The grid has one axis and its coordinate is the point's number. -/
theorem coord0 : ∀ t : Fin cfg0.N, ((grid0.coords t) 0).val = t.val :=
  (by decide +kernel : ∀ t : Fin grid0.N, ((grid0.coords t) 0).val = t.val)

theorem arg0_first (h : 0 < cfg0.N) : arg0At ⟨0, h⟩ = 0#32 := by
  unfold arg0At
  rw [coord0]

theorem arg0_later (k : ℕ) (h : k + 1 < cfg0.N) : ¬ arg0At ⟨k + 1, h⟩ = 0#32 := by
  unfold arg0At
  rw [coord0]
  intro e
  have := (ofNat_eq_zero_iff (k + 1) (lt_of_lt_of_eq h N_0)).mp e
  omega

/-! ## One tile's contributions, as functions of the tile number -/

section terms
variable (X : Tok → Feat → EReal) (E : Code → Feat → EReal)

/-- What tile k adds to the table at row j and code n. -/
def dwTerm (j : Fin 264) (n' : Fin 8192) (k : ℕ) : EReal :=
  ∑ r : Fin 512, (if hj : j.val < 256 then X (tk k r) ⟨j.val, hj⟩ else 1) * encK X E (tk k r) n'

/-- What tile k adds to the squared-error cell. -/
def sqTerm (k : ℕ) : EReal :=
  ∑ r : Fin 512, ∑ d : Fin 256,
    (quant E (encK X E) (tk k r) d - X (tk k r) d) * (quant E (encK X E) (tk k r) d - X (tk k r) d)

theorem dwTerm_ge (n' : Fin 8192) (j : Fin 264) (hj : ¬ j.val < 256) (k : ℕ) :
    dwTerm X E j n' k = ∑ r : Fin 512, encK X E (tk k r) n' := by
  unfold dwTerm
  refine Finset.sum_congr rfl fun r _ => ?_
  rw [dif_neg hj, one_mul]

theorem dwTerm_lt (n' : Fin 8192) (j : Fin 264) (hj : j.val < 256) (k : ℕ) :
    dwTerm X E j n' k = ∑ r : Fin 512, X (tk k r) ⟨j.val, hj⟩ * encK X E (tk k r) n' := by
  unfold dwTerm
  refine Finset.sum_congr rfl fun r _ => ?_
  rw [dif_pos hj]

end terms

section
variable (m : (ℓ : Loc nD τ sig) → Buf (Elt Ideal) ℓ) (c : Dev nD) (X : Tok → Feat → EReal) (E : Code → Feat → EReal)

/-! ## The codebook scratch -/

section scratch
variable (heb : ∀ n d, eb m c (ix2 n d) = E n d)
include heb

theorem S0_apply (n : Fin 8192) (d : Fin 256) : S0 m c (ix2 n d) = E n d := prep_codebook E (eb m c) heb n d
theorem S1_apply (d : Fin 256) (n : Fin 8192) : S1 m c (ix2 d n) = E n d + E n d := prep_doubled E (eb m c) heb d n
theorem S2_apply (n : Fin 8192) : S2 m c (ix2 (0 : Fin 1) n) = esq E n := prep_sqnorm E (eb m c) heb n

end scratch

variable (hxb : ∀ (t : Fin cfg0.N) (r : Fin 512) (d : Fin 256),
    xb m c t (ix2 r d) = X (tileTok ⟨t.val, lt_of_lt_of_eq t.isLt N_0⟩ r) d)
  (heb : ∀ n d, eb m c (ix2 n d) = E n d)
include hxb heb

/-! ## One tile -/

/-- The output tile at point t: row r is the quantizer's output at token 512·t + r. -/
theorem out_tile (t : Fin cfg0.N) (r : Fin 512) (d : Fin 256) :
    O2 m c t (ix2 r d) = outv X E (encK X E) (tileTok ⟨t.val, lt_of_lt_of_eq t.isLt N_0⟩ r) d :=
  tile_out X E (xb m c t) (S2 m c) (S1 m c) (S0 m c) _ r (fun d => hxb t r d) (S2_apply m c E heb)
    (S1_apply m c E heb) (S0_apply m c E heb) d

omit heb in
/-- The token tile at point k, row r, is token r of tile k. -/
theorem xb_apply (k : ℕ) (h : k < cfg0.N) (r : Fin 512) (d : Fin 256) : xb m c ⟨k, h⟩ (ix2 r d) = X (tk k r) d :=
  (hxb ⟨k, h⟩ r d).trans (congrArg (fun t => X t d) (tk_lt k (lt_of_lt_of_eq h N_0) r).symm)

/-- What point k adds to the table. -/
theorem tile_dw (k : ℕ) (h : k < cfg0.N) (j : Fin 264) (n' : Fin 8192) :
    ∑ r : Fin 512, (if hj : j.val < 256 then k0_pay19 (xb m c ⟨k, h⟩) (ix2 r ⟨j.val, hj⟩) else 1)
        * k0_pay20 (xb m c ⟨k, h⟩) (S2 m c) (S1 m c) (ix2 r n') = dwTerm X E j n' k := by
  unfold dwTerm
  refine Finset.sum_congr rfl fun r _ => ?_
  rw [tile_enc X E (xb m c ⟨k, h⟩) (S2 m c) (S1 m c) (tk k r) r (fun d => xb_apply m c X hxb k h r d)
    (S2_apply m c E heb) (S1_apply m c E heb) n']
  refine congrArg (· * encK X E (tk k r) n') ?_
  by_cases hj : j.val < 256
  · rw [dif_pos hj, dif_pos hj]
    exact tile_x X (xb m c ⟨k, h⟩) (tk k r) r (fun d => xb_apply m c X hxb k h r d) ⟨j.val, hj⟩
  · rw [dif_neg hj, dif_neg hj]

/-- What point k adds to the squared-error cell. -/
theorem tile_sqsum (k : ℕ) (h : k < cfg0.N) :
    ∑ r : Fin 512, ∑ d : Fin 256, k0_pay24 (xb m c ⟨k, h⟩) (S2 m c) (S1 m c) (S0 m c) (ix3 (0 : Fin 1) r d)
      = sqTerm X E k := by
  unfold sqTerm
  refine Finset.sum_congr rfl fun r _ => Finset.sum_congr rfl fun d _ => ?_
  exact tile_sq X E (xb m c ⟨k, h⟩) (S2 m c) (S1 m c) (S0 m c) (tk k r) r (fun d => xb_apply m c X hxb k h r d)
    (S2_apply m c E heb) (S1_apply m c E heb) (S0_apply m c E heb) d

/-! ## The table -/

/-- The table after point n: the contributions of the tiles 0 … n. -/
theorem S3_apply (n : ℕ) (h : n < cfg0.N) (j : Fin 264) (n' : Fin 8192) :
    S3 m c n h (ix2 j n') = ∑ k ∈ Finset.range (n + 1), dwTerm X E j n' k := by
  induction n with
  | zero =>
    rw [S3_zero, pay4_apply, if_pos (arg0_first h), zero_add, Finset.sum_range_one]
    exact tile_dw m c X E hxb heb 0 h j n'
  | succ n ih =>
    rw [S3_succ, pay4_apply, if_neg (arg0_later n h), ih (Nat.lt_of_succ_lt h), Finset.sum_range_succ _ (n + 1)]
    exact congrArg (_ + ·) (tile_dw m c X E hxb heb (n + 1) h j n')

/-- The table as the last point computes it: the contributions of all sixteen tiles. -/
theorem acc15_apply (j : Fin 264) (n' : Fin 8192) : acc15 m c (ix2 j n') = ∑ k : Fin 16, dwTerm X E j n' k.val := by
  have h15 : ¬ arg0At t0_15 = 0#32 := arg0_later 14 t0_15.isLt
  unfold acc15
  rw [pay3_apply, if_neg h15, S3_apply m c X E hxb heb 14 _ j n']
  refine (congrArg (∑ k ∈ Finset.range (14 + 1), dwTerm X E j n' k + ·) (tile_dw m c X E hxb heb 15 t0_15.isLt j n')).trans ?_
  refine (Finset.sum_range_succ (fun k => dwTerm X E j n' k) 15).symm.trans ?_
  exact sum_range_sixteen (fun k => dwTerm X E j n' k)

/-- Row 256 of the table after the last tile: the column sums of the weights. -/
theorem acc_colsum (n' : Fin 8192) : acc15 m c (ix2 ⟨256, by norm_num⟩ n') = colsum (encK X E) n' := by
  rw [acc15_apply m c X E hxb heb]
  unfold colsum
  rw [← sum_tiles (fun t => encK X E t n')]
  refine Finset.sum_congr rfl fun k _ => ?_
  rw [dwTerm_ge X E n' _ (by norm_num) k.val]
  refine Finset.sum_congr rfl fun r _ => ?_
  rw [tk_fin]

/-- Rows 0 … 255 of the table after the last tile: Σ_t x(t, d) · enc(t, n). -/
theorem acc_dw (d : Fin 256) (n' : Fin 8192) :
    acc15 m c (ix2 ⟨d.val, by have := d.isLt; omega⟩ n') = ∑ t, X t d * encK X E t n' := by
  rw [acc15_apply m c X E hxb heb, ← sum_tiles (fun t => X t d * encK X E t n')]
  refine Finset.sum_congr rfl fun k _ => ?_
  rw [dwTerm_lt X E n' _ d.isLt k.val]
  refine Finset.sum_congr rfl fun r _ => ?_
  show X (tk k.val r) d * encK X E (tk k.val r) n' = _
  rw [tk_fin]

/-! ## The squared-error cell -/

/-- The cell after point n: the contributions of the tiles 0 … n. -/
theorem S4_apply (n : ℕ) (h : n < cfg0.N) :
    S4 m c n h (ix2 (0 : Fin 1) (0 : Fin 1)) = ∑ k ∈ Finset.range (n + 1), sqTerm X E k := by
  induction n with
  | zero =>
    have h0 : ((grid0.coords ⟨0, h⟩) 0).val = 0 := coord0 ⟨0, h⟩
    rw [S4_zero, pay2_apply, pay23_apply, if_pos h0, zero_add, Finset.sum_range_one]
    exact tile_sqsum m c X E hxb heb 0 h
  | succ n ih =>
    have h0 : ¬ ((grid0.coords ⟨n + 1, h⟩) 0).val = 0 := by rw [coord0]; exact Nat.succ_ne_zero n
    rw [S4_succ, pay2_apply, pay23_apply, if_neg h0, ih (Nat.lt_of_succ_lt h), Finset.sum_range_succ _ (n + 1)]
    exact congrArg (_ + ·) (tile_sqsum m c X E hxb heb (n + 1) h)

/-- The cell as the last point computes it: the total squared error. -/
theorem sq_total :
    k0_pay1 (k0_pay23 (grid0.coords t0_15) (S4 m c 14 (by rw [show cfg0.N = 16 from N_0]; decide)))
        (k0_pay24 (xb m c t0_15) (S2 m c) (S1 m c) (S0 m c)) (ix2 (0 : Fin 1) (0 : Fin 1))
      = sqerr X E (encK X E) := by
  have h0 : ¬ ((grid0.coords t0_15) 0).val = 0 := by rw [coord0]; exact Nat.succ_ne_zero 14
  rw [pay1_apply, pay23_apply, if_neg h0, S4_apply m c X E hxb heb 14 _]
  refine (congrArg (∑ k ∈ Finset.range (14 + 1), sqTerm X E k + ·) (tile_sqsum m c X E hxb heb 15 t0_15.isLt)).trans ?_
  refine (Finset.sum_range_succ (fun k => sqTerm X E k) 15).symm.trans ?_
  refine (sum_range_sixteen (fun k => sqTerm X E k)).trans ?_
  unfold sqerr
  rw [← sum_tiles (fun t => ∑ d, (quant E (encK X E) t d - X t d) * (quant E (encK X E) t d - X t d))]
  refine Finset.sum_congr rfl fun k _ => ?_
  unfold sqTerm
  refine Finset.sum_congr rfl fun r _ => ?_
  rw [tk_fin]

end

end Cert.VQ.KerAcc

end
-- ==== Proof.KerScalars.lean ====
/-
  The kernel's closing scalars as functions of the weighted-sum table.

  After the last tile, row 256 of the table [264, 8192] holds the column sums of the weights (how much each code is
  used) and rows 0 … 255 hold Σ_t x(t, d) · enc(t, n). From row 256: the mean usage and Σ avg · log (avg + tiny); the
  moving-average cluster sizes, their total, the usage distribution and Σ up · log (up + tiny); the smoothed cluster
  sizes. From rows 0 … 255 and the smoothed sizes: the regulariser, squares summed first. With the accumulated squared
  error these give the loss; the perplexity is the exponential of the negated first sum.
-/
import proofs.«125548_g45775761441265_cont_8to1_c_906_26_alg».proof.Proof.Gen.KernelIdeal.Skeleton
import proofs.«125548_g45775761441265_cont_8to1_c_906_26_alg».proof.Proof.Spec
import proofs.«125548_g45775761441265_cont_8to1_c_906_26_alg».proof.Proof.KerAcc

noncomputable section

open scoped BigOperators

namespace Cert.VQ.Ker

open Idealize.ShloMosaic Idealize.ShloMosaic.ValueIdx Cert.KernelIdeal Cert.KernelIdeal.Gen Cert.VQ

/-! ## Operations read at an index -/

/-- The exponential and the logarithm of a vector, at an index. -/
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- Row 256 of the table, at code n. -/
theorem slice_row256 (v51 : FVec Ideal S264x8192 .f32) (h : S264x8192.Slices ![256, 0] S1x8192) (n : Fin 8192) :
    extractStridedSlice S1x8192 ![256, 0] v51 h (ix2 0 n) = v51 (ix2 ⟨256, by norm_num⟩ n) := by
  refine extractStridedSlice_apply ![256, 0] v51 h (ix2 0 n) _ fun a => ?_
  match a with
  | ⟨0, _⟩ => rfl
  | ⟨1, _⟩ => exact (Nat.zero_add _).symm

/-- Rows 0 … 255 of the table, at (d, n). -/
theorem slice_rows (v51 : FVec Ideal S264x8192 .f32) (h : S264x8192.Slices ![0, 0] S256x8192) (d : Fin 256) (n : Fin 8192) :
    extractStridedSlice S256x8192 ![0, 0] v51 h (ix2 d n) = v51 (ix2 ⟨d.val, by have := d.isLt; omega⟩ n) := by
  refine extractStridedSlice_apply ![0, 0] v51 h (ix2 d n) _ fun a => ?_
  match a with
  | ⟨0, _⟩ => exact (Nat.zero_add _).symm
  | ⟨1, _⟩ => exact (Nat.zero_add _).symm

/-- A cell [1, 1] stretched along a row of 8192, at (0, n): the cell. -/
theorem bcast_row_apply (v : FVec Ideal S1x1 .f32) (h : S1x1.Broadcasts S1x8192) (n : Fin 8192) :
    broadcastTo S1x8192 v h (ix2 0 n) = v (ix2 0 0) := by
  refine broadcastTo_apply v h (ix2 0 n) (ix2 0 0) fun a => ?_
  match a with
  | ⟨0, _⟩ => rfl
  | ⟨1, _⟩ => rfl

/-- A vector [8192] viewed as a row [1, 8192], at (0, n). -/
theorem shapeCast_row_apply (v : FVec Ideal S8192 .f32) (h : S8192.ShapeCasts S1x8192) (n : Fin 8192) :
    shapeCast S1x8192 v h (ix2 0 n) = v (ix1 n) := by
  refine (shapeCast_addUnit_apply ![8192] v h (ix2 0 n)).trans (congrArg v ?_)
  funext a
  match a with
  | ⟨0, _⟩ => rfl

/-- The sum down the 256 rows of a [256, 8192] array, at column n. -/
theorem col_sum (v : FVec Ideal S256x8192 .f32) (h : S256x8192.Reduces [0] S8192) (hφ : FKind.Formats .f32)
    (hacc : (0x00000000#32 : BitVec FTy.f32.bits) = 0x00000000#32) (n : Fin 8192) :
    multiReduction (F := Ideal) .add [0] S8192 v 0x00000000#32 h hφ hacc (ix1 n) = ∑ d : Fin 256, v (ix2 d n) := by
  refine (Ideal.multiReduction_add_single v 0x00000000#32 h hφ hacc (ix1 n)).trans ?_
  refine Finset.sum_congr rfl fun d _ => congrArg v ?_
  funext a
  apply Fin.ext
  match a with
  | ⟨0, _⟩ => rfl
  | ⟨1, _⟩ => rfl

/-- The sum along a row [1, 8192] as the kernel takes it — viewed [1, 1, 8192], summed over the two trailing axes, the
    one entry taken out: the sum of the row's entries. -/
theorem lane_total (v : FVec Ideal S1x8192 .f32) (hc : S1x8192.ShapeCasts S1x1x8192)
    (hr : S1x1x8192.Reduces [1, 2] S1) (hφ : FKind.Formats .f32) (hacc : (0x00000000#32 : BitVec FTy.f32.bits) = 0x00000000#32)
    (hc1 : S1.ShapeCasts S1x1x1) (hp : ∀ a, (![0, 0, 0] : Fin 3 → Nat) a < S1x1x1.size a) :
    extractAt ![0, 0, 0] (shapeCast S1x1x1
        (multiReduction (F := Ideal) .add [1, 2] S1 (shapeCast S1x1x8192 v hc) 0x00000000#32 hr hφ hacc) hc1) hp
      = ∑ n : Fin 8192, v (ix2 0 n) := by
  refine (reduce_tail_scalar (shapeCast S1x1x8192 v hc) hr hφ hacc hc1 hp).trans ?_
  rw [Fin.sum_univ_one]
  refine Finset.sum_congr rfl fun n _ => ?_
  refine (shapeCast_addUnit_apply ![1, 8192] v hc (ix3 0 0 n)).trans (congrArg v ?_)
  funext a
  match a with
  | ⟨0, _⟩ => rfl
  | ⟨1, _⟩ => rfl

/-! ## The scalars of the closing step -/

section
variable (v51 : FVec Ideal S264x8192 .f32) (enc : Tok → Code → EReal)

/-- Row 256 of the table. -/
theorem pay7_row (n : Fin 8192) : k0_pay7 v51 (ix2 0 n) = v51 (ix2 ⟨256, by norm_num⟩ n) := by
  unfold k0_pay7
  exact slice_row256 v51 _ n

variable (hcol : ∀ n : Fin 8192, v51 (ix2 ⟨256, by norm_num⟩ n) = colsum enc n)
include hcol

/-- Row 256 holds the column sums of the weights. -/
theorem pay7_apply (n : Fin 8192) : k0_pay7 v51 (ix2 0 n) = colsum enc n := by
  rw [pay7_row, hcol]

/-- The moving-average cluster sizes. -/
theorem pay10_apply (n : Fin 8192) : k0_pay10 v51 (ix2 0 n) = ema enc n := by
  unfold k0_pay10
  rw [mulf_apply, broadcast_apply, pay7_apply v51 enc hcol]
  rfl

/-- Their total. -/
theorem pay11_apply : k0_pay11 v51 (ix2 0 0) = emaTot enc := by
  unfold k0_pay11
  rw [broadcast_apply]
  refine (lane_total _ _ _ _ _ _ _).trans ?_
  unfold emaTot
  exact Finset.sum_congr rfl fun n _ => pay10_apply v51 enc hcol n

/-- The cluster sizes plus the small constant. -/
theorem pay12_apply (n : Fin 8192) : k0_pay12 v51 (ix2 0 n) = ema enc n + w 0x3727C5AC#32 := by
  unfold k0_pay12
  rw [addf_apply, broadcast_apply, pay10_apply v51 enc hcol]
  rfl

/-- The negated first entropy sum. -/
theorem pay8_apply : k0_pay8 v51 (ix2 0 0) = 0 - entSum enc := by
  unfold k0_pay8
  rw [subf_apply, broadcast_apply, broadcast_apply]
  refine congrArg₂ (· - ·) Ideal.ofBits_zero_f32 ((lane_total _ _ _ _ _ _ _).trans ?_)
  unfold entSum
  refine Finset.sum_congr rfl fun n _ => ?_
  simp only [mulf_apply, log_apply, addf_apply, divf_apply, broadcast_apply, pay7_apply v51 enc hcol]
  rfl

/-- The negated second entropy sum. -/
theorem pay9_apply : k0_pay9 v51 (ix2 0 0) = 0 - divSum enc := by
  unfold k0_pay9
  rw [subf_apply, broadcast_apply, broadcast_apply]
  refine congrArg₂ (· - ·) Ideal.ofBits_zero_f32 ((lane_total _ _ _ _ _ _ _).trans ?_)
  unfold divSum
  refine Finset.sum_congr rfl fun n _ => ?_
  simp only [mulf_apply, log_apply, addf_apply, divf_apply, broadcast_apply, bcast_row_apply,
    pay7_apply v51 enc hcol]
  rw [lane_total]
  simp only [mulf_apply, broadcast_apply, pay7_apply v51 enc hcol]
  rfl

end

/-- The small constant times the number of codes. -/
theorem pay13_apply : k0_pay13 (F := Ideal) (ix2 0 0) = w 0x3DA7C5AC#32 := by
  unfold k0_pay13
  rfl

/-- The stored perplexity cell is the exponential of its argument. -/
theorem pay6_apply (v71 : FVec Ideal S1x1 .f32) : k0_pay6 v71 (ix2 0 0) = Ideal.exp (v71 (ix2 0 0)) := by
  unfold k0_pay6
  rfl

/-- The perplexity: the exponential of the negated first entropy sum. -/
theorem ker_perp (v51 : FVec Ideal S264x8192 .f32) (enc : Tok → Code → EReal)
    (hcol : ∀ n : Fin 8192, v51 (ix2 ⟨256, by norm_num⟩ n) = colsum enc n) :
    k0_pay6 (k0_pay8 v51) (ix2 0 0) = perpK enc := by
  rw [pay6_apply, pay8_apply v51 enc hcol]
  rfl

/-- The loss cell from its ingredients: the accumulated squared error, rows 0 … 255 of the table, the two negated
    entropy sums, the total and the shifted cluster sizes. -/
theorem pay5_apply (arg0 : BitVec 32) (v5 : FVec Ideal S512x256 .bf16) (v24 : FVec Ideal S512x8192 .bf16)
    (v33 : FVec Ideal S1x1 .f32) (v35 : FVec Ideal S1x512x256 .f32) (v47 : Vec Ideal S264x8192 .f32)
    (v71 v93 v100 : FVec Ideal S1x1 .f32) (v102 : FVec Ideal S1x8192 .f32) (v103 : FVec Ideal S1x1 .f32)
    (X : Tok → Feat → EReal) (E : Code → Feat → EReal) (enc : Tok → Code → EReal)
    (h71 : v71 (ix2 0 0) = 0 - entSum enc) (h93 : v93 (ix2 0 0) = 0 - divSum enc)
    (h100 : v100 (ix2 0 0) = emaTot enc) (h102 : ∀ n : Fin 8192, v102 (ix2 0 n) = ema enc n + w 0x3727C5AC#32)
    (h103 : v103 (ix2 0 0) = w 0x3DA7C5AC#32)
    (hdw : ∀ (d : Fin 256) (n : Fin 8192),
      k0_pay3 arg0 v5 v24 v47 (ix2 ⟨d.val, by have := d.isLt; omega⟩ n) = ∑ t, X t d * enc t n)
    (hsq : k0_pay1 v33 v35 (ix2 0 0) = sqerr X E enc) :
    k0_pay5 arg0 v5 v24 v33 v35 v47 v71 v93 v100 v102 v103 (ix2 0 0) = lossK X E enc := by
  unfold k0_pay5
  simp only [addf_apply, mulf_apply, divf_apply, broadcast_apply, h71, h93, hsq]
  rw [lane_total]
  unfold lossK mse regK
  refine congrArg₂ (· + ·) (congrArg₂ (· + ·) rfl (Finset.sum_congr rfl fun n _ => ?_)) rfl
  rw [divf_apply, shapeCast_row_apply, col_sum]
  simp only [mulf_apply, divf_apply, addf_apply, broadcast_apply, bcast_row_apply, slice_rows, hdw, h100, h102, h103]
  rfl

/-- The loss: the closing step's cell with the closing step's own scalars. -/
theorem ker_loss (arg0 : BitVec 32) (v5 : FVec Ideal S512x256 .bf16) (v24 : FVec Ideal S512x8192 .bf16)
    (v33 : FVec Ideal S1x1 .f32) (v35 : FVec Ideal S1x512x256 .f32) (v47 : Vec Ideal S264x8192 .f32)
    (X : Tok → Feat → EReal) (E : Code → Feat → EReal) (enc : Tok → Code → EReal)
    (hcol : ∀ n : Fin 8192, k0_pay3 arg0 v5 v24 v47 (ix2 ⟨256, by norm_num⟩ n) = colsum enc n)
    (hdw : ∀ (d : Fin 256) (n : Fin 8192),
      k0_pay3 arg0 v5 v24 v47 (ix2 ⟨d.val, by have := d.isLt; omega⟩ n) = ∑ t, X t d * enc t n)
    (hsq : k0_pay1 v33 v35 (ix2 0 0) = sqerr X E enc) :
    k0_pay5 arg0 v5 v24 v33 v35 v47 (k0_pay8 (k0_pay3 arg0 v5 v24 v47)) (k0_pay9 (k0_pay3 arg0 v5 v24 v47))
        (k0_pay11 (k0_pay3 arg0 v5 v24 v47)) (k0_pay12 (k0_pay3 arg0 v5 v24 v47)) k0_pay13 (ix2 0 0)
      = lossK X E enc :=
  pay5_apply arg0 v5 v24 v33 v35 v47 _ _ _ _ _ X E enc (pay8_apply _ enc hcol) (pay9_apply _ enc hcol)
    (pay11_apply _ enc hcol) (fun n => pay12_apply _ enc hcol n) pay13_apply hdw hsq

end Cert.VQ.Ker

end
-- ==== Proof.KV.Scalars.lean ====
/-
  The two scalar results after the last tile.

  With the table's row 256 holding the column sums of the weights, its rows 0 … 255 holding Σ_t x(t, d) · enc(t, n), and the
  squared-error cell holding the total squared error, the closing step's loss cell is the loss of the first arrangement and
  its perplexity cell the exponential of the negated first entropy sum.
-/
import proofs.«125548_g45775761441265_cont_8to1_c_906_26_alg».proof.Proof.KV.Accum
import proofs.«125548_g45775761441265_cont_8to1_c_906_26_alg».proof.Proof.KerScalars

set_option maxRecDepth 16384

noncomputable section

open scoped BigOperators

namespace Cert.VQ.KerAcc

open Idealize.ShloMosaic Idealize.ShloMosaic.ValueIdx Idealize.ShloMosaic.TcCoe Idealize.SL Idealize.SL.Sem
open Cert.KernelIdeal Cert.KernelIdeal.Gen Cert.KernelIdeal.Body Cert.VQ Cert.VQ.Ker

section
variable (m : (ℓ : Loc nD τ sig) → Buf (Elt Ideal) ℓ) (c : Dev nD) (X : Tok → Feat → EReal) (E : Code → Feat → EReal)
  (hxb : ∀ (t : Fin cfg0.N) (r : Fin 512) (d : Fin 256),
    xb m c t (ix2 r d) = X (tileTok ⟨t.val, lt_of_lt_of_eq t.isLt N_0⟩ r) d)
  (heb : ∀ n d, eb m c (ix2 n d) = E n d)
include hxb heb

/-- The perplexity cell after the last tile. -/
theorem perp_out : O4 m c (ix2 (0 : Fin 1) (0 : Fin 1)) = perpK (encK X E) :=
  ker_perp (acc15 m c) (encK X E) (acc_colsum m c X E hxb heb)

/-- The loss cell after the last tile. -/
theorem loss_out : O3 m c (ix2 (0 : Fin 1) (0 : Fin 1)) = lossK X E (encK X E) := by
  unfold O3
  exact ker_loss _ _ _ _ _ _ X E (encK X E) (acc_colsum m c X E hxb heb) (acc_dw m c X E hxb heb)
    (sq_total m c X E hxb heb)

end

end Cert.VQ.KerAcc

end
-- ==== Proof.lean ====
/-
  A soft vector quantizer — softmax weights over 8192 codes from the logits 2·x·e − ‖e‖², the weighted mean of
  the codes as the quantized token, a scalar loss (mean squared error, a regulariser over the moving-average
  codebook, two entropies of the code usage) and a perplexity — computed tile by tile in one kernel with the
  codebook-derived quantities and two running totals kept in scratch across the 16 grid points, against the same
  quantities computed array by array on the host.

  The three frames. The kernel's body is run symbolically once per case of its two branches on the grid point
  (first point, middle point, last point), at any float instance; the pipeline's proof data name what every
  buffer holds after every point, and the library's frame run for a tracked invariant with host lines after the
  region gives the frame of the word-level and of the idealized kernel. The reference's frame is its run with the
  results dropped.

  The values, at the ideal instance. Kernel side: each store's payload is read at an index as the specification's
  first arrangement of the weights on the point's 512 tokens; the two accumulators are the running totals of the
  tiles' contributions, hence sums over all tokens; the result arrays are the blocks written back. Reference side:
  each host operation is read at an index as the specification's second arrangement. The two arrangements agree
  when every input is a real number: the row constant ‖x‖² cancels inside the softmax, p·(1/s) = p/s for the
  positive real s, and Σ_d (w_d/c)² = (Σ_d w_d²)/(c·c) for the positive real cluster size c.
-/
import proofs.«125548_g45775761441265_cont_8to1_c_906_26_alg».proof.Defs
import proofs.«125548_g45775761441265_cont_8to1_c_906_26_alg».proof.Proof.Gen.Kernel
import proofs.«125548_g45775761441265_cont_8to1_c_906_26_alg».proof.Proof.Gen.KernelIdeal
import proofs.«125548_g45775761441265_cont_8to1_c_906_26_alg».proof.Proof.Gen.ReferenceIdeal
import proofs.«125548_g45775761441265_cont_8to1_c_906_26_alg».proof.Proof.Gen.Pre_finite_inputs
import proofs.«125548_g45775761441265_cont_8to1_c_906_26_alg».proof.Proof.Gen.ReferenceIdeal.Run
import proofs.«125548_g45775761441265_cont_8to1_c_906_26_alg».proof.Proof.K.Frame
import proofs.«125548_g45775761441265_cont_8to1_c_906_26_alg».proof.Proof.KI.Frame
import proofs.«125548_g45775761441265_cont_8to1_c_906_26_alg».proof.Proof.Spec
import proofs.«125548_g45775761441265_cont_8to1_c_906_26_alg».proof.Proof.Laws
import proofs.«125548_g45775761441265_cont_8to1_c_906_26_alg».proof.Proof.Finite
import proofs.«125548_g45775761441265_cont_8to1_c_906_26_alg».proof.Proof.RefSide
import proofs.«125548_g45775761441265_cont_8to1_c_906_26_alg».proof.Proof.KV.Blocks
import proofs.«125548_g45775761441265_cont_8to1_c_906_26_alg».proof.Proof.KV.Arrays
import proofs.«125548_g45775761441265_cont_8to1_c_906_26_alg».proof.Proof.KV.Tail
import proofs.«125548_g45775761441265_cont_8to1_c_906_26_alg».proof.Proof.KV.Accum
import proofs.«125548_g45775761441265_cont_8to1_c_906_26_alg».proof.Proof.KV.Scalars
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference's frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

open Cert.VQ in
/-- At the ideal instance, from memories agreeing on the arguments, both programs end with the same three results:
    the kernel's in the specification's first arrangement of its token matrix and codebook, the reference's in the
    second arrangement of the same two arrays, and the arrangements agree because every input entry is a real. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => ((fun i => outv (KerArr.Xk m c) (KerArr.Ek m c) (encK (KerArr.Xk m c) (KerArr.Ek m c)) (tokOf (i 0) (i 1)) (i 2)) : Cert.KernelIdeal.S8x1024x256.Idx → EReal),
    fun c => ((fun _ => lossK (KerArr.Xk m c) (KerArr.Ek m c) (encK (KerArr.Xk m c) (KerArr.Ek m c))) : Cert.KernelIdeal.S_.Idx → EReal),
    fun c => ((fun _ => perpK (encK (KerArr.Xk m c) (KerArr.Ek m c))) : Cert.KernelIdeal.S_.Idx → EReal), ?_, ?_⟩
  · -- the kernel: its result arrays are the blocks written back, its scalars the accumulators' functions
    refine (θ_run Cert.KernelIdeal.defs _ _).mono (fun r h c => ?_)
      (KerArr.kernel_run m ρ (fun c => outv (KerArr.Xk m c) (KerArr.Ek m c) (encK (KerArr.Xk m c) (KerArr.Ek m c)))
        (fun c t r d => KerAcc.out_tile m c (KerArr.Xk m c) (KerArr.Ek m c) (KerArr.xb_apply m c) (KerArr.eb_apply m c) t r d))
    obtain ⟨h1, h2, h3, h4, h5⟩ := h c
    refine ⟨h1, h2.trans ?_, h3.trans ?_, h4, h5⟩
    · exact funext fun _ => KerAcc.loss_out m c (KerArr.Xk m c) (KerArr.Ek m c) (KerArr.xb_apply m c) (KerArr.eb_apply m c)
    · exact funext fun _ => KerAcc.perp_out m c (KerArr.Xk m c) (KerArr.Ek m c) (KerArr.xb_apply m c) (KerArr.eb_apply m c)
  · -- the reference, over the same two arrays, in the other arrangement
    refine (θ_run Cert.ReferenceIdeal.defs _ _).mono (fun r h c => ?_) (Ref.ref_run m' ρ')
    obtain ⟨h1, h2, h3, h4, h5⟩ := h c
    have hre := Cert.VQ.Pre.reals_of_pre _ _ (hpre c)
    have hXe : Ref.Xof (StableHlo.launchContents m' c) = KerArr.Xk m c := by
      funext t d
      rw [KerArr.Xk_eq]
      exact congrFun (hagree c).1 _
    have hEe : Ref.Eof (StableHlo.launchContents m' c) = KerArr.Ek m c := by
      funext n d
      rw [KerArr.Ek_eq]
      exact congrFun (hagree c).2 _
    have hX : ∀ t d, ∃ x : ℝ, KerArr.Xk m c t d = (x : EReal) := fun t d => by
      rw [KerArr.Xk_eq]; exact hre.1 _
    have hE : ∀ n d, ∃ x : ℝ, KerArr.Ek m c n d = (x : EReal) := fun n d => by
      rw [KerArr.Ek_eq]; exact hre.2 _
    refine ⟨h1.trans ?_, h2.trans ?_, h3.trans ?_, h4, h5⟩
    · dsimp only; rw [hXe, hEe, ← outv_eq hX hE]; rfl
    · dsimp only; rw [hXe, hEe, ← lossK_eq_lossR hX hE]; rfl
    · dsimp only; rw [hXe, hEe, ← perpK_eq_perpR hX hE]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
